-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel
  bcast_S_S1536x256 : S_.BroadcastsInDim S1536x256 (![] : Fin 0 → Fin S1536x256.rank)
  reducesTo_S1536x256_S_d0_1 : S1536x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x8192x256 .f32) (main_arg1 : FVec F S1536x256 .f32) (main_arg2 : FVec F S256x512 .f32) (main_arg3 : FVec F S256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S1536x256 .f32 := Host.absf main_arg1
  let main_cst_0 : FVec F S_ .f32 := constant S_ .f32 0x7F800000#32
  let main_v5 : FVec F S1536x256 .f32 := broadcastInDim S1536x256 ![] bcast_S_S1536x256 main_cst_0
  let main_v6 : IVec S1536x256 1 := cmpf .olt main_v4 main_v5
  let main_c_1 : IVec S_ 1 := constantI S_ 1 1#1
  let main_v7 : IVec S_ 1 := (fun x v => Host.reduce IntOp.andi x v reducesTo_S1536x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S512x256 : Shape := ⟨2, ![512, 256]⟩
abbrev S256x1024 : Shape := ⟨2, ![256, 1024]⟩
abbrev S8x8x64x64 : Shape := ⟨4, ![8, 8, 64, 64]⟩
abbrev S1x1024x256 : Shape := ⟨3, ![1, 1024, 256]⟩
abbrev S1x8x64x64 : Shape := ⟨4, ![1, 8, 64, 64]⟩
abbrev S8x64x64 : Shape := ⟨3, ![8, 64, 64]⟩
abbrev S1024x256 : Shape := ⟨2, ![1024, 256]⟩
abbrev S1024x1024 : Shape := ⟨2, ![1024, 1024]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S512x512 : Shape := ⟨2, ![512, 512]⟩
abbrev S64x64 : Shape := ⟨2, ![64, 64]⟩
abbrev S1x64x64 : Shape := ⟨3, ![1, 64, 64]⟩
abbrev S_ : Shape := ⟨0, ![]⟩
abbrev S8x512x512 : Shape := ⟨3, ![8, 512, 512]⟩
abbrev S8x1x64x64 : Shape := ⟨4, ![8, 1, 64, 64]⟩
abbrev S1 : Shape := ⟨1, ![1]⟩
abbrev S2 : Shape := ⟨1, ![2]⟩
abbrev S1x512x512 : Shape := ⟨3, ![1, 512, 512]⟩
abbrev S1x256 : Shape := ⟨2, ![1, 256]⟩

abbrev nBuf : Space → Nat
  | .hbm => 105
  | .vmem => 15
  | .smem => 0
  | _ => 0

abbrev bufTy : (tb : Table) → Fin (tcTables nBuf tb) → BufTy
  | .hbm, ⟨0, _⟩ => ⟨S8x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x512, .f32⟩
  | .hbm, ⟨8, _⟩ => ⟨S512x256, .f32⟩
  | .hbm, ⟨9, _⟩ => ⟨S256x512, .f32⟩
  | .hbm, ⟨10, _⟩ => ⟨S256x1024, .f32⟩
  | .hbm, ⟨11, _⟩ => ⟨S512x256, .f32⟩
  | .hbm, ⟨12, _⟩ => ⟨S8x8x64x64, .f32⟩
  | .hbm, ⟨13, _⟩ => ⟨S_, .f32⟩
  | .hbm, ⟨14, _⟩ => ⟨S8x512x512, .f32⟩
  | .hbm, ⟨15, _⟩ => ⟨S8x1x64x64, .f32⟩
  | .hbm, ⟨16, _⟩ => ⟨S8x64x64, .f32⟩
  | .hbm, ⟨17, _⟩ => ⟨S_, .f32⟩
  | .hbm, ⟨18, _⟩ => ⟨S8x64x64, .f32⟩
  | .hbm, ⟨19, _⟩ => ⟨S8x64x64, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S8x512x512, .f32⟩
  | .hbm, ⟨26, _⟩ => ⟨S8x1x64x64, .f32⟩
  | .hbm, ⟨27, _⟩ => ⟨S8x64x64, .f32⟩
  | .hbm, ⟨28, _⟩ => ⟨S_, .f32⟩
  | .hbm, ⟨29, _⟩ => ⟨S8x64x64, .f32⟩
  | .hbm, ⟨30, _⟩ => ⟨S8x64x64, .f32⟩
  | .hbm, ⟨31, _⟩ => ⟨S_, .i32⟩
  | .hbm, ⟨32, _⟩ => ⟨S1, .i32⟩
  | .hbm, ⟨33, _⟩ => ⟨S_, .i32⟩
  | .hbm, ⟨34, _⟩ => ⟨S1, .i32⟩
  | .hbm, ⟨35, _⟩ => ⟨S2, .i32⟩
  | .hbm, ⟨36, _⟩ => ⟨S8x512x512, .f32⟩
  | .hbm, ⟨37, _⟩ => ⟨S8x1x64x64, .f32⟩
  | .hbm, ⟨38, _⟩ => ⟨S8x64x64, .f32⟩
  | .hbm, ⟨39, _⟩ => ⟨S_, .f32⟩
  | .hbm, ⟨40, _⟩ => ⟨S8x64x64, .f32⟩
  | .hbm, ⟨41, _⟩ => ⟨S8x64x64, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S8x512x512, .f32⟩
  | .hbm, ⟨48, _⟩ => ⟨S8x1x64x64, .f32⟩
  | .hbm, ⟨49, _⟩ => ⟨S8x64x64, .f32⟩
  | .hbm, ⟨50, _⟩ => ⟨S_, .f32⟩
  | .hbm, ⟨51, _⟩ => ⟨S8x64x64, .f32⟩
  | .hbm, ⟨52, _⟩ => ⟨S8x64x64, .f32⟩
  | .hbm, ⟨53, _⟩ => ⟨S_, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S2, .i32⟩
  | .hbm, ⟨58, _⟩ => ⟨S8x512x512, .f32⟩
  | .hbm, ⟨59, _⟩ => ⟨S8x1x64x64, .f32⟩
  | .hbm, ⟨60, _⟩ => ⟨S8x64x64, .f32⟩
  | .hbm, ⟨61, _⟩ => ⟨S_, .f32⟩
  | .hbm, ⟨62, _⟩ => ⟨S8x64x64, .f32⟩
  | .hbm, ⟨63, _⟩ => ⟨S8x64x64, .f32⟩
  | .hbm, ⟨64, _⟩ => ⟨S_, .i32⟩
  | .hbm, ⟨65, _⟩ => ⟨S1, .i32⟩
  | .hbm, ⟨66, _⟩ => ⟨S_, .i32⟩
  | .hbm, ⟨67, _⟩ => ⟨S1, .i32⟩
  | .hbm, ⟨68, _⟩ => ⟨S2, .i32⟩
  | .hbm, ⟨69, _⟩ => ⟨S8x512x512, .f32⟩
  | .hbm, ⟨70, _⟩ => ⟨S8x1x64x64, .f32⟩
  | .hbm, ⟨71, _⟩ => ⟨S8x64x64, .f32⟩
  | .hbm, ⟨72, _⟩ => ⟨S_, .f32⟩
  | .hbm, ⟨73, _⟩ => ⟨S8x64x64, .f32⟩
  | .hbm, ⟨74, _⟩ => ⟨S8x64x64, .f32⟩
  | .hbm, ⟨75, _⟩ => ⟨S_, .i32⟩
  | .hbm, ⟨76, _⟩ => ⟨S1, .i32⟩
  | .hbm, ⟨77, _⟩ => ⟨S_, .i32⟩
  | .hbm, ⟨78, _⟩ => ⟨S1, .i32⟩
  | .hbm, ⟨79, _⟩ => ⟨S2, .i32⟩
  | .hbm, ⟨80, _⟩ => ⟨S8x512x512, .f32⟩
  | .hbm, ⟨81, _⟩ => ⟨S8x1x64x64, .f32⟩
  | .hbm, ⟨82, _⟩ => ⟨S8x64x64, .f32⟩
  | .hbm, ⟨83, _⟩ => ⟨S_, .f32⟩
  | .hbm, ⟨84, _⟩ => ⟨S8x64x64, .f32⟩
  | .hbm, ⟨85, _⟩ => ⟨S8x64x64, .f32⟩
  | .hbm, ⟨86, _⟩ => ⟨S_, .i32⟩
  | .hbm, ⟨87, _⟩ => ⟨S1, .i32⟩
  | .hbm, ⟨88, _⟩ => ⟨S_, .i32⟩
  | .hbm, ⟨89, _⟩ => ⟨S1, .i32⟩
  | .hbm, ⟨90, _⟩ => ⟨S2, .i32⟩
  | .hbm, ⟨91, _⟩ => ⟨S8x512x512, .f32⟩
  | .hbm, ⟨92, _⟩ => ⟨S8x1x64x64, .f32⟩
  | .hbm, ⟨93, _⟩ => ⟨S8x64x64, .f32⟩
  | .hbm, ⟨94, _⟩ => ⟨S_, .f32⟩
  | .hbm, ⟨95, _⟩ => ⟨S8x64x64, .f32⟩
  | .hbm, ⟨96, _⟩ => ⟨S8x64x64, .f32⟩
  | .hbm, ⟨97, _⟩ => ⟨S_, .i32⟩
  | .hbm, ⟨98, _⟩ => ⟨S1, .i32⟩
  | .hbm, ⟨99, _⟩ => ⟨S_, .i32⟩
  | .hbm, ⟨100, _⟩ => ⟨S1, .i32⟩
  | .hbm, ⟨101, _⟩ => ⟨S2, .i32⟩
  | .hbm, ⟨102, _⟩ => ⟨S8x512x512, .f32⟩
  | .hbm, ⟨103, _⟩ => ⟨S8x512x512, .bf16⟩
  | .hbm, ⟨104, _⟩ => ⟨S8x8192x256, .f32⟩
  | .local _ .vmem, ⟨0, _⟩ => ⟨S1x1024x256, .f32⟩
  | .local _ .vmem, ⟨1, _⟩ => ⟨S1x1024x256, .f32⟩
  | .local _ .vmem, ⟨2, _⟩ => ⟨S256x1024, .f32⟩
  | .local _ .vmem, ⟨3, _⟩ => ⟨S1x8x64x64, .f32⟩
  | .local _ .vmem, ⟨4, _⟩ => ⟨S1x8x64x64, .f32⟩
  | .local _ .vmem, ⟨5, _⟩ => ⟨S8x64x64, .f32⟩
  | .local _ .vmem, ⟨6, _⟩ => ⟨S1x1024x256, .f32⟩
  | .local _ .vmem, ⟨7, _⟩ => ⟨S1x1024x256, .f32⟩
  | .local _ .vmem, ⟨8, _⟩ => ⟨S256x512, .f32⟩
  | .local _ .vmem, ⟨9, _⟩ => ⟨S1x512x512, .bf16⟩
  | .local _ .vmem, ⟨10, _⟩ => ⟨S1x512x512, .bf16⟩
  | .local _ .vmem, ⟨11, _⟩ => ⟨S512x256, .f32⟩
  | .local _ .vmem, ⟨12, _⟩ => ⟨S256, .f32⟩
  | .local _ .vmem, ⟨13, _⟩ => ⟨S1x1024x256, .f32⟩
  | .local _ .vmem, ⟨14, _⟩ => ⟨S1x1024x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_c_9 : Ref sig .tc := ⟨.hbm, 53, rfl⟩
abbrev main_v38 : Ref sig .tc := ⟨.hbm, 54, rfl⟩
abbrev main_c_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_v44 : Ref sig .tc := ⟨.hbm, 62, rfl⟩
abbrev main_v45 : Ref sig .tc := ⟨.hbm, 63, rfl⟩
abbrev main_c_12 : Ref sig .tc := ⟨.hbm, 64, rfl⟩
abbrev main_v46 : Ref sig .tc := ⟨.hbm, 65, rfl⟩
abbrev main_c_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_c_15 : Ref sig .tc := ⟨.hbm, 75, rfl⟩
abbrev main_v54 : Ref sig .tc := ⟨.hbm, 76, rfl⟩
abbrev main_c_16 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_c_18 : Ref sig .tc := ⟨.hbm, 86, rfl⟩
abbrev main_v62 : Ref sig .tc := ⟨.hbm, 87, rfl⟩
abbrev main_c_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_20 : Ref sig .tc := ⟨.hbm, 94, rfl⟩
abbrev main_v68 : Ref sig .tc := ⟨.hbm, 95, rfl⟩
abbrev main_v69 : Ref sig .tc := ⟨.hbm, 96, rfl⟩
abbrev main_c_21 : Ref sig .tc := ⟨.hbm, 97, rfl⟩
abbrev main_v70 : Ref sig .tc := ⟨.hbm, 98, rfl⟩
abbrev main_c_22 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S256x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x512x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S512x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  slices_S1536x256_S512x256_0_0 : S1536x256.Slices ![0, 0] S512x256
  transposes_S512x256_S256x512_1_0 : S512x256.Transposes [1, 0] S256x512
  slices_S1536x256_S512x256_512_0 : S1536x256.Slices ![512, 0] S512x256
  slices_S1536x256_S512x256_1024_0 : S1536x256.Slices ![1024, 0] S512x256
  concatenates_S256x512_S256x512_S256x1024_d1 : Shape.Concatenates [S256x512, S256x512] S256x1024 1
  transposes_S256x512_S512x256_1_0 : S256x512.Transposes [1, 0] S512x256
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  slices_S1024x1024_o0_0_S1024x512 : S1024x1024.Slices ![0, 0] S1024x512
  slices_S1024x1024_o0_512_S1024x512 : S1024x1024.Slices ![0, 512] S1024x512
  slices_S1024x512_o0_0_S1024x64 : S1024x512.Slices ![0, 0] S1024x64
  reduces_S1024x64_S1024 : S1024x64.Reduces [1] S1024
  shapeCasts_S1024_S1024x1 : S1024.ShapeCasts S1024x1
  broadcasts_S1024x1_S1024x64 : S1024x1.Broadcasts S1024x64
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  slices_S512x512_o0_0_S64x64 : S512x512.Slices ![0, 0] S64x64
  slices_S512x512_o64_64_S64x64 : S512x512.Slices ![64, 64] S64x64
  slices_S512x512_o128_128_S64x64 : S512x512.Slices ![128, 128] S64x64
  slices_S512x512_o192_192_S64x64 : S512x512.Slices ![192, 192] S64x64
  slices_S512x512_o256_256_S64x64 : S512x512.Slices ![256, 256] S64x64
  slices_S512x512_o320_320_S64x64 : S512x512.Slices ![320, 320] S64x64
  slices_S512x512_o384_384_S64x64 : S512x512.Slices ![384, 384] S64x64
  slices_S512x512_o448_448_S64x64 : S512x512.Slices ![448, 448] S64x64
  shapeCasts_S64x64_S1x64x64 : S64x64.ShapeCasts S1x64x64
  concatenates_S1x64x64_S1x64x64_S1x64x64_S1x64x64_S1x64x64_S1x64x64_S1x64x64_S1x64x64_S8x64x64_d0 : Shape.Concatenates [S1x64x64, S1x64x64, S1x64x64, S1x64x64, S1x64x64, S1x64x64, S1x64x64, S1x64x64] S8x64x64 0
  inb_S1x8x64x64_S1x8x64x64_0_0_0_0 : ∀ a, (![0, 0, 0, 0] : Fin 4 → Nat) a + S1x8x64x64.size a ≤ S1x8x64x64.size a
  h_S1x8x64x64 : 0 < S1x8x64x64.numel
  shapeCasts_S1x8x64x64_S8x64x64 : S1x8x64x64.ShapeCasts S8x64x64
  shapeCasts_S8x64x64_S1x8x64x64 : S8x64x64.ShapeCasts S1x8x64x64
  bcast_S_S8x512x512 : S_.BroadcastsInDim S8x512x512 (![] : Fin 0 → Fin S8x512x512.rank)
  slices_S8x8x64x64_S8x1x64x64_0_0_0_0 : S8x8x64x64.Slices ![0, 0, 0, 0] S8x1x64x64
  shapeCasts_S8x1x64x64_S8x64x64 : S8x1x64x64.ShapeCasts S8x64x64
  bcast_S_S8x64x64 : S_.BroadcastsInDim S8x64x64 (![] : Fin 0 → Fin S8x64x64.rank)
  bcast_S_S1 : S_.BroadcastsInDim S1 (![] : Fin 0 → Fin S1.rank)
  concatenates_S1_S1_S2_d0 : Shape.Concatenates [S1, S1] S2 0
  slices_S8x8x64x64_S8x1x64x64_0_1_0_0 : S8x8x64x64.Slices ![0, 1, 0, 0] S8x1x64x64
  slices_S8x8x64x64_S8x1x64x64_0_2_0_0 : S8x8x64x64.Slices ![0, 2, 0, 0] S8x1x64x64
  slices_S8x8x64x64_S8x1x64x64_0_3_0_0 : S8x8x64x64.Slices ![0, 3, 0, 0] S8x1x64x64
  slices_S8x8x64x64_S8x1x64x64_0_4_0_0 : S8x8x64x64.Slices ![0, 4, 0, 0] S8x1x64x64
  slices_S8x8x64x64_S8x1x64x64_0_5_0_0 : S8x8x64x64.Slices ![0, 5, 0, 0] S8x1x64x64
  slices_S8x8x64x64_S8x1x64x64_0_6_0_0 : S8x8x64x64.Slices ![0, 6, 0, 0] S8x1x64x64
  slices_S8x8x64x64_S8x1x64x64_0_7_0_0 : S8x8x64x64.Slices ![0, 7, 0, 0] S8x1x64x64
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  shapeCasts_S1024x256_S1x1024x256 : S1024x256.ShapeCasts S1x1024x256
  dot_S1024x256_S256x1024_S1024x1024_1_0_0_1_n_n_wf : DotDims.WF S1024x256 S256x1024 S1024x1024 [1] [0] [0] [1] [] []
  dot_S1024x512_S1024x512_S512x512_0_0_1_1_n_n_wf : DotDims.WF S1024x512 S1024x512 S512x512 [0] [0] [1] [1] [] []
  scatter_S8x512x512_S2_S8x64x64_012_n_12_0_wf : ScatterDims.WF S8x512x512 S2 S8x64x64 [0, 1, 2] [] [1, 2] 0
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x8192x256.size a
  hwx0_0 : ∀ i : grid0.Coords, EltTy.bits .f32 = 32 ∨ (Rect.block (s := S8x8192x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x64x64.size a ≤ S8x8x64x64.size a
  hwx0_2 : ∀ i : grid0.Coords, EltTy.bits .f32 = 32 ∨ (Rect.block (s := S8x8x64x64) S1x8x64x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x8192x256.size a
  hwx1_0 : ∀ i : grid1.Coords, EltTy.bits .f32 = 32 ∨ (Rect.block (s := S8x8192x256) S1x1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .f32 = 32 ∨ (Rect.block (s := S256x512) S256x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x512.size a ≤ S8x512x512.size a
  hwx1_2 : ∀ i : grid1.Coords, EltTy.bits .bf16 = 32 ∨ (Rect.block (s := S8x512x512) S1x512x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x256.size a
  hwx1_3 : ∀ i : grid1.Coords, EltTy.bits .f32 = 32 ∨ (Rect.block (s := S512x256) S512x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x256.size a ≤ S8x8192x256.size a
  hwx1_5 : ∀ i : grid1.Coords, EltTy.bits .f32 = 32 ∨ (Rect.block (s := S8x8192x256) S1x1024x256.size (cc1_transform_5 i) (hinb1_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x512_S1024x512_S512x512_0_0_1_1_n_n : DotDims S1024x512 S1024x512 S512x512 where
  lhsContracting := [0]
  rhsContracting := [0]
  lhsNonContracting := [1]
  rhsNonContracting := [1]
  lhsBatch := []
  rhsBatch := []
  wf := dot_S1024x512_S1024x512_S512x512_0_0_1_1_n_n_wf
def scatter_S8x512x512_S2_S8x64x64_012_n_12_0 : ScatterDims S8x512x512 S2 S8x64x64 where
  updateWindowDims := [0, 1, 2]
  insertedWindowDims := []
  scatterDimsToOperandDims := [1, 2]
  indexVectorDim := 0
  wf := scatter_S8x512x512_S2_S8x64x64_012_n_12_0_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x8x64x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v75) S1x1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x8192x256 : Shape := ⟨3, ![8, 8192, 256]⟩
abbrev S1536x256 : Shape := ⟨2, ![1536, 256]⟩
abbrev S256x512 : Shape := ⟨2, ![256, 512]⟩
abbrev S256 : Shape := ⟨1, ![256]⟩
abbrev S8x8192x1536 : Shape := ⟨3, ![8, 8192, 1536]⟩
abbrev S8x8192x512 : Shape := ⟨3, ![8, 8192, 512]⟩
abbrev S8x8192x8x64 : Shape := ⟨4, ![8, 8192, 8, 64]⟩
abbrev S8x8x8192x64 : Shape := ⟨4, ![8, 8, 8192, 64]⟩
abbrev S_ : Shape := ⟨0, ![]⟩
abbrev S8x8x8192 : Shape := ⟨3, ![8, 8, 8192]⟩
abbrev S8x8x8192x1 : Shape := ⟨4, ![8, 8, 8192, 1]⟩
abbrev S8x8x64x64 : Shape := ⟨4, ![8, 8, 64, 64]⟩
abbrev S1x1x256 : Shape := ⟨3, ![1, 1, 256]⟩

abbrev nBuf : Space → Nat
  | .hbm => 71
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S1536x256, .f32⟩
  | .hbm, ⟨2, _⟩ => ⟨S256x512, .f32⟩
  | .hbm, ⟨3, _⟩ => ⟨S256, .f32⟩
  | .hbm, ⟨4, _⟩ => ⟨S8x8192x1536, .f32⟩
  | .hbm, ⟨5, _⟩ => ⟨S8x8192x512, .f32⟩
  | .hbm, ⟨6, _⟩ => ⟨S8x8192x512, .f32⟩
  | .hbm, ⟨7, _⟩ => ⟨S8x8192x512, .f32⟩
  | .hbm, ⟨8, _⟩ => ⟨S8x8192x8x64, .f32⟩
  | .hbm, ⟨9, _⟩ => ⟨S8x8x8192x64, .f32⟩
  | .hbm, ⟨10, _⟩ => ⟨S8x8192x8x64, .f32⟩
  | .hbm, ⟨11, _⟩ => ⟨S8x8x8192x64, .f32⟩
  | .hbm, ⟨12, _⟩ => ⟨S8x8192x8x64, .f32⟩
  | .hbm, ⟨13, _⟩ => ⟨S8x8x8192x64, .f32⟩
  | .hbm, ⟨14, _⟩ => ⟨S_, .f32⟩
  | .hbm, ⟨15, _⟩ => ⟨S8x8x8192, .f32⟩
  | .hbm, ⟨16, _⟩ => ⟨S8x8x8192x1, .f32⟩
  | .hbm, ⟨17, _⟩ => ⟨S_, .f32⟩
  | .hbm, ⟨18, _⟩ => ⟨S8x8x8192x1, .f32⟩
  | .hbm, ⟨19, _⟩ => ⟨S8x8x8192x1, .f32⟩
  | .hbm, ⟨20, _⟩ => ⟨S8x8x8192x64, .f32⟩
  | .hbm, ⟨21, _⟩ => ⟨S8x8x8192x64, .f32⟩
  | .hbm, ⟨22, _⟩ => ⟨S8x8x8192x64, .f32⟩
  | .hbm, ⟨23, _⟩ => ⟨S_, .f32⟩
  | .hbm, ⟨24, _⟩ => ⟨S8x8x8192, .f32⟩
  | .hbm, ⟨25, _⟩ => ⟨S8x8x8192x1, .f32⟩
  | .hbm, ⟨26, _⟩ => ⟨S_, .f32⟩
  | .hbm, ⟨27, _⟩ => ⟨S8x8x8192x1, .f32⟩
  | .hbm, ⟨28, _⟩ => ⟨S8x8x8192x1, .f32⟩
  | .hbm, ⟨29, _⟩ => ⟨S8x8x8192x64, .f32⟩
  | .hbm, ⟨30, _⟩ => ⟨S8x8x8192x64, .f32⟩
  | .hbm, ⟨31, _⟩ => ⟨S_, .f32⟩
  | .hbm, ⟨32, _⟩ => ⟨S8x8x8192x1, .f32⟩
  | .hbm, ⟨33, _⟩ => ⟨S8x8x8192x1, .f32⟩
  | .hbm, ⟨34, _⟩ => ⟨S8x8x8192x1, .f32⟩
  | .hbm, ⟨35, _⟩ => ⟨S8x8x8192x64, .f32⟩
  | .hbm, ⟨36, _⟩ => ⟨S8x8x8192x64, .f32⟩
  | .hbm, ⟨37, _⟩ => ⟨S_, .f32⟩
  | .hbm, ⟨38, _⟩ => ⟨S8x8x8192, .f32⟩
  | .hbm, ⟨39, _⟩ => ⟨S8x8x8192x1, .f32⟩
  | .hbm, ⟨40, _⟩ => ⟨S_, .f32⟩
  | .hbm, ⟨41, _⟩ => ⟨S8x8x8192x1, .f32⟩
  | .hbm, ⟨42, _⟩ => ⟨S8x8x8192x1, .f32⟩
  | .hbm, ⟨43, _⟩ => ⟨S8x8x8192x64, .f32⟩
  | .hbm, ⟨44, _⟩ => ⟨S8x8x8192x64, .f32⟩
  | .hbm, ⟨45, _⟩ => ⟨S8x8x8192x64, .f32⟩
  | .hbm, ⟨46, _⟩ => ⟨S_, .f32⟩
  | .hbm, ⟨47, _⟩ => ⟨S8x8x8192, .f32⟩
  | .hbm, ⟨48, _⟩ => ⟨S8x8x8192x1, .f32⟩
  | .hbm, ⟨49, _⟩ => ⟨S_, .f32⟩
  | .hbm, ⟨50, _⟩ => ⟨S8x8x8192x1, .f32⟩
  | .hbm, ⟨51, _⟩ => ⟨S8x8x8192x1, .f32⟩
  | .hbm, ⟨52, _⟩ => ⟨S8x8x8192x64, .f32⟩
  | .hbm, ⟨53, _⟩ => ⟨S8x8x8192x64, .f32⟩
  | .hbm, ⟨54, _⟩ => ⟨S_, .f32⟩
  | .hbm, ⟨55, _⟩ => ⟨S8x8x8192x1, .f32⟩
  | .hbm, ⟨56, _⟩ => ⟨S8x8x8192x1, .f32⟩
  | .hbm, ⟨57, _⟩ => ⟨S8x8x8192x1, .f32⟩
  | .hbm, ⟨58, _⟩ => ⟨S8x8x8192x64, .f32⟩
  | .hbm, ⟨59, _⟩ => ⟨S8x8x8192x64, .f32⟩
  | .hbm, ⟨60, _⟩ => ⟨S8x8x64x64, .f32⟩
  | .hbm, ⟨61, _⟩ => ⟨S8x8x8192x64, .f32⟩
  | .hbm, ⟨62, _⟩ => ⟨S_, .f32⟩
  | .hbm, ⟨63, _⟩ => ⟨S8x8x8192x64, .f32⟩
  | .hbm, ⟨64, _⟩ => ⟨S8x8x8192x64, .f32⟩
  | .hbm, ⟨65, _⟩ => ⟨S8x8192x8x64, .f32⟩
  | .hbm, ⟨66, _⟩ => ⟨S8x8192x512, .f32⟩
  | .hbm, ⟨67, _⟩ => ⟨S8x8192x256, .f32⟩
  | .hbm, ⟨68, _⟩ => ⟨S1x1x256, .f32⟩
  | .hbm, ⟨69, _⟩ => ⟨S8x8192x256, .f32⟩
  | .hbm, ⟨70, _⟩ => ⟨S8x8192x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]

class Facts₀ : Prop where
  slices_S8x8192x1536_S8x8192x512_0_0_0 : S8x8192x1536.Slices ![0, 0, 0] S8x8192x512
  slices_S8x8192x1536_S8x8192x512_0_0_512 : S8x8192x1536.Slices ![0, 0, 512] S8x8192x512
  slices_S8x8192x1536_S8x8192x512_0_0_1024 : S8x8192x1536.Slices ![0, 0, 1024] S8x8192x512
  shapeCasts_S8x8192x512_S8x8192x8x64 : S8x8192x512.ShapeCasts S8x8192x8x64
  transposes_S8x8192x8x64_S8x8x8192x64_0_2_1_3 : S8x8192x8x64.Transposes [0, 2, 1, 3] S8x8x8192x64
  reducesTo_S8x8x8192x64_S8x8x8192_d3 : S8x8x8192x64.ReducesTo [3] S8x8x8192
  h_S_ : 0 < S_.numel
  bcast_S8x8x8192_S8x8x8192x1_0_1_2 : S8x8x8192.BroadcastsInDim S8x8x8192x1 (![0, 1, 2] : Fin 3 → Fin S8x8x8192x1.rank)
  bcast_S_S8x8x8192x1 : S_.BroadcastsInDim S8x8x8192x1 (![] : Fin 0 → Fin S8x8x8192x1.rank)
  bcast_S8x8x8192x1_S8x8x8192x64_0_1_2_3 : S8x8x8192x1.BroadcastsInDim S8x8x8192x64 (![0, 1, 2, 3] : Fin 4 → Fin S8x8x8192x64.rank)
  bcast_S_S8x8x8192x64 : S_.BroadcastsInDim S8x8x8192x64 (![] : Fin 0 → Fin S8x8x8192x64.rank)
  transposes_S8x8x8192x64_S8x8192x8x64_0_2_1_3 : S8x8x8192x64.Transposes [0, 2, 1, 3] S8x8192x8x64
  shapeCasts_S8x8192x8x64_S8x8192x512 : S8x8192x8x64.ShapeCasts S8x8192x512
  bcast_S256_S1x1x256_2 : S256.BroadcastsInDim S1x1x256 (![2] : Fin 1 → Fin S1x1x256.rank)
  bcast_S1x1x256_S8x8192x256_0_1_2 : S1x1x256.BroadcastsInDim S8x8192x256 (![0, 1, 2] : Fin 3 → Fin S8x8192x256.rank)
  dot_S8x8192x256_S1536x256_S8x8192x1536_2_1_01_0_n_n_wf : DotDims.WF S8x8192x256 S1536x256 S8x8192x1536 [2] [1] [0, 1] [0] [] []
  dot_S8x8x8192x64_S8x8x8192x64_S8x8x64x64_2_2_3_3_01_01_wf : DotDims.WF S8x8x8192x64 S8x8x8192x64 S8x8x64x64 [2] [2] [3] [3] [0, 1] [0, 1]
  dot_S8x8x8192x64_S8x8x64x64_S8x8x8192x64_3_2_2_3_01_01_wf : DotDims.WF S8x8x8192x64 S8x8x64x64 S8x8x8192x64 [3] [2] [2] [3] [0, 1] [0, 1]
  dot_S8x8192x512_S256x512_S8x8192x256_2_1_01_0_n_n_wf : DotDims.WF S8x8192x512 S256x512 S8x8192x256 [2] [1] [0, 1] [0] [] []

variable [Facts₀]

def dot_S8x8192x256_S1536x256_S8x8192x1536_2_1_01_0_n_n : DotDims S8x8192x256 S1536x256 S8x8192x1536 where
  lhsContracting := [2]
  rhsContracting := [1]
  lhsNonContracting := [0, 1]
  rhsNonContracting := [0]
  lhsBatch := []
  rhsBatch := []
  wf := dot_S8x8192x256_S1536x256_S8x8192x1536_2_1_01_0_n_n_wf
def dot_S8x8x8192x64_S8x8x8192x64_S8x8x64x64_2_2_3_3_01_01 : DotDims S8x8x8192x64 S8x8x8192x64 S8x8x64x64 where
  lhsContracting := [2]
  rhsContracting := [2]
  lhsNonContracting := [3]
  rhsNonContracting := [3]
  lhsBatch := [0, 1]
  rhsBatch := [0, 1]
  wf := dot_S8x8x8192x64_S8x8x8192x64_S8x8x64x64_2_2_3_3_01_01_wf
def dot_S8x8x8192x64_S8x8x64x64_S8x8x8192x64_3_2_2_3_01_01 : DotDims S8x8x8192x64 S8x8x64x64 S8x8x8192x64 where
  lhsContracting := [3]
  rhsContracting := [2]
  lhsNonContracting := [2]
  rhsNonContracting := [3]
  lhsBatch := [0, 1]
  rhsBatch := [0, 1]
  wf := dot_S8x8x8192x64_S8x8x64x64_S8x8x8192x64_3_2_2_3_01_01_wf
def dot_S8x8192x512_S256x512_S8x8192x256_2_1_01_0_n_n : DotDims S8x8192x512 S256x512 S8x8192x256 where
  lhsContracting := [2]
  rhsContracting := [1]
  lhsNonContracting := [0, 1]
  rhsNonContracting := [0]
  lhsBatch := []
  rhsBatch := []
  wf := dot_S8x8192x512_S256x512_S8x8192x256_2_1_01_0_n_n_wf

class Facts : Prop extends Facts₀ where

variable [Facts]
-- ==== Proof.K.Region1.lean ====
/-
  The second kernel's half of the frame, at the buffer contents `V` the kernel finds when it is entered.

  At every grid point the body reads its five input blocks whole — the point's 1024 rows of x, the query
  projection, the batch's 512 x 512 block-diagonal of accumulated key-value products, the output projection and
  the bias —, also reads the output block (and drops what it read), and overwrites the output block whole with one
  value computed from the five inputs. So after the body every input buffer still holds its block, and the
  output buffer holds that one value (`out1_5`), whatever it held before.

  An input that the pipeline does not fetch at a point has the block index it had at the point before, so its
  buffer holds the right block at every point, fetched there or not: the weights and the bias are fetched once,
  the key-value block when the batch changes, x at every point.
-/
import proofs.«109764_j50680614093003_2_alg».proof.Proof.Gen.Kernel.Launch
import proofs.«109764_j50680614093003_2_alg».proof.Proof.Gen.Kernel.Skeleton
import proofs.«109764_j50680614093003_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 coordinates: the structural check recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the core's buffer contents when the second kernel is entered
variable (V : (c : Dev nD) → (b : Ref sig .tc) → Buf (Elt F) ((c : Thread nD τ).loc b))

/-! ## The windows' blocks -/

/-- Window `w`'s block at point `t`, read off its array as the kernel finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (x, fetched at every point) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the query projection, fetched once) holds its block at every point: its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the batch's key-value block, fetched when the batch changes) holds its block at every point:
    within a batch its index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the output projection, fetched once) holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the bias, fetched once) holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is of a whole buffer -/

abbrev r1_0 : Rect S1x1024x256 := Rect.unit (s := S1x1024x256) ![0, 0, 0] S1x1024x256.size inb_S1x1024x256_S1x1024x256_0_0_0
abbrev r1_1 : Rect S256x512 := Rect.unit (s := S256x512) ![0, 0] S256x512.size inb_S256x512_S256x512_0_0
abbrev r1_2 : Rect S1x512x512 := Rect.unit (s := S1x512x512) ![0, 0, 0] S1x512x512.size inb_S1x512x512_S1x512x512_0_0_0
abbrev r1_3 : Rect S512x256 := Rect.unit (s := S512x256) ![0, 0] S512x256.size inb_S512x256_S512x256_0_0
abbrev r1_4 : Rect S256 := Rect.unit (s := S256) ![0] S256.size inb_S256_S256_0

/-! ## What the body leaves in the output window's buffer -/

/-- Window 5's buffer after the body, from the input windows' blocks: its one store, of the whole block. -/
def out1_5 (x0 : Vec F S1x1024x256 .f32) (x1 : Vec F S256x512 .f32) (x2 : Vec F S1x512x512 .bf16) (x3 : Vec F S512x256 .f32) (x4 : Vec F S256 .f32) : Vec F S1x1024x256 .f32 :=
  View.canon [⟨r1_0, k1_pay1 (View.ld x0 r1_0) (View.ld x1 r1_1) (View.ld x2 r1_2) (View.ld x3 r1_3) (View.ld x4 r1_4)⟩]

/-- The one store covers the buffer. -/
theorem cover1_5 (p0 : Vec F S1x1024x256 .f32) (y : S1x1024x256.Idx) :
    ∃ pc ∈ ([⟨r1_0, p0⟩] : List (View.Piece (Elt F) S1x1024x256 .f32)), y ∈ pc.1.set :=
  View.cover_of_tiled [⟨r1_0, p0⟩] S1x1024x256.size (by rfl) y

/-! ## The body's triple -/

set_option maxHeartbeats 1000000 in
/-- The body on whole staging buffers, the inputs' at read contents `xW` and the output's at anything, runs to the
    continuation holding the inputs' as they were and the output's at `out1_5` of the inputs'. -/
theorem sound_kernel1 (c : Dev nD) (E : Set ℕ) (i : grid1.Coords)
    (arg0 : Memref sig .tc .vmem S1x1024x256 .f32) (harg0 : arg0.IsWhole) (arg1 : Memref sig .tc .vmem S256x512 .f32) (harg1 : arg1.IsWhole)
    (arg2 : Memref sig .tc .vmem S1x512x512 .bf16) (harg2 : arg2.IsWhole) (arg3 : Memref sig .tc .vmem S512x256 .f32) (harg3 : arg3.IsWhole)
    (arg4 : Memref sig .tc .vmem S256 .f32) (harg4 : arg4.IsWhole) (arg5 : Memref sig .tc .vmem S1x1024x256 .f32) (harg5 : arg5.IsWhole)
    (x0 : Vec F S1x1024x256 .f32) (x1 : Vec F S256x512 .f32) (x2 : Vec F S1x512x512 .bf16) (x3 : Vec F S512x256 .f32) (x4 : Vec F S256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1_apply_kernel i arg0 harg0 arg1 harg1 arg2 harg2 arg3 harg3 arg4 harg4 arg5 harg5) K := by
  simp only [cc1_apply_kernel_eq_skeleton]; unfold cc1_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second kernel's pipeline on core `c`: the arrays as the kernel finds them (`V`); after
    the body at point `t` each input's buffer at its block and the output's at `out1_5` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Step0.lean ====
/-
  One grid point of the first kernel as a pure function. The body projects the point's 1024 rows of x onto the
  1024 columns [wk | wv], normalises each 64-wide head slice of the keys and of the values row by row, multiplies
  the normalised keys (transposed) with the normalised values as one 512 x 512 product, keeps the eight 64 x 64
  diagonal blocks and adds them to the running 8 x 64 x 64 total. `step0 x0 x1 s` is that new total from the
  point's block `x0`, the weights `x1` and the old total `s`, written as the composition of the body's named
  payloads in the order the body computes them; `zero0` is the total the body starts a batch from.
-/
import proofs.«109764_j50680614093003_2_alg».proof.Proof.Gen.Kernel.Skeleton

noncomputable section

namespace Cert.Kernel.Hand

open Idealize.ShloMosaic Cert.Kernel Cert.Kernel.Gen

variable {F : FTy → Type} [FloatOps F]

/-- The sixteen normalised head slices and the value projection, as the body hands them to its last part:
    the 512 x 512 product of the normalised keys (transposed) with the normalised values. -/
def prod0 (x0 : Vec F S1x1024x256 .f32) (x1 : Vec F S256x1024 .f32) :
    (FVec F S512x512 .f32) × (FVec F S64x64 .f32) × (FVec F S64x64 .f32) × (FVec F S64x64 .f32) × (FVec F S64x64 .f32)
      × (FVec F S64x64 .f32) × (FVec F S64x64 .f32) × (FVec F S64x64 .f32) :=
  let v10 := k0_pay5 x0 x1
  let v11 := k0_pay6 x0 x1
  let v13 := k0_pay7 x0 x1
  let v31 := k0_pay8 x0 x1
  let v35 := k0_pay9 x0 x1
  let v40 := k0_pay10 x0 x1
  let v49 := k0_pay11 v13 v35 v40
  let v69 := k0_pay12 v10
  let v87 := k0_pay13 v11
  let v88 := k0_pay14 v10
  let v107 := k0_pay15 v88
  let v125 := k0_pay16 v11
  let v126 := k0_pay17 v10
  let v127 := k0_pay18 v11
  let v131 := k0_pay19 v10
  let v135 := k0_pay20 v10
  let v145 := k0_pay21 v126 v131 v135
  let v163 := k0_pay22 v127
  let v165 := k0_pay23 v11
  let v183 := k0_pay24 v10
  let v201 := k0_pay25 v165
  let v203 := k0_pay26 v11
  let v221 := k0_pay27 v10
  let v225 := k0_pay28 v11
  let v230 := k0_pay29 v11
  let v239 := k0_pay30 v203 v225 v230
  let v259 := k0_pay31 v10
  let v277 := k0_pay32 v11
  let v278 := k0_pay33 v10
  (k0_pay34 v11 v31 v49 v69 v87 v107 v125 v145 v163 v183 v201 v221 v239 v259 v277 v278,
   k0_pay35 v11 v31 v49 v69 v87 v107 v125 v145 v163 v183 v201 v221 v239 v259 v277 v278,
   k0_pay36 v11 v31 v49 v69 v87 v107 v125 v145 v163 v183 v201 v221 v239 v259 v277 v278,
   k0_pay37 v11 v31 v49 v69 v87 v107 v125 v145 v163 v183 v201 v221 v239 v259 v277 v278,
   k0_pay38 v11 v31 v49 v69 v87 v107 v125 v145 v163 v183 v201 v221 v239 v259 v277 v278,
   k0_pay39 v11 v31 v49 v69 v87 v107 v125 v145 v163 v183 v201 v221 v239 v259 v277 v278,
   k0_pay40 v11 v31 v49 v69 v87 v107 v125 v145 v163 v183 v201 v221 v239 v259 v277 v278,
   k0_pay41 v11 v31 v49 v69 v87 v107 v125 v145 v163 v183 v201 v221 v239 v259 v277 v278)

/-- The new running total: the old one plus this point's eight diagonal blocks. -/
def step0 (x0 : Vec F S1x1024x256 .f32) (x1 : Vec F S256x1024 .f32) (s : Vec F S8x64x64 .f32) : Vec F S8x64x64 .f32 :=
  let p := prod0 x0 x1
  k0_pay1 p.1 p.2.1 p.2.2.1 p.2.2.2.1 p.2.2.2.2.1 p.2.2.2.2.2.1 p.2.2.2.2.2.2.1 p.2.2.2.2.2.2.2 s

/-- The total a batch starts from: all zeros. -/
def zero0 : Vec F S8x64x64 .f32 := k0_pay3 (F := F)

end Cert.Kernel.Hand

end
-- ==== Proof.K.Region0.lean ====
/-
  The first kernel's region of the program. The grid is 8 x 8, row-major: a batch is eight consecutive points, and
  over a batch the kernel adds up, in a buffer of its own that it keeps from point to point, the eight 64 x 64
  blocks each point contributes (`step0`), starting from zero at the batch's first point; after every point it
  copies the running total, reshaped, into the output window's buffer, which is written back at the batch's last
  point. So what the output holds for batch b is the eight-term sum, in the order of the points.

  This file states that as the pipeline's proof data at any contents `V` the region is entered with: the running
  total after point n (`accAt`, by recursion on the point), the output buffer after a point (`out0_2`), an
  invariant that names the total's buffer after each point (`PhiS`), and the body's obligation at a generic point
  from the body's two triples (a batch's first point, which clears the total whatever it held; any other point,
  which continues from the total the point before left).
-/
import proofs.«109764_j50680614093003_2_alg».proof.Proof.Gen.Kernel.Launch
import proofs.«109764_j50680614093003_2_alg».proof.Proof.Gen.Kernel.Skeleton
import proofs.«109764_j50680614093003_2_alg».proof.Proof.Gen.Kernel.Points
import proofs.«109764_j50680614093003_2_alg».proof.Proof.K.Step0
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and store of the body is through the whole buffer -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The whole running total, as the rectangle the body loads and stores it through. -/
abbrev r0_s : Rect S8x64x64 := Rect.unit (s := S8x64x64) ![0, 0, 0] S8x64x64.size inb_S8x64x64_S8x64x64_0_0_0
/-- The whole output block, likewise. -/
abbrev r0_o : Rect S1x8x64x64 := Rect.unit (s := S1x8x64x64) ![0, 0, 0, 0] S1x8x64x64.size inb_S1x8x64x64_S1x8x64x64_0_0_0_0

/-- One store through the whole running total covers it. -/
theorem cover0_s (p : Vec F S8x64x64 .f32) (y : S8x64x64.Idx) :
    ∃ pc ∈ ([⟨r0_s, p⟩] : List (View.Piece (Elt F) S8x64x64 .f32)), y ∈ pc.1.set :=
  ⟨_, List.mem_singleton_self _, View.mem_set_unit_zero hz3 inb_S8x64x64_S8x64x64_0_0_0 y⟩
/-- One store through the whole output block covers it. -/
theorem cover0_o (p : Vec F S1x8x64x64 .f32) (y : S1x8x64x64.Idx) :
    ∃ pc ∈ ([⟨r0_o, p⟩] : List (View.Piece (Elt F) S1x8x64x64 .f32)), y ∈ pc.1.set :=
  ⟨_, List.mem_singleton_self _, View.mem_set_unit_zero hz4 inb_S1x8x64x64_S1x8x64x64_0_0_0_0 y⟩

/-- A last store through the whole running total covers it, whatever was stored before. -/
theorem cover0_s_cons (p : Vec F S8x64x64 .f32) (L : List (View.Piece (Elt F) S8x64x64 .f32)) (y : S8x64x64.Idx) :
    ∃ pc ∈ ((⟨r0_s, p⟩ : View.Piece (Elt F) S8x64x64 .f32) :: L), y ∈ pc.1.set :=
  ⟨_, List.mem_cons_self, View.mem_set_unit_zero hz3 inb_S8x64x64_S8x64x64_0_0_0 y⟩

/-! ## What the body leaves in the output window's buffer -/

/-- The output window's buffer after the body, from the new running total `s`: the body's last statement stores the
    total, reshaped to the block, through the whole buffer. -/
def out0_2 (s : Vec F S8x64x64 .f32) : Vec F S1x8x64x64 .f32 :=
  View.canon [⟨r0_o, k0_pay2 s⟩]

/-- It is the total itself, reshaped. -/
theorem out0_2_eq (s : Vec F S8x64x64 .f32) : out0_2 s = k0_pay2 s := View.canon_unit_zero hz4 _ _

/-! ## When the body clears the running total -/

/-- The condition of the body's one conditional: the grid's second coordinate is 0 (the first point of a batch). -/
abbrev cond0 (i : grid0.Coords) : Prop := (Scalar.cmpi .ne (Scalar.extui (Scalar.cmpi .eq (BitVec.ofNat 32 (i 1).val) 0#32)) 0#32) = 1#1

/-- Over the 8 x 8 row-major grid it holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-! ## The body's triple -/

set_option maxHeartbeats 2000000 in
/-- Away from a batch's first point: on whole memrefs holding the point's block `x0`, the weights `x1`, anything in the
    output's buffer and the running total `s`, the body runs to the continuation holding the inputs as they were, the
    new total `step0 x0 x1 s` and, in the output's buffer, that total reshaped. -/
theorem sound_kernel0_next (c : Dev nD) (E : Set ℕ) (i : grid0.Coords) (arg2 : Memref sig .tc .vmem S1x1024x256 .f32) (harg2 : arg2.IsWhole) (arg3 : Memref sig .tc .vmem S256x1024 .f32) (harg3 : arg3.IsWhole) (arg4 : Memref sig .tc .vmem S1x8x64x64 .f32) (harg4 : arg4.IsWhole) (arg5 : Memref sig .tc .vmem S8x64x64 .f32) (harg5 : arg5.IsWhole)
    (hc : ¬cond0 i)
    (x0 : Vec F S1x1024x256 .f32) (x1 : Vec F S256x1024 .f32) (s : Vec F S8x64x64 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (out0_2 (step0 x0 x1 s)) ∗ owns (c : Thread nD τ) arg5 fullShare (step0 x0 x1 s)) -∗ K ⟨⟩))
      ⊢ wp frame (wpE (defs₀ (F := F)) Variants.none c none) E (cc0_kv_reduce_kernel i arg2 harg2 arg3 harg3 arg4 harg4 arg5 harg5) K := by
  simp only [cc0_kv_reduce_kernel_eq_skeleton]; unfold cc0_kv_reduce_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc)
  sl_step
  have hnew : arg5.view.read (Elt F) (arg5.view.writes (Elt F) (harg5.unread s) (sound_kernel0_next.sl.H3_1 c arg2 harg2 arg3 harg3 arg5 harg5 x0 x1 s)) = step0 x0 x1 s := by
    unfold sound_kernel0_next.sl.H3_1
    rw [View.read_writes_eq_canon _ _ _ (cover0_s _), View.canon_unit_zero hz3]
    sl_unfold_run_names
    simp only [View.readAt_eq_ld, harg2.read_unread, harg3.read_unread, harg5.read_unread, View.ld_unit_zero (S := S1x1024x256) hz3, View.ld_unit_zero (S := S256x1024) hz2, View.ld_unit_zero (S := S8x64x64) hz3]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold out0_2
    rw [View.read_writes_eq_canon _ _ _ (cover0_o _)]
    unfold sound_kernel0_next.sl.v343
    rw [View.readCov_eq_canon_ld _ _ _ (by unfold sound_kernel0_next.sl.H3_1; exact cover0_s _)]
    rw [← View.read_writes_eq_canon arg5.view (harg5.unread s) _ (by unfold sound_kernel0_next.sl.H3_1; exact cover0_s _), hnew, View.ld_unit_zero (S := S8x64x64) hz3]
  iexists _; isplitr
  swap; · iexact H3
  ipureintro
  exact hnew

set_option maxHeartbeats 2000000 in
/-- At a batch's first point: whatever the running total's buffer held, the body first clears it, so the new total is
    `step0 x0 x1 zero0`. -/
theorem sound_kernel0_first (c : Dev nD) (E : Set ℕ) (i : grid0.Coords) (arg2 : Memref sig .tc .vmem S1x1024x256 .f32) (harg2 : arg2.IsWhole) (arg3 : Memref sig .tc .vmem S256x1024 .f32) (harg3 : arg3.IsWhole) (arg4 : Memref sig .tc .vmem S1x8x64x64 .f32) (harg4 : arg4.IsWhole) (arg5 : Memref sig .tc .vmem S8x64x64 .f32) (harg5 : arg5.IsWhole)
    (hc : cond0 i)
    (x0 : Vec F S1x1024x256 .f32) (x1 : Vec F S256x1024 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 (step0 x0 x1 zero0)) ∗ owns (c : Thread nD τ) arg5 fullShare (step0 x0 x1 zero0)) -∗ K ⟨⟩))
      ⊢ wp frame (wpE (defs₀ (F := F)) Variants.none c none) E (cc0_kv_reduce_kernel i arg2 harg2 arg3 harg3 arg4 harg4 arg5 harg5) K := by
  simp only [cc0_kv_reduce_kernel_eq_skeleton]; unfold cc0_kv_reduce_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc)
  sl_step
  have hcov : ∀ y, ∃ pc ∈ sound_kernel0_first.sl.H3_2 c arg2 harg2 arg3 harg3 arg5 x0 x1, y ∈ pc.1.set := by
    unfold sound_kernel0_first.sl.H3_2; exact cover0_s_cons _ _
  have hnew : arg5.view.read (Elt F) (arg5.view.writes (Elt F) f3 (sound_kernel0_first.sl.H3_2 c arg2 harg2 arg3 harg3 arg5 x0 x1)) = step0 x0 x1 zero0 := by
    rw [View.read_writes_eq_canon _ _ _ hcov]
    unfold sound_kernel0_first.sl.H3_2
    rw [View.canon_cons_unit_zero hz3]
    sl_unfold_run_names
    rw [View.readCov_unit_zero (S := S8x64x64) _ hz3]
    simp only [View.readAt_eq_ld, harg2.read_unread, harg3.read_unread, View.ld_unit_zero (S := S1x1024x256) hz3, View.ld_unit_zero (S := S256x1024) hz2]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold out0_2
    rw [View.read_writes_eq_canon _ _ _ (cover0_o _)]
    unfold sound_kernel0_first.sl.v343
    rw [View.readCov_eq_canon_ld _ _ _ hcov, ← View.read_writes_eq_canon arg5.view f3 _ hcov, hnew, View.ld_unit_zero (S := S8x64x64) hz3]
  iexists _; isplitr
  swap; · iexact H3
  ipureintro
  exact hnew

/-! # The first kernel's region of the program, at the contents `V` the region is entered with -/

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x in its current buffer at every point, fetched there or not, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights likewise: fetched at the first point only, their block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running total after each point -/

/-- The running total after point `n`: a batch is eight consecutive points; its first point starts from zero, each
    later one adds its block's contribution to what the point before left. -/
def accAt (c : Dev nD) : (n : ℕ) → n < cfg0.N → Vec F S8x64x64 .f32
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩)
      (if (n + 1) % 8 = 0 then zero0 else accAt c n (Nat.lt_of_succ_lt hn))

/-- At a batch's first point the total starts from zero. -/
theorem accAt_first (c : Dev nD) (t : Fin cfg0.N) (h : t.val % 8 = 0) :
    accAt V c t.val t.isLt = step0 (iblk0 V c 0 t) (iblk0 V c 1 t) zero0 := by
  obtain ⟨n, hn⟩ := t
  cases n with
  | zero => rfl
  | succ n =>
    show step0 _ _ (if (n + 1) % 8 = 0 then zero0 else accAt V c n (Nat.lt_of_succ_lt hn)) = _
    rw [if_pos h]

/-- At any other point it continues from the point before. -/
theorem accAt_next (c : Dev nD) (t : Fin cfg0.N) (h : t.val % 8 ≠ 0) :
    accAt V c t.val t.isLt = step0 (iblk0 V c 0 t) (iblk0 V c 1 t) (accAt V c (t.val - 1) (Nat.lt_of_le_of_lt (Nat.sub_le _ _) t.isLt)) := by
  obtain ⟨n, hn⟩ := t
  cases n with
  | zero => exact absurd (Nat.zero_mod _) h
  | succ n =>
    show step0 _ _ (if (n + 1) % 8 = 0 then zero0 else accAt V c n (Nat.lt_of_succ_lt hn)) = _
    rw [if_neg h]; rfl

/-! ## The region's invariant -/

/-- The running total's buffer, whole. -/
abbrev scM0 : Memref sig .tc .vmem S8x64x64 .f32 := Memref.whole cc0_scratch0

/-- The core's other scoped buffers (the second kernel's staging buffers), each at some contents: the body never
    touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region, with the running total's buffer as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point what the launch hands the region (the running total's
    buffer at anything); afterwards that buffer at the total the point before left, the other scoped buffers at
    anything, the generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 c) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the output's at the running total after `t`, reshaped; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' buffers hold their blocks; at a batch's first point the body starts the total
    from zero whatever its buffer held (at the grid's first point the launch's invariant gives the buffer at
    anything, later the total the batch before ended with, which is forgotten), elsewhere the invariant hands it the
    total the point before left; either way the invariant takes the buffer back at this point's total. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ, after0_0, after0_1, after0_2]
  by_cases h0 : t.val % 8 = 0
  · rw [accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS_castSucc V c t, PhiS_pos V c _ _ hz]
      iintro ⟨⟨⟨HS, HR⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [accAt_next V c t h0]
    have hz : t.val ≠ 0 := fun e => h0 (by rw [e])
    rw [PhiS_castSucc V c t, PhiS_pos V c _ _ hz]
    iintro ⟨⟨⟨HS, HR⟩, Hg⟩, Ho, ⟨%d0, H0⟩, ⟨%d1, H1⟩, ⟨%d2, H2⟩⟩
    iapply (sound_kernel0_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the running total's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region

end Cert.Kernel.Hand

end
-- ==== Proof.K.Run.lean ====
/-
  The run of the whole program: two kernel regions among two stretches of host operations. The buffer contents at
  each boundary are a fold from the launch memory — a host stretch applies its operations, a region replaces its
  arrays by what its write-backs leave and keeps every other buffer —, every argument array reads back through the
  fold to its launch contents (no host operation and no region writes one), and the result array ends at what the
  second region's write-backs leave.
-/
import proofs.«109764_j50680614093003_2_alg».proof.Proof.K.Region1
import proofs.«109764_j50680614093003_2_alg».proof.Proof.K.Region0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation writes an argument array -/

theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The four argument arrays end as launched; the result array ends at the second region's write-backs. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_main_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_main_arg1 m ρ c
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_main_arg2 m ρ c
    _ = W1 m ρ c (Proc.devRef .tc main_arg2) := W2_of_ne m ρ c main_arg2 (by decide)
    _ = W0 m ρ c (Proc.devRef .tc main_arg2) := W1_main_arg2 m ρ c
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := W3_main_arg3 m ρ c
    _ = W1 m ρ c (Proc.devRef .tc main_arg3) := W2_of_ne m ρ c main_arg3 (by decide)
    _ = W0 m ρ c (Proc.devRef .tc main_arg3) := W1_main_arg3 m ρ c
    _ = m ((c : Thread nD τ).loc main_arg3) := rfl
theorem W4_main_v75 (c : Dev nD) : W4 m ρ c (Proc.devRef .tc main_v75) = (dat1 (V3 m ρ) c).arrAt 5 cfg1.N :=
  W4_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave and the four argument arrays end as launched. -/
theorem run_main : θ_run defs (onTc (τ := τ) (main (F := F))) ⟨m, fun _ => 0, ρ⟩ (fun r => ∀ c : Dev nD,
      r.2.mem ((c.tc : Thread nD τ).loc main_v75) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v75 (by decide))).trans (W4_main_v75 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.Kernel.Hand

end
-- ==== Proof.KI.Step0.lean ====
/-
  One grid point of the first kernel as a pure function. The body projects the point's 1024 rows of x onto the
  1024 columns [wk | wv], normalises each 64-wide head slice of the keys and of the values row by row, multiplies
  the normalised keys (transposed) with the normalised values as one 512 x 512 product, keeps the eight 64 x 64
  diagonal blocks and adds them to the running 8 x 64 x 64 total. `step0 x0 x1 s` is that new total from the
  point's block `x0`, the weights `x1` and the old total `s`, written as the composition of the body's named
  payloads in the order the body computes them; `zero0` is the total the body starts a batch from.
-/
import proofs.«109764_j50680614093003_2_alg».proof.Proof.Gen.KernelIdeal.Skeleton

noncomputable section

namespace Cert.KernelIdeal.Hand

open Idealize.ShloMosaic Cert.KernelIdeal Cert.KernelIdeal.Gen

variable {F : FTy → Type} [FloatOps F]

/-- The sixteen normalised head slices and the value projection, as the body hands them to its last part:
    the 512 x 512 product of the normalised keys (transposed) with the normalised values. -/
def prod0 (x0 : Vec F S1x1024x256 .f32) (x1 : Vec F S256x1024 .f32) :
    (FVec F S512x512 .f32) × (FVec F S64x64 .f32) × (FVec F S64x64 .f32) × (FVec F S64x64 .f32) × (FVec F S64x64 .f32)
      × (FVec F S64x64 .f32) × (FVec F S64x64 .f32) × (FVec F S64x64 .f32) :=
  let v10 := k0_pay5 x0 x1
  let v11 := k0_pay6 x0 x1
  let v13 := k0_pay7 x0 x1
  let v31 := k0_pay8 x0 x1
  let v35 := k0_pay9 x0 x1
  let v40 := k0_pay10 x0 x1
  let v49 := k0_pay11 v13 v35 v40
  let v69 := k0_pay12 v10
  let v87 := k0_pay13 v11
  let v88 := k0_pay14 v10
  let v107 := k0_pay15 v88
  let v125 := k0_pay16 v11
  let v126 := k0_pay17 v10
  let v127 := k0_pay18 v11
  let v131 := k0_pay19 v10
  let v135 := k0_pay20 v10
  let v145 := k0_pay21 v126 v131 v135
  let v163 := k0_pay22 v127
  let v165 := k0_pay23 v11
  let v183 := k0_pay24 v10
  let v201 := k0_pay25 v165
  let v203 := k0_pay26 v11
  let v221 := k0_pay27 v10
  let v225 := k0_pay28 v11
  let v230 := k0_pay29 v11
  let v239 := k0_pay30 v203 v225 v230
  let v259 := k0_pay31 v10
  let v277 := k0_pay32 v11
  let v278 := k0_pay33 v10
  (k0_pay34 v11 v31 v49 v69 v87 v107 v125 v145 v163 v183 v201 v221 v239 v259 v277 v278,
   k0_pay35 v11 v31 v49 v69 v87 v107 v125 v145 v163 v183 v201 v221 v239 v259 v277 v278,
   k0_pay36 v11 v31 v49 v69 v87 v107 v125 v145 v163 v183 v201 v221 v239 v259 v277 v278,
   k0_pay37 v11 v31 v49 v69 v87 v107 v125 v145 v163 v183 v201 v221 v239 v259 v277 v278,
   k0_pay38 v11 v31 v49 v69 v87 v107 v125 v145 v163 v183 v201 v221 v239 v259 v277 v278,
   k0_pay39 v11 v31 v49 v69 v87 v107 v125 v145 v163 v183 v201 v221 v239 v259 v277 v278,
   k0_pay40 v11 v31 v49 v69 v87 v107 v125 v145 v163 v183 v201 v221 v239 v259 v277 v278,
   k0_pay41 v11 v31 v49 v69 v87 v107 v125 v145 v163 v183 v201 v221 v239 v259 v277 v278)

/-- The new running total: the old one plus this point's eight diagonal blocks. -/
def step0 (x0 : Vec F S1x1024x256 .f32) (x1 : Vec F S256x1024 .f32) (s : Vec F S8x64x64 .f32) : Vec F S8x64x64 .f32 :=
  let p := prod0 x0 x1
  k0_pay1 p.1 p.2.1 p.2.2.1 p.2.2.2.1 p.2.2.2.2.1 p.2.2.2.2.2.1 p.2.2.2.2.2.2.1 p.2.2.2.2.2.2.2 s

/-- The total a batch starts from: all zeros. -/
def zero0 : Vec F S8x64x64 .f32 := k0_pay3 (F := F)

end Cert.KernelIdeal.Hand

end
-- ==== Proof.KI.Region0.lean ====
/-
  The first kernel's region of the program. The grid is 8 x 8, row-major: a batch is eight consecutive points, and
  over a batch the kernel adds up, in a buffer of its own that it keeps from point to point, the eight 64 x 64
  blocks each point contributes (`step0`), starting from zero at the batch's first point; after every point it
  copies the running total, reshaped, into the output window's buffer, which is written back at the batch's last
  point. So what the output holds for batch b is the eight-term sum, in the order of the points.

  This file states that as the pipeline's proof data at any contents `V` the region is entered with: the running
  total after point n (`accAt`, by recursion on the point), the output buffer after a point (`out0_2`), an
  invariant that names the total's buffer after each point (`PhiS`), and the body's obligation at a generic point
  from the body's two triples (a batch's first point, which clears the total whatever it held; any other point,
  which continues from the total the point before left).
-/
import proofs.«109764_j50680614093003_2_alg».proof.Proof.Gen.KernelIdeal.Launch
import proofs.«109764_j50680614093003_2_alg».proof.Proof.Gen.KernelIdeal.Skeleton
import proofs.«109764_j50680614093003_2_alg».proof.Proof.Gen.KernelIdeal.Points
import proofs.«109764_j50680614093003_2_alg».proof.Proof.KI.Step0
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and store of the body is through the whole buffer -/

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The whole running total, as the rectangle the body loads and stores it through. -/
abbrev r0_s : Rect S8x64x64 := Rect.unit (s := S8x64x64) ![0, 0, 0] S8x64x64.size inb_S8x64x64_S8x64x64_0_0_0
/-- The whole output block, likewise. -/
abbrev r0_o : Rect S1x8x64x64 := Rect.unit (s := S1x8x64x64) ![0, 0, 0, 0] S1x8x64x64.size inb_S1x8x64x64_S1x8x64x64_0_0_0_0

/-- One store through the whole running total covers it. -/
theorem cover0_s (p : Vec F S8x64x64 .f32) (y : S8x64x64.Idx) :
    ∃ pc ∈ ([⟨r0_s, p⟩] : List (View.Piece (Elt F) S8x64x64 .f32)), y ∈ pc.1.set :=
  ⟨_, List.mem_singleton_self _, View.mem_set_unit_zero hz3 inb_S8x64x64_S8x64x64_0_0_0 y⟩
/-- One store through the whole output block covers it. -/
theorem cover0_o (p : Vec F S1x8x64x64 .f32) (y : S1x8x64x64.Idx) :
    ∃ pc ∈ ([⟨r0_o, p⟩] : List (View.Piece (Elt F) S1x8x64x64 .f32)), y ∈ pc.1.set :=
  ⟨_, List.mem_singleton_self _, View.mem_set_unit_zero hz4 inb_S1x8x64x64_S1x8x64x64_0_0_0_0 y⟩

/-- A last store through the whole running total covers it, whatever was stored before. -/
theorem cover0_s_cons (p : Vec F S8x64x64 .f32) (L : List (View.Piece (Elt F) S8x64x64 .f32)) (y : S8x64x64.Idx) :
    ∃ pc ∈ ((⟨r0_s, p⟩ : View.Piece (Elt F) S8x64x64 .f32) :: L), y ∈ pc.1.set :=
  ⟨_, List.mem_cons_self, View.mem_set_unit_zero hz3 inb_S8x64x64_S8x64x64_0_0_0 y⟩

/-! ## What the body leaves in the output window's buffer -/

/-- The output window's buffer after the body, from the new running total `s`: the body's last statement stores the
    total, reshaped to the block, through the whole buffer. -/
def out0_2 (s : Vec F S8x64x64 .f32) : Vec F S1x8x64x64 .f32 :=
  View.canon [⟨r0_o, k0_pay2 s⟩]

/-- It is the total itself, reshaped. -/
theorem out0_2_eq (s : Vec F S8x64x64 .f32) : out0_2 s = k0_pay2 s := View.canon_unit_zero hz4 _ _

/-! ## When the body clears the running total -/

/-- The condition of the body's one conditional: the grid's second coordinate is 0 (the first point of a batch). -/
abbrev cond0 (i : grid0.Coords) : Prop := (Scalar.cmpi .ne (Scalar.extui (Scalar.cmpi .eq (BitVec.ofNat 32 (i 1).val) 0#32)) 0#32) = 1#1

/-- Over the 8 x 8 row-major grid it holds at the points ≡ 0 (mod 8). -/
theorem hcond0 : ∀ t : Fin cfg0.N, cond0 (grid0.coords t) ↔ t.val % 8 = 0 :=
  (by decide +kernel : ∀ t : Fin grid0.N, cond0 (grid0.coords t) ↔ t.val % 8 = 0)

/-! ## The body's triple -/

set_option maxHeartbeats 2000000 in
/-- Away from a batch's first point: on whole memrefs holding the point's block `x0`, the weights `x1`, anything in the
    output's buffer and the running total `s`, the body runs to the continuation holding the inputs as they were, the
    new total `step0 x0 x1 s` and, in the output's buffer, that total reshaped. -/
theorem sound_kernel0_next (c : Dev nD) (E : Set ℕ) (i : grid0.Coords) (arg2 : Memref sig .tc .vmem S1x1024x256 .f32) (harg2 : arg2.IsWhole) (arg3 : Memref sig .tc .vmem S256x1024 .f32) (harg3 : arg3.IsWhole) (arg4 : Memref sig .tc .vmem S1x8x64x64 .f32) (harg4 : arg4.IsWhole) (arg5 : Memref sig .tc .vmem S8x64x64 .f32) (harg5 : arg5.IsWhole)
    (hc : ¬cond0 i)
    (x0 : Vec F S1x1024x256 .f32) (x1 : Vec F S256x1024 .f32) (s : Vec F S8x64x64 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1 ∗ owns (c : Thread nD τ) arg4 fullShare (out0_2 (step0 x0 x1 s)) ∗ owns (c : Thread nD τ) arg5 fullShare (step0 x0 x1 s)) -∗ K ⟨⟩))
      ⊢ wp frame (wpE (defs₀ (F := F)) Variants.none c none) E (cc0_kv_reduce_kernel i arg2 harg2 arg3 harg3 arg4 harg4 arg5 harg5) K := by
  simp only [cc0_kv_reduce_kernel_eq_skeleton]; unfold cc0_kv_reduce_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%f3, %hf3, H3⟩, Hk⟩
  obtain rfl := harg2.eq_unread hf0; obtain rfl := harg3.eq_unread hf1; obtain rfl := harg5.eq_unread hf3
  sl_exec (disch := first | exact hc)
  sl_step
  have hnew : arg5.view.read (Elt F) (arg5.view.writes (Elt F) (harg5.unread s) (sound_kernel0_next.sl.H3_1 c arg2 harg2 arg3 harg3 arg5 harg5 x0 x1 s)) = step0 x0 x1 s := by
    unfold sound_kernel0_next.sl.H3_1
    rw [View.read_writes_eq_canon _ _ _ (cover0_s _), View.canon_unit_zero hz3]
    sl_unfold_run_names
    simp only [View.readAt_eq_ld, harg2.read_unread, harg3.read_unread, harg5.read_unread, View.ld_unit_zero (S := S1x1024x256) hz3, View.ld_unit_zero (S := S256x1024) hz2, View.ld_unit_zero (S := S8x64x64) hz3]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold out0_2
    rw [View.read_writes_eq_canon _ _ _ (cover0_o _)]
    unfold sound_kernel0_next.sl.v343
    rw [View.readCov_eq_canon_ld _ _ _ (by unfold sound_kernel0_next.sl.H3_1; exact cover0_s _)]
    rw [← View.read_writes_eq_canon arg5.view (harg5.unread s) _ (by unfold sound_kernel0_next.sl.H3_1; exact cover0_s _), hnew, View.ld_unit_zero (S := S8x64x64) hz3]
  iexists _; isplitr
  swap; · iexact H3
  ipureintro
  exact hnew

set_option maxHeartbeats 2000000 in
/-- At a batch's first point: whatever the running total's buffer held, the body first clears it, so the new total is
    `step0 x0 x1 zero0`. -/
theorem sound_kernel0_first (c : Dev nD) (E : Set ℕ) (i : grid0.Coords) (arg2 : Memref sig .tc .vmem S1x1024x256 .f32) (harg2 : arg2.IsWhole) (arg3 : Memref sig .tc .vmem S256x1024 .f32) (harg3 : arg3.IsWhole) (arg4 : Memref sig .tc .vmem S1x8x64x64 .f32) (harg4 : arg4.IsWhole) (arg5 : Memref sig .tc .vmem S8x64x64 .f32) (harg5 : arg5.IsWhole)
    (hc : cond0 i)
    (x0 : Vec F S1x1024x256 .f32) (x1 : Vec F S256x1024 .f32) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1 ∗ owns (c : Thread nD τ) arg4 fullShare (out0_2 (step0 x0 x1 zero0)) ∗ owns (c : Thread nD τ) arg5 fullShare (step0 x0 x1 zero0)) -∗ K ⟨⟩))
      ⊢ wp frame (wpE (defs₀ (F := F)) Variants.none c none) E (cc0_kv_reduce_kernel i arg2 harg2 arg3 harg3 arg4 harg4 arg5 harg5) K := by
  simp only [cc0_kv_reduce_kernel_eq_skeleton]; unfold cc0_kv_reduce_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%d2, %f2, -, H2⟩, ⟨%d3, %f3, -, H3⟩, Hk⟩
  obtain rfl := harg2.eq_unread hf0; obtain rfl := harg3.eq_unread hf1
  sl_exec (disch := first | exact hc)
  sl_step
  have hcov : ∀ y, ∃ pc ∈ sound_kernel0_first.sl.H3_2 c arg2 harg2 arg3 harg3 arg5 x0 x1, y ∈ pc.1.set := by
    unfold sound_kernel0_first.sl.H3_2; exact cover0_s_cons _ _
  have hnew : arg5.view.read (Elt F) (arg5.view.writes (Elt F) f3 (sound_kernel0_first.sl.H3_2 c arg2 harg2 arg3 harg3 arg5 x0 x1)) = step0 x0 x1 zero0 := by
    rw [View.read_writes_eq_canon _ _ _ hcov]
    unfold sound_kernel0_first.sl.H3_2
    rw [View.canon_cons_unit_zero hz3]
    sl_unfold_run_names
    rw [View.readCov_unit_zero (S := S8x64x64) _ hz3]
    simp only [View.readAt_eq_ld, harg2.read_unread, harg3.read_unread, View.ld_unit_zero (S := S1x1024x256) hz3, View.ld_unit_zero (S := S256x1024) hz2]
    rfl
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    unfold out0_2
    rw [View.read_writes_eq_canon _ _ _ (cover0_o _)]
    unfold sound_kernel0_first.sl.v343
    rw [View.readCov_eq_canon_ld _ _ _ hcov, ← View.read_writes_eq_canon arg5.view f3 _ hcov, hnew, View.ld_unit_zero (S := S8x64x64) hz3]
  iexists _; isplitr
  swap; · iexact H3
  ipureintro
  exact hnew

/-! # The first kernel's region of the program, at the contents `V` the region is entered with -/

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of x in its current buffer at every point, fetched there or not, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights likewise: fetched at the first point only, their block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running total after each point -/

/-- The running total after point `n`: a batch is eight consecutive points; its first point starts from zero, each
    later one adds its block's contribution to what the point before left. -/
def accAt (c : Dev nD) : (n : ℕ) → n < cfg0.N → Vec F S8x64x64 .f32
  | 0, hn => step0 (iblk0 V c 0 ⟨0, hn⟩) (iblk0 V c 1 ⟨0, hn⟩) zero0
  | n + 1, hn => step0 (iblk0 V c 0 ⟨n + 1, hn⟩) (iblk0 V c 1 ⟨n + 1, hn⟩)
      (if (n + 1) % 8 = 0 then zero0 else accAt c n (Nat.lt_of_succ_lt hn))

/-- At a batch's first point the total starts from zero. -/
theorem accAt_first (c : Dev nD) (t : Fin cfg0.N) (h : t.val % 8 = 0) :
    accAt V c t.val t.isLt = step0 (iblk0 V c 0 t) (iblk0 V c 1 t) zero0 := by
  obtain ⟨n, hn⟩ := t
  cases n with
  | zero => rfl
  | succ n =>
    show step0 _ _ (if (n + 1) % 8 = 0 then zero0 else accAt V c n (Nat.lt_of_succ_lt hn)) = _
    rw [if_pos h]

/-- At any other point it continues from the point before. -/
theorem accAt_next (c : Dev nD) (t : Fin cfg0.N) (h : t.val % 8 ≠ 0) :
    accAt V c t.val t.isLt = step0 (iblk0 V c 0 t) (iblk0 V c 1 t) (accAt V c (t.val - 1) (Nat.lt_of_le_of_lt (Nat.sub_le _ _) t.isLt)) := by
  obtain ⟨n, hn⟩ := t
  cases n with
  | zero => exact absurd (Nat.zero_mod _) h
  | succ n =>
    show step0 _ _ (if (n + 1) % 8 = 0 then zero0 else accAt V c n (Nat.lt_of_succ_lt hn)) = _
    rw [if_neg h]; rfl

/-! ## The region's invariant -/

/-- The running total's buffer, whole. -/
abbrev scM0 : Memref sig .tc .vmem S8x64x64 .f32 := Memref.whole cc0_scratch0

/-- The core's other scoped buffers (the second kernel's staging buffers), each at some contents: the body never
    touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- What the launch hands the region, with the running total's buffer as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point what the launch hands the region (the running total's
    buffer at anything); afterwards that buffer at the total the point before left, the other scoped buffers at
    anything, the generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ rest0 c) ∗ (∃ r, prngReg c r)) := by
  cases n with
  | zero => exact absurd rfl hz
  | succ n => rfl

/-! ## The pipeline's proof data -/

/-- The proof data of the first kernel's pipeline on core `c`: the arrays as the region finds them; after the body at
    point `t` each input's buffer at its block and the output's at the running total after `t`, reshaped; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 4000000 in
/-- The body at any point: the inputs' buffers hold their blocks; at a batch's first point the body starts the total
    from zero whatever its buffer held (at the grid's first point the launch's invariant gives the buffer at
    anything, later the total the batch before ended with, which is forgotten), elsewhere the invariant hands it the
    total the point before left; either way the invariant takes the buffer back at this point's total. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ, after0_0, after0_1, after0_2]
  by_cases h0 : t.val % 8 = 0
  · rw [accAt_first V c t h0]
    by_cases hz : t.val = 0
    · rw [PhiS_castSucc V c t, PhiS_zero V c _ _ hz, PhiA0_eq]
      iintro ⟨⟨⟨HS, HR⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · rw [PhiS_castSucc V c t, PhiS_pos V c _ _ hz]
      iintro ⟨⟨⟨HS, HR⟩, Hg⟩, Ho, ⟨%d0, H0⟩, ⟨%d1, H1⟩, ⟨%d2, H2⟩⟩
      iapply (sound_kernel0_first c Set.univ (grid0.coords t) _ _ _ _ _ _ _ _ ((hcond0 t).mpr h0) (iblk0 V c 0 t) (iblk0 V c 1 t) _)
      isplitl [H0]; · iexact H0
      isplitl [H1]; · iexact H1
      isplitl [H2]; · iexists _; iexact H2
      isplitl [HS]; · iexists _; iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
  · rw [accAt_next V c t h0]
    have hz : t.val ≠ 0 := fun e => h0 (by rw [e])
    rw [PhiS_castSucc V c t, PhiS_pos V c _ _ hz]
    iintro ⟨⟨⟨HS, HR⟩, Hg⟩, Ho, ⟨%d0, H0⟩, ⟨%d1, H1⟩, ⟨%d2, H2⟩⟩
    iapply (sound_kernel0_next c Set.univ (grid0.coords t) _ _ _ _ _ _ _ _ (fun h => h0 ((hcond0 t).mp h)) (iblk0 V c 0 t) (iblk0 V c 1 t) _ _)
    isplitl [H0]; · iexact H0
    isplitl [H1]; · iexact H1
    isplitl [H2]; · iexists _; iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives it back: the running total's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Region

end Cert.KernelIdeal.Hand

end
-- ==== Proof.Spec.lean ====
/-
  The function the kernel and the reference both compute, on the extended reals: linear attention with
  instance-normalised keys and values.

  From `x : [8, 8192, 256]`, `w : [1536, 256]`, `wo : [256, 512]`, `bo : [256]`:
    proj[b, n, e]    = Σ_d x[b, n, d] · w[e, d]                              (the fused q/k/v projection)
    q, k, v          = the three 512-column slices of proj, head h taking columns 64·h … 64·h + 63
    inorm f          = (f − mean f) · rsqrt (mean ((f − mean f)²) + ε)        (over the 64 columns of one head)
    dots[b, h, d, e] = Σ_n kn[b, h, n, d] · vn[b, h, n, e]
    att[b, h, n, e]  = (Σ_d q[b, h, n, d] · dots[b, h, d, e]) / 8192
    out[b, n, c]     = Σ_{e < 512} att[b, e / 64, n, e % 64] · wo[c, e] + bo[c]
  The three numeric constants are the extended reals their f32 words encode.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![8, 8192, 256]⟩
abbrev SW : Shape := ⟨2, ![1536, 256]⟩
abbrev SO : Shape := ⟨2, ![256, 512]⟩
abbrev SB : Shape := ⟨1, ![256]⟩

/-- The divisor of a mean over one head's 64 columns: the f32 word of 64. -/
def c64 : EReal := Ideal.ofBits .f32 0x42800000#32
/-- The variance's regulariser: the f32 word nearest 1e-5. -/
def eps : EReal := Ideal.ofBits .f32 0x3727C5AC#32
/-- The sequence length the attention is scaled by: the f32 word of 8192. -/
def c8192 : EReal := Ideal.ofBits .f32 0x46000000#32

/-- The mean of 64 values. -/
def mean (f : Fin 64 → EReal) : EReal := Ideal.div (∑ j, f j) c64

/-- Instance normalisation of 64 values: centred, scaled by the reciprocal root of the (biased) variance plus ε. -/
def inorm (f : Fin 64 → EReal) (j : Fin 64) : EReal :=
  (f j - mean f) * Ideal.rsqrt (Ideal.div (∑ i, (f i - mean f) * (f i - mean f)) c64 + eps)

section
variable (x : SX.Idx → EReal) (w : SW.Idx → EReal) (wo : SO.Idx → EReal) (bo : SB.Idx → EReal)

/-- The fused projection: row `n` of batch `b` against row `e` of the weight. -/
def proj (b : Fin 8) (n : Fin 8192) (e : Fin 1536) : EReal := ∑ d : Fin 256, x (ix3 b n d) * w (ix2 e d)

/-- Queries, by head: columns `64·h + j`. -/
def qh (b : Fin 8) (h : Fin 8) (n : Fin 8192) (j : Fin 64) : EReal := proj x w b n ⟨64 * h.val + j.val, by omega⟩
/-- Keys, by head: columns `512 + 64·h + j`. -/
def kh (b : Fin 8) (h : Fin 8) (n : Fin 8192) (j : Fin 64) : EReal := proj x w b n ⟨512 + 64 * h.val + j.val, by omega⟩
/-- Values, by head: columns `1024 + 64·h + j`. -/
def vh (b : Fin 8) (h : Fin 8) (n : Fin 8192) (j : Fin 64) : EReal := proj x w b n ⟨1024 + 64 * h.val + j.val, by omega⟩

/-- The normalised keys of one position of one head. -/
def kn (b : Fin 8) (h : Fin 8) (n : Fin 8192) : Fin 64 → EReal := inorm (kh x w b h n)
/-- The normalised values of one position of one head. -/
def vn (b : Fin 8) (h : Fin 8) (n : Fin 8192) : Fin 64 → EReal := inorm (vh x w b h n)

/-- Keyᵀ · value, summed over the sequence. -/
def dots (b h : Fin 8) (d e : Fin 64) : EReal := ∑ n : Fin 8192, kn x w b h n d * vn x w b h n e

/-- Query · dots, scaled by the sequence length. -/
def att (b h : Fin 8) (n : Fin 8192) (e : Fin 64) : EReal :=
  Ideal.div (∑ d : Fin 64, qh x w b h n d * dots x w b h d e) c8192

/-- The output projection over the 512 head-major columns, plus the bias. -/
def out (b : Fin 8) (n : Fin 8192) (c : Fin 256) : EReal :=
  (∑ e : Fin 512, att x w b ⟨e.val / 64, by omega⟩ n ⟨e.val % 64, by omega⟩ * wo (ix2 c e)) + bo (ix1 c)

/-- The whole result array, by index. -/
def G : SX.Idx → EReal := fun i => out x w wo bo (i 0) (i 1) (i 2)

end

end Cert.Spec

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.KI.Value0.lean ====
/-
  What the first kernel leaves in its result array, as one function of the arrays it finds, at the ideal values.

  A batch is eight consecutive grid points, each taking 1024 of the batch's 8192 rows. The kernel keeps a running
  total: a batch's first point starts it from zero and every point adds, for each head, the sum over its 1024 rows
  of the products of the normalised keys and values. In a commutative monoid the total after the eighth point is
  the sum over all 8192 rows, whatever the grouping; only that point writes the total back, to the batch's block of
  the result array. So the array is `dots0` of the whole arrays.
-/
import proofs.«109764_j50680614093003_2_alg».proof.Proof.KI.Region0
import proofs.«109764_j50680614093003_2_alg».proof.Proof.Spec
import proofs.«109764_j50680614093003_2_alg».proof.Proof.LibBlockedSum
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- The first kernel's result at batch `b`, head `h`, row `d`, column `e`, from the whole arrays: over the batch's
    8192 positions, the sum of the products of the normalised key at `d` and the normalised value at `e`. -/
def dots0 (X : S8x8192x256.Idx → EReal) (Wkv : S256x1024.Idx → EReal) (b h : Fin 8) (d e : Fin 64) : EReal :=
  ∑ n : Fin 8192,
    Cert.Spec.inorm (fun j' => ∑ k : Fin 256, X (ix3 b n k) * Wkv (ix2 k ⟨64*h.val + j'.val, by omega⟩)) d
    * Cert.Spec.inorm (fun j' => ∑ k : Fin 256, X (ix3 b n k) * Wkv (ix2 k ⟨512 + 64*h.val + j'.val, by omega⟩)) e

/-- One point's step read at a head's entry: the old total there plus, over the point's 1024 rows, the products of the
    normalised key and the normalised value. -/
def StepAt : Prop :=
  ∀ (x0 : Vec Ideal S1x1024x256 .f32) (x1 : Vec Ideal S256x1024 .f32) (s : Vec Ideal S8x64x64 .f32) (h : Fin 8) (d e : Fin 64),
    step0 x0 x1 s (ix3 h d e) = s (ix3 h d e) + ∑ r : Fin 1024,
      Cert.Spec.inorm (fun j' => ∑ k : Fin 256, x0 (ix3 0 r k) * x1 (ix2 k ⟨64*h.val + j'.val, by omega⟩)) d
      * Cert.Spec.inorm (fun j' => ∑ k : Fin 256, x0 (ix3 0 r k) * x1 (ix2 k ⟨512 + 64*h.val + j'.val, by omega⟩)) e

/-- The total a batch starts from is zero everywhere. -/
def ZeroAt : Prop := ∀ (h : Fin 8) (d e : Fin 64), (zero0 : Vec Ideal S8x64x64 .f32) (ix3 h d e) = 0

/-! ## The sum over a batch's rows, block by block -/

section Blocks
variable (X : S8x8192x256.Idx → EReal) (Wkv : S256x1024.Idx → EReal) (b h : Fin 8) (d e : Fin 64)

/-- One position's term. -/
def term0 (n : Fin 8192) : EReal :=
  Cert.Spec.inorm (fun j' => ∑ k : Fin 256, X (ix3 b n k) * Wkv (ix2 k ⟨64*h.val + j'.val, by omega⟩)) d
  * Cert.Spec.inorm (fun j' => ∑ k : Fin 256, X (ix3 b n k) * Wkv (ix2 k ⟨512 + 64*h.val + j'.val, by omega⟩)) e

/-- The same by the position's number (zero past the last position). -/
def termN (n : ℕ) : EReal := if hn : n < 8192 then term0 X Wkv b h d e ⟨n, hn⟩ else 0

/-- The partial sum of block `q`: positions `1024 q` to `1024 q + 1023`. -/
def part0 (q : ℕ) : EReal := ∑ r : Fin 1024, termN X Wkv b h d e (q * 1024 + r.val)

/-- The whole sum is the sum of the eight blocks' partial sums. -/
theorem dots0_eq_blocks : dots0 X Wkv b h d e = ∑ q ∈ Finset.range 8, part0 X Wkv b h d e q := by
  have e1 : dots0 X Wkv b h d e = ∑ n : Fin (8 * 1024), termN X Wkv b h d e n.val := by
    show ∑ n : Fin 8192, term0 X Wkv b h d e n = ∑ n : Fin 8192, termN X Wkv b h d e n.val
    refine Finset.sum_congr rfl fun n _ => ?_
    unfold termN
    rw [dif_pos n.isLt]
  rw [e1, BlockedSum.sum_fin_mul (termN X Wkv b h d e) 8 1024,
    Fin.sum_univ_eq_sum_range (fun q => ∑ r : Fin 1024, termN X Wkv b h d e (q * 1024 + r.val)) 8]
  rfl

/-- One point's step: when the x block is rows `1024 q + r` of batch `b` and the weights are the whole array, the
    new total at a head's entry is the old one plus block `q`'s partial sum. -/
theorem point0_eq (hstep : StepAt) (x0 : Vec Ideal S1x1024x256 .f32) (x1 : Vec Ideal S256x1024 .f32) (s : Vec Ideal S8x64x64 .f32) (q : ℕ) (hq : q < 8)
    (h0 : ∀ (r : Fin 1024) (k : Fin 256), x0 (ix3 (0 : Fin 1) r k) = X (ix3 b ⟨q * 1024 + r.val, by omega⟩ k))
    (h1 : ∀ (k : Fin 256) (j : Fin 1024), x1 (ix2 k j) = Wkv (ix2 k j)) :
    step0 x0 x1 s (ix3 h d e) = s (ix3 h d e) + part0 X Wkv b h d e q := by
  rw [hstep x0 x1 s h d e]
  refine congrArg (s (ix3 h d e) + ·) (Finset.sum_congr rfl fun r _ => ?_)
  unfold termN
  rw [dif_pos (show q * 1024 + r.val < 8192 by omega)]
  unfold term0
  simp only [h0, h1]

end Blocks

/-! ## The index maps -/

/-- Decided over the grid: the x block is tile `t % 8` of batch `t / 8`, the weights stay, the result block is the
    batch's. -/
theorem idx_facts0 : ∀ t : Fin cfg0.N,
    win0_0.index t (0 : Fin 3) = t.val / 8 ∧ win0_0.index t (1 : Fin 3) = t.val % 8 ∧ win0_0.index t (2 : Fin 3) = 0
    ∧ win0_1.index t (0 : Fin 2) = 0 ∧ win0_1.index t (1 : Fin 2) = 0
    ∧ win0_2.index t (0 : Fin 4) = t.val / 8 ∧ win0_2.index t (1 : Fin 4) = 0 ∧ win0_2.index t (2 : Fin 4) = 0
    ∧ win0_2.index t (3 : Fin 4) = 0 :=
  (by decide +kernel : ∀ t : Fin grid0.N, _)

/-- Every batch has a last point. -/
theorem idx_onto0 : ∀ q0 : Fin 8, ∃ t : Fin cfg0.N, t.val = 8 * q0.val + 7 :=
  (by decide +kernel : ∀ q0 : Fin 8, ∃ t : Fin grid0.N, t.val = 8 * q0.val + 7)

section Final
variable (V : (c : Dev nD) → (b : Ref sig .tc) → Buf (Elt Ideal) ((c : Thread nD τ).loc b))

/-- The x block at point `8 b + q` is rows `1024 q + r` of batch `b`. -/
theorem iblk0_0_apply (c : Dev nD) (t : Fin cfg0.N) (b : Fin 8) (q : ℕ) (hq : q < 8) (ht : t.val = 8 * b.val + q)
    (r : Fin 1024) (k : Fin 256) :
    (iblk0 V c 0 t : Vec Ideal S1x1024x256 .f32) (ix3 (0 : Fin 1) r k) = V c main_arg0 (ix3 b ⟨q * 1024 + r.val, by omega⟩ k) := by
  obtain ⟨e00, e01, e02, e10, e11, e20, e21, e22, e23⟩ := idx_facts0 t
  show V c main_arg0 (((cfg0.win 0).blk t).view.emb (ix3 (0 : Fin 1) r k)) = _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 1024 + 1 * r.val = q * 1024 + r.val; omega
  | ⟨2, _⟩ => show win0_0.index t (2 : Fin 3) * 256 + 1 * k.val = k.val; omega

/-- The weights' block at any point is the whole array. -/
theorem iblk0_1_apply (c : Dev nD) (t : Fin cfg0.N) (k : Fin 256) (j : Fin 1024) :
    (iblk0 V c 1 t : Vec Ideal S256x1024 .f32) (ix2 k j) = V c main_v6 (ix2 k j) := by
  obtain ⟨e00, e01, e02, e10, e11, e20, e21, e22, e23⟩ := idx_facts0 t
  show V c main_v6 (((cfg0.win 1).blk t).view.emb (ix2 k j)) = _
  refine congrArg (V c main_v6) (funext fun a => Fin.ext ?_)
  match a with
  | ⟨0, _⟩ => show win0_1.index t (0 : Fin 2) * 256 + 1 * k.val = k.val; omega
  | ⟨1, _⟩ => show win0_1.index t (1 : Fin 2) * 1024 + 1 * j.val = j.val; omega

/-- The running total after tile `q` of batch `b`: the first `q + 1` blocks' partial sums. -/
theorem accAt_apply (hstep : StepAt) (hzero : ZeroAt) (c : Dev nD) (b h : Fin 8) (d e : Fin 64) :
    ∀ (q : ℕ) (hq : q < 8) (t : Fin cfg0.N) (ht : t.val = 8 * b.val + q),
      accAt V c t.val t.isLt (ix3 h d e) = ∑ q' ∈ Finset.range (q + 1), part0 (V c main_arg0) (V c main_v6) b h d e q'
  | 0, hq, t, ht => by
    rw [accAt_first V c t (by omega),
      point0_eq (V c main_arg0) (V c main_v6) b h d e hstep _ _ _ 0 hq (iblk0_0_apply V c t b 0 hq ht) (iblk0_1_apply V c t),
      hzero h d e, zero_add, Finset.sum_range_one]
  | q + 1, hq, t, ht => by
    have hN : cfg0.N = 64 := N_0
    have hb : b.val < 8 := b.isLt
    rw [accAt_next V c t (by omega),
      point0_eq (V c main_arg0) (V c main_v6) b h d e hstep _ _ _ (q + 1) hq (iblk0_0_apply V c t b (q + 1) hq ht) (iblk0_1_apply V c t),
      Finset.sum_range_succ _ (q + 1)]
    refine congrArg (· + part0 (V c main_arg0) (V c main_v6) b h d e (q + 1)) ?_
    exact accAt_apply hstep hzero c b h d e q (by omega) ⟨t.val - 1, Nat.lt_of_le_of_lt (Nat.sub_le _ _) t.isLt⟩ (by show t.val - 1 = _; omega)

/-- The result array after the kernel, from the arrays it finds. -/
abbrev G0 (c : Dev nD) : S8x8x64x64.Idx → EReal :=
  fun i => dots0 (V c main_arg0) (V c main_v6) (i 0) (i 1) (i 2) (i 3)

/-- What a batch's last point writes back is the batch's block of `G0`. -/
theorem flushed0_2_eq (hstep : StepAt) (hzero : ZeroAt) (c : Dev nD) (t : Fin cfg0.N) (hf : (cfg0.win 2).flush t = true) :
    (dat0 (F := Ideal) V c).flushed 2 t = ((cfg0.win 2).blk t).view.read (Elt Ideal) (G0 V c) := by
  have hN : cfg0.N = 64 := N_0
  have h7 : t.val % 8 = 7 := (flush0_2 t).mp hf
  have htl : t.val < 64 := hN ▸ t.isLt
  obtain ⟨e00, e01, e02, e10, e11, e20, e21, e22, e23⟩ := idx_facts0 t
  show (cfg0.win 2).cut (grid0.coords t) ((dat0 V c).after 2 t) = _
  rw [after0_2, out0_2_eq]
  refine funext fun (j : S1x8x64x64.Idx) => ?_
  obtain ⟨u, h, d, e, rfl⟩ : ∃ (u : Fin 1) (h : Fin 8) (d e : Fin 64), j = ix4 u h d e := ⟨j 0, j 1, j 2, j 3, eq_ix4 j⟩
  have hu : u.val = 0 := by omega
  show k0_pay2 (accAt V c t.val t.isLt) (ix4 u h d e)
    = dots0 (V c main_arg0) (V c main_v6) (((cfg0.win 2).blk t).view.emb (ix4 u h d e) 0) (((cfg0.win 2).blk t).view.emb (ix4 u h d e) 1)
        (((cfg0.win 2).blk t).view.emb (ix4 u h d e) 2) (((cfg0.win 2).blk t).view.emb (ix4 u h d e) 3)
  have hE0 : ((cfg0.win 2).blk t).view.emb (ix4 u h d e) 0 = (⟨t.val / 8, by omega⟩ : Fin 8) := Fin.ext (by
    show win0_2.index t (0 : Fin 4) * 1 + 1 * u.val = t.val / 8; omega)
  have hE1 : ((cfg0.win 2).blk t).view.emb (ix4 u h d e) 1 = h := Fin.ext (by
    show win0_2.index t (1 : Fin 4) * 8 + 1 * h.val = h.val; omega)
  have hE2 : ((cfg0.win 2).blk t).view.emb (ix4 u h d e) 2 = d := Fin.ext (by
    show win0_2.index t (2 : Fin 4) * 64 + 1 * d.val = d.val; omega)
  have hE3 : ((cfg0.win 2).blk t).view.emb (ix4 u h d e) 3 = e := Fin.ext (by
    show win0_2.index t (3 : Fin 4) * 64 + 1 * e.val = e.val; omega)
  rw [hE0, hE1, hE2, hE3, dots0_eq_blocks]
  unfold k0_pay2
  refine (shapeCast_abc_1abc_apply _ _ u h d e).trans ?_
  exact accAt_apply V hstep hzero c ⟨t.val / 8, by omega⟩ h d e 7 (by omega) t (by show t.val = 8 * (t.val / 8) + 7; omega)

/-- An index of the result array is in point `t`'s block iff each coordinate is in the block's range on its axis. -/
theorem mem_blk0_2 (t : Fin cfg0.N) (i : S8x8x64x64.Idx) :
    i ∈ ((cfg0.win 2).blk t).view.set ↔ ∀ a : Fin 4, win0_2.index t a * S1x8x64x64.size a ≤ (i a).val ∧ (i a).val < win0_2.index t a * S1x8x64x64.size a + S1x8x64x64.size a := by
  show i ∈ ((View.whole main_v8).slice (win0_2.rect t)).set ↔ _
  rw [View.set_slice_whole, Rect.mem_set_unit]
  exact Iff.rfl

/-- Every index of the result array is in the block of its batch's last point, which writes back. -/
theorem cover0_2_arr (i : S8x8x64x64.Idx) :
    ∃ t : Fin cfg0.N, (cfg0.win 2).flush t = true ∧ i ∈ ((cfg0.win 2).blk t).view.set := by
  have hi0 : (i 0).val < 8 := (i 0).isLt
  have hi1 : (i 1).val < 8 := (i 1).isLt
  have hi2 : (i 2).val < 64 := (i 2).isLt
  have hi3 : (i 3).val < 64 := (i 3).isLt
  obtain ⟨t, ht⟩ := idx_onto0 ⟨(i 0).val, hi0⟩
  have ht' : t.val = 8 * (i 0).val + 7 := ht
  obtain ⟨e00, e01, e02, e10, e11, e20, e21, e22, e23⟩ := idx_facts0 t
  refine ⟨t, (flush0_2 t).mpr (by omega), ?_⟩
  rw [mem_blk0_2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 64 ≤ (i 2).val ∧ (i 2).val < win0_2.index t (2 : Fin 4) * 64 + 64; omega
  | ⟨3, _⟩ => show win0_2.index t (3 : Fin 4) * 64 ≤ (i 3).val ∧ (i 3).val < win0_2.index t (3 : Fin 4) * 64 + 64; omega

/-- The result array after the first kernel is `dots0` of the arrays the kernel finds, given the step and the
    starting total read at an entry. -/
theorem final0_of (hstep : StepAt) (hzero : ZeroAt) (c : Dev nD) :
    (dat0 (F := Ideal) V c).arrAt 2 cfg0.N = fun i => dots0 (V c main_arg0) (V c main_v6) (i 0) (i 1) (i 2) (i 3) :=
  (dat0 (F := Ideal) V c).arrAt_eq_of_cover 2 (G0 V c) (fun t hf => flushed0_2_eq V hstep hzero c t hf) (cover0_2_arr)

end Final

end Cert.KernelIdeal.Hand

end
-- ==== Proof.KI.Diag0.lean ====
/-
  The last part of one grid point of the first kernel, over abstract normalised parts: the axis-1 concatenation of eight
  64-column parts read at a column, the 512 x 512 product of the concatenated keys (transposed) with the concatenated
  values read at an entry, its eight 64 x 64 diagonal blocks stacked on a new leading axis and added to the old total.
-/
import proofs.«109764_j50680614093003_2_alg».proof.Proof.KI.Step0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

/-- Eight 64-column parts laid side by side: column `64 h + j` of the whole is column `j` of part `h`. -/
theorem concat8_apply {α : Type} (p : Fin 8 → (S1024x64.Idx → α)) (r : Fin 1024) (h : Fin 8) (j : Fin 64) :
    concatenate S1024x512 1 [⟨S1024x64, p 0⟩, ⟨S1024x64, p 1⟩, ⟨S1024x64, p 2⟩, ⟨S1024x64, p 3⟩, ⟨S1024x64, p 4⟩,
      ⟨S1024x64, p 5⟩, ⟨S1024x64, p 6⟩, ⟨S1024x64, p 7⟩] concatenates_S1024x64_S1024x64_S1024x64_S1024x64_S1024x64_S1024x64_S1024x64_S1024x64_S1024x512_d1
      (ix2 r ⟨64 * h.val + j.val, by omega⟩) = p h (ix2 r j) := by
  refine concatenate_ofFn_apply (t := S1024x512) (s₁ := S1024x64) 1 p concatenates_S1024x64_S1024x64_S1024x64_S1024x64_S1024x64_S1024x64_S1024x64_S1024x64_S1024x512_d1 rfl 64 rfl
    (ix2 r ⟨64 * h.val + j.val, by omega⟩) h ?_ (ix2 r j) ?_ ?_
  · show (64 * h.val + j.val) / 64 = h.val
    omega
  · show j.val = (64 * h.val + j.val) % 64
    omega
  · intro b hb
    match b with
    | ⟨0, _⟩ => rfl
    | ⟨1, _⟩ => exact absurd rfl hb

/-- The eight parts of the keys, and of the values, laid side by side (1024 x 512 each), and the one product the body
    takes of them: keys transposed times values, contracting the 1024 rows, into a zero accumulator. -/
def full (kp vp : Fin 8 → FVec Ideal S1024x64 .f32) : FVec Ideal S512x512 .f32 :=
  matmul dot_S1024x512_S1024x512_S512x512_0_0_1_1_n_n none
    (truncf .bf16 (concatenate S1024x512 1 [⟨S1024x64, kp 0⟩, ⟨S1024x64, kp 1⟩, ⟨S1024x64, kp 2⟩, ⟨S1024x64, kp 3⟩, ⟨S1024x64, kp 4⟩, ⟨S1024x64, kp 5⟩, ⟨S1024x64, kp 6⟩, ⟨S1024x64, kp 7⟩] concatenates_S1024x64_S1024x64_S1024x64_S1024x64_S1024x64_S1024x64_S1024x64_S1024x64_S1024x512_d1) bitsLt_bf16_f32)
    (truncf .bf16 (concatenate S1024x512 1 [⟨S1024x64, vp 0⟩, ⟨S1024x64, vp 1⟩, ⟨S1024x64, vp 2⟩, ⟨S1024x64, vp 3⟩, ⟨S1024x64, vp 4⟩, ⟨S1024x64, vp 5⟩, ⟨S1024x64, vp 6⟩, ⟨S1024x64, vp 7⟩] concatenates_S1024x64_S1024x64_S1024x64_S1024x64_S1024x64_S1024x64_S1024x64_S1024x64_S1024x512_d1) bitsLt_bf16_f32)
    (constant S512x512 .f32 0x00000000#32)

/-- The product's left operand index off the contracted axis: the output's row, as the operand's column. -/
theorem full_lhs_1 (i : S512x512.Idx) (q : dot_S1024x512_S1024x512_S512x512_0_0_1_1_n_n.contr.Idx) : (dot_S1024x512_S1024x512_S512x512_0_0_1_1_n_n.lhsIdx i q 1).val = (i 0).val := by
  unfold DotDims.lhsIdx
  rw [dif_neg (show ¬(1 : Fin S1024x512.rank) ∈ dot_S1024x512_S1024x512_S512x512_0_0_1_1_n_n.lhsBatch by decide),
    dif_pos (show (1 : Fin S1024x512.rank) ∈ dot_S1024x512_S1024x512_S512x512_0_0_1_1_n_n.lhsNonContracting by decide)]
  rfl

/-- The product's right operand index off the contracted axis: the output's column, as the operand's column. -/
theorem full_rhs_1 (i : S512x512.Idx) (q : dot_S1024x512_S1024x512_S512x512_0_0_1_1_n_n.contr.Idx) : (dot_S1024x512_S1024x512_S512x512_0_0_1_1_n_n.rhsIdx i q 1).val = (i 1).val := by
  unfold DotDims.rhsIdx
  rw [dif_neg (show ¬(1 : Fin S1024x512.rank) ∈ dot_S1024x512_S1024x512_S512x512_0_0_1_1_n_n.rhsBatch by decide),
    dif_pos (show (1 : Fin S1024x512.rank) ∈ dot_S1024x512_S1024x512_S512x512_0_0_1_1_n_n.rhsNonContracting by decide)]
  rfl

/-- The product's left operand index: row `r` of the contraction, the output's row as the column. -/
theorem full_lhsIdx (i j : Fin 512) (r : Fin 1024) :
    dot_S1024x512_S1024x512_S512x512_0_0_1_1_n_n.lhsIdx (ix2 i j) ((contrEquiv1 dot_S1024x512_S1024x512_S512x512_0_0_1_1_n_n 1024 rfl rfl).symm r) = ix2 r i := by
  have hk := contrEquiv1_symm_val dot_S1024x512_S1024x512_S512x512_0_0_1_1_n_n 1024 rfl rfl r
  refine funext fun a => Fin.ext ?_
  match a with
  | ⟨0, _⟩ => exact (dot_S1024x512_S1024x512_S512x512_0_0_1_1_n_n.lhsIdx_val_of_single rfl _ _).trans hk
  | ⟨1, _⟩ => exact full_lhs_1 _ _

/-- The product's right operand index: row `r` of the contraction, the output's column as the column. -/
theorem full_rhsIdx (i j : Fin 512) (r : Fin 1024) :
    dot_S1024x512_S1024x512_S512x512_0_0_1_1_n_n.rhsIdx (ix2 i j) ((contrEquiv1 dot_S1024x512_S1024x512_S512x512_0_0_1_1_n_n 1024 rfl rfl).symm r) = ix2 r j := by
  have hk := contrEquiv1_symm_val dot_S1024x512_S1024x512_S512x512_0_0_1_1_n_n 1024 rfl rfl r
  refine funext fun a => Fin.ext ?_
  match a with
  | ⟨0, _⟩ => exact (dot_S1024x512_S1024x512_S512x512_0_0_1_1_n_n.rhsIdx_val_of_single rfl _ _).trans hk
  | ⟨1, _⟩ => exact full_rhs_1 _ _

/-- An entry of the product: block row `h`, block column `h'` — the sum over the 1024 rows of key part `h` (column `d`)
    times value part `h'` (column `e`). -/
theorem full_apply (kp vp : Fin 8 → FVec Ideal S1024x64 .f32) (h h' : Fin 8) (d e : Fin 64) :
    full kp vp (ix2 ⟨64 * h.val + d.val, by omega⟩ ⟨64 * h'.val + e.val, by omega⟩)
      = ∑ r : Fin 1024, kp h (ix2 r d) * vp h' (ix2 r e) := by
  unfold full
  simp only [matmul]
  rw [Ideal.matmul_constant_zero_apply, ← Equiv.sum_comp (contrEquiv1 dot_S1024x512_S1024x512_S512x512_0_0_1_1_n_n 1024 rfl rfl).symm]
  refine Finset.sum_congr rfl fun r _ => ?_
  rw [full_lhsIdx, full_rhsIdx, truncf_apply, truncf_apply, concat8_apply, concat8_apply]

/-- A 64 x 64 block of a 512 x 512 array cut at `(o, o')`: its entry `(d, e)` is the array's entry `(o + d, o' + e)`. -/
theorem block64_apply {α : Type} (X : S512x512.Idx → α) (o o' : Nat) (hs : S512x512.Slices ![o, o'] S64x64) (d e : Fin 64)
    (k k' : Fin 512) (hk : k.val = o + d.val) (hk' : k'.val = o' + e.val) :
    extractStridedSlice S64x64 ![o, o'] X hs (ix2 d e) = X (ix2 k k') :=
  extractStridedSlice_apply _ _ _ _ _ (fun ax => by
    match ax with
    | ⟨0, _⟩ => exact hk
    | ⟨1, _⟩ => exact hk')

/-- A 64 x 64 array viewed as one 1 x 64 x 64 slab reads `(0, d, e)` at `(d, e)`. -/
theorem slab_apply {α : Type} (x : S64x64.Idx → α) (z : Fin 1) (d e : Fin 64) :
    shapeCast S1x64x64 x shapeCasts_S64x64_S1x64x64 (ix3 z d e) = x (ix2 d e) := by
  refine (shapeCast_addUnit_apply ![64, 64] x shapeCasts_S64x64_S1x64x64 (ix3 z d e)).trans (congrArg x ?_)
  funext a
  match a with
  | ⟨0, _⟩ => rfl
  | ⟨1, _⟩ => rfl

/-- Eight 64 x 64 arrays stacked on a new leading axis: slab `h` of the stack is array `h`. -/
theorem stack8_apply {α : Type} (q : Fin 8 → (S64x64.Idx → α)) (h : Fin 8) (d e : Fin 64) :
    concatenate S8x64x64 0 [⟨S1x64x64, shapeCast S1x64x64 (q 0) shapeCasts_S64x64_S1x64x64⟩,
      ⟨S1x64x64, shapeCast S1x64x64 (q 1) shapeCasts_S64x64_S1x64x64⟩,
      ⟨S1x64x64, shapeCast S1x64x64 (q 2) shapeCasts_S64x64_S1x64x64⟩,
      ⟨S1x64x64, shapeCast S1x64x64 (q 3) shapeCasts_S64x64_S1x64x64⟩,
      ⟨S1x64x64, shapeCast S1x64x64 (q 4) shapeCasts_S64x64_S1x64x64⟩,
      ⟨S1x64x64, shapeCast S1x64x64 (q 5) shapeCasts_S64x64_S1x64x64⟩,
      ⟨S1x64x64, shapeCast S1x64x64 (q 6) shapeCasts_S64x64_S1x64x64⟩,
      ⟨S1x64x64, shapeCast S1x64x64 (q 7) shapeCasts_S64x64_S1x64x64⟩]
      concatenates_S1x64x64_S1x64x64_S1x64x64_S1x64x64_S1x64x64_S1x64x64_S1x64x64_S1x64x64_S8x64x64_d0 (ix3 h d e) = q h (ix2 d e) := by
  refine (concatenate_ofFn_unit_apply (t := S8x64x64) (s₁ := S1x64x64) 0
    (fun n => shapeCast S1x64x64 (q n) shapeCasts_S64x64_S1x64x64) concatenates_S1x64x64_S1x64x64_S1x64x64_S1x64x64_S1x64x64_S1x64x64_S1x64x64_S1x64x64_S8x64x64_d0 rfl rfl
    (ix3 h d e) h rfl (ix3 0 d e) ?_).trans (slab_apply (q h) 0 d e)
  intro b hb
  match b with
  | ⟨0, _⟩ => exact absurd rfl hb
  | ⟨1, _⟩ => rfl
  | ⟨2, _⟩ => rfl

/-- The eight diagonal 64 x 64 blocks of a 512 x 512 array, as the body cuts them. -/
def diag (X : FVec Ideal S512x512 .f32) : Fin 8 → FVec Ideal S64x64 .f32 :=
  ![extractStridedSlice S64x64 ![0, 0] X slices_S512x512_o0_0_S64x64,
    extractStridedSlice S64x64 ![64, 64] X slices_S512x512_o64_64_S64x64,
    extractStridedSlice S64x64 ![128, 128] X slices_S512x512_o128_128_S64x64,
    extractStridedSlice S64x64 ![192, 192] X slices_S512x512_o192_192_S64x64,
    extractStridedSlice S64x64 ![256, 256] X slices_S512x512_o256_256_S64x64,
    extractStridedSlice S64x64 ![320, 320] X slices_S512x512_o320_320_S64x64,
    extractStridedSlice S64x64 ![384, 384] X slices_S512x512_o384_384_S64x64,
    extractStridedSlice S64x64 ![448, 448] X slices_S512x512_o448_448_S64x64]

/-- Entry `(d, e)` of diagonal block `h` is the array's entry `(64 h + d, 64 h + e)`. -/
theorem diag_apply (X : FVec Ideal S512x512 .f32) (h : Fin 8) (d e : Fin 64) :
    diag X h (ix2 d e) = X (ix2 ⟨64 * h.val + d.val, by omega⟩ ⟨64 * h.val + e.val, by omega⟩) := by
  match h with
  | ⟨0, _⟩ => exact block64_apply X 0 0 slices_S512x512_o0_0_S64x64 d e _ _ (by show 64 * 0 + d.val = 0 + d.val; omega) (by show 64 * 0 + e.val = 0 + e.val; omega)
  | ⟨1, _⟩ => exact block64_apply X 64 64 slices_S512x512_o64_64_S64x64 d e _ _ (by show 64 * 1 + d.val = 64 + d.val; omega) (by show 64 * 1 + e.val = 64 + e.val; omega)
  | ⟨2, _⟩ => exact block64_apply X 128 128 slices_S512x512_o128_128_S64x64 d e _ _ (by show 64 * 2 + d.val = 128 + d.val; omega) (by show 64 * 2 + e.val = 128 + e.val; omega)
  | ⟨3, _⟩ => exact block64_apply X 192 192 slices_S512x512_o192_192_S64x64 d e _ _ (by show 64 * 3 + d.val = 192 + d.val; omega) (by show 64 * 3 + e.val = 192 + e.val; omega)
  | ⟨4, _⟩ => exact block64_apply X 256 256 slices_S512x512_o256_256_S64x64 d e _ _ (by show 64 * 4 + d.val = 256 + d.val; omega) (by show 64 * 4 + e.val = 256 + e.val; omega)
  | ⟨5, _⟩ => exact block64_apply X 320 320 slices_S512x512_o320_320_S64x64 d e _ _ (by show 64 * 5 + d.val = 320 + d.val; omega) (by show 64 * 5 + e.val = 320 + e.val; omega)
  | ⟨6, _⟩ => exact block64_apply X 384 384 slices_S512x512_o384_384_S64x64 d e _ _ (by show 64 * 6 + d.val = 384 + d.val; omega) (by show 64 * 6 + e.val = 384 + e.val; omega)
  | ⟨7, _⟩ => exact block64_apply X 448 448 slices_S512x512_o448_448_S64x64 d e _ _ (by show 64 * 7 + d.val = 448 + d.val; omega) (by show 64 * 7 + e.val = 448 + e.val; omega)

/-- The new running total at head `h`, entry `(d, e)`: the old total there plus the sum over the point's 1024 rows of the
    head's key part (column `d`) times its value part (column `e`). -/
theorem new_total_apply (kp vp : Fin 8 → FVec Ideal S1024x64 .f32) (s : Vec Ideal S8x64x64 .f32) (h : Fin 8) (d e : Fin 64) :
    k0_pay1 (full kp vp)
      (extractStridedSlice S64x64 ![0, 0] (full kp vp) slices_S512x512_o0_0_S64x64)
      (extractStridedSlice S64x64 ![64, 64] (full kp vp) slices_S512x512_o64_64_S64x64)
      (extractStridedSlice S64x64 ![128, 128] (full kp vp) slices_S512x512_o128_128_S64x64)
      (extractStridedSlice S64x64 ![192, 192] (full kp vp) slices_S512x512_o192_192_S64x64)
      (extractStridedSlice S64x64 ![256, 256] (full kp vp) slices_S512x512_o256_256_S64x64)
      (extractStridedSlice S64x64 ![320, 320] (full kp vp) slices_S512x512_o320_320_S64x64)
      (extractStridedSlice S64x64 ![384, 384] (full kp vp) slices_S512x512_o384_384_S64x64)
      s (ix3 h d e)
      = s (ix3 h d e) + ∑ r : Fin 1024, kp h (ix2 r d) * vp h (ix2 r e) := by
  unfold k0_pay1
  rw [shapeCast_self, addf_apply]
  refine congrArg (s (ix3 h d e) + ·) ?_
  refine (stack8_apply (diag (full kp vp)) h d e).trans ?_
  rw [diag_apply, full_apply]

end Cert.KernelIdeal.Hand

end
-- ==== Proof.KI.Norm0.lean ====
/-
  The row-wise instance normalisation of a block of 1024 rows by 64 columns, as the first kernel's body computes
  it for each head's slice of the keys and of the values: the row's mean is its lane sum over 64, the centred
  row is squared and summed for the (biased) variance, and the centred row is scaled by the reciprocal root of
  the variance plus the regulariser. Read at one element of the block, it is the specification's `inorm` of
  that row.
-/
import proofs.«109764_j50680614093003_2_alg».proof.Proof.Gen.KernelIdeal.Skeleton
import proofs.«109764_j50680614093003_2_alg».proof.Proof.Spec
import Idealize.ShloMosaic.PureOps.Ideal.Laws
import Idealize.ShloMosaic.Lib.ValueLayout

noncomputable section

open scoped BigOperators

namespace Cert.KernelIdeal.Hand

open Idealize.ShloMosaic Idealize.ShloMosaic.ValueIdx Cert.KernelIdeal Cert.KernelIdeal.Gen

/-- One block's instance normalisation, operation by operation: lane sum, division by 64, centring, squares,
    lane sum, division by 64, plus the regulariser, reciprocal root, product. -/
def inormRows {F : FTy → Type} [FloatOps F] (t : FVec F S1024x64 .f32) : FVec F S1024x64 .f32 :=
  have s1 : FVec F S1024 .f32 := multiReduction .add [1] S1024 t 0x00000000#32 reduces_S1024x64_S1024 (.inl rfl) rfl
  have s1c : FVec F S1024x1 .f32 := shapeCast S1024x1 s1 shapeCasts_S1024_S1024x1
  have n1 : FVec F S1024x1 .f32 := broadcast S1024x1 (Scalar.ofBits .f32 0x42800000#32)
  have m : FVec F S1024x1 .f32 := divf s1c n1
  have mb : FVec F S1024x64 .f32 := broadcastTo S1024x64 m broadcasts_S1024x1_S1024x64
  have c : FVec F S1024x64 .f32 := subf t mb
  have sq : FVec F S1024x64 .f32 := mulf c c
  have s2 : FVec F S1024 .f32 := multiReduction .add [1] S1024 sq 0x00000000#32 reduces_S1024x64_S1024 (.inl rfl) rfl
  have s2c : FVec F S1024x1 .f32 := shapeCast S1024x1 s2 shapeCasts_S1024_S1024x1
  have n2 : FVec F S1024x1 .f32 := broadcast S1024x1 (Scalar.ofBits .f32 0x42800000#32)
  have var : FVec F S1024x1 .f32 := divf s2c n2
  have mb' : FVec F S1024x64 .f32 := broadcastTo S1024x64 m broadcasts_S1024x1_S1024x64
  have c' : FVec F S1024x64 .f32 := subf t mb'
  have e : FVec F S1024x1 .f32 := broadcast S1024x1 (Scalar.ofBits .f32 0x3727C5AC#32)
  have ve : FVec F S1024x1 .f32 := addf var e
  have rs : FVec F S1024x1 .f32 := rsqrt ve
  have rsb : FVec F S1024x64 .f32 := broadcastTo S1024x64 rs broadcasts_S1024x1_S1024x64
  mulf c' rsb

/-! ## The column forms of a cast and of a broadcast, read at an index -/

/-- A vector cast to a one-column matrix reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of a block at row `r`: the sum of the row's 64 elements. -/
theorem rowSum_apply (src : FVec Ideal S1024x64 .f32) (r : Fin 1024) :
    multiReduction (F := Ideal) .add [1] S1024 src 0x00000000#32 reduces_S1024x64_S1024 (.inl rfl) rfl (ix1 r)
      = ∑ k : Fin 64, src (ix2 r k) := by
  refine (Ideal.multiReduction_add_single src 0x00000000#32 reduces_S1024x64_S1024 (.inl rfl) rfl (ix1 r)).trans ?_
  refine Finset.sum_congr rfl fun k _ => congrArg src ?_
  funext c
  match c with
  | ⟨0, _⟩ => rfl
  | ⟨1, _⟩ => rfl

/-- The reciprocal root of a block at an index is the reciprocal root of the element. -/
theorem rsqrt_apply {s : Shape} {φ : FTy} (a : FVec Ideal s φ) (i : s.Idx) : rsqrt a i = Ideal.rsqrt (a i) := rfl

/-- THE NORMALISATION AT AN ELEMENT: element `(r, j)` of the normalised block is the specification's instance
    norm of row `r`, at `j`. -/
theorem inormRows_apply (t : FVec Ideal S1024x64 .f32) (r : Fin 1024) (j : Fin 64) :
    inormRows t (ix2 r j) = Cert.Spec.inorm (fun j' : Fin 64 => t (ix2 r j')) j := by
  unfold inormRows Cert.Spec.inorm Cert.Spec.mean Cert.Spec.c64 Cert.Spec.eps
  simp only [mulf_apply, subf_apply, addf_apply, divf_apply, broadcastTo_a1_ab_apply, shapeCast_a_a1_apply,
    broadcast_apply, rsqrt_apply]
  rw [rowSum_apply, rowSum_apply]
  simp only [mulf_apply, subf_apply, divf_apply, broadcastTo_a1_ab_apply, shapeCast_a_a1_apply, broadcast_apply]
  rw [rowSum_apply]
  rfl

end Cert.KernelIdeal.Hand

end
-- ==== Proof.KI.Norm0b.lean ====
/-
  The sixteen normalised head slices of the first kernel's body are one and the same computation: the row-wise
  instance normalisation `inormRows` of a 64-column slice of the keys' projection (columns 0 to 511 of the
  point's product) or of the values' (columns 512 to 1023). The body's named values cut that computation at
  different places; each equation below puts the pieces back together, by unfolding. Head 7 is normalised inside
  the body's last product, which is restated over `inormRows` of its two raw slices.
-/
import proofs.«109764_j50680614093003_2_alg».proof.Proof.KI.Norm0

noncomputable section

namespace Cert.KernelIdeal.Hand

open Idealize.ShloMosaic Idealize.ShloMosaic.ValueIdx Cert.KernelIdeal Cert.KernelIdeal.Gen

variable {F : FTy → Type} [FloatOps F]

/-- The 64 columns from `o` of a 1024 x 512 block. -/
abbrev cols (o : Nat) (v : FVec F S1024x512 .f32) (h : S1024x512.Slices ![0, o] S1024x64) : FVec F S1024x64 .f32 :=
  extractStridedSlice S1024x64 ![0, o] v h

/-! ## Keys: heads 0 to 6 -/

theorem kpart_0_eq (x0 : Vec F S1x1024x256 .f32) (x1 : Vec F S256x1024 .f32) :
    k0_pay8 x0 x1 = inormRows (cols 0 (k0_pay5 x0 x1) slices_S1024x512_o0_0_S1024x64) := rfl
theorem kpart_1_eq (v10 : FVec F S1024x512 .f32) :
    k0_pay12 v10 = inormRows (cols 64 v10 slices_S1024x512_o0_64_S1024x64) := rfl
theorem kpart_2_eq (v10 : FVec F S1024x512 .f32) :
    k0_pay15 (k0_pay14 v10) = inormRows (cols 128 v10 slices_S1024x512_o0_128_S1024x64) := rfl
theorem kpart_3_eq (v10 : FVec F S1024x512 .f32) :
    k0_pay21 (k0_pay17 v10) (k0_pay19 v10) (k0_pay20 v10) = inormRows (cols 192 v10 slices_S1024x512_o0_192_S1024x64) := rfl
theorem kpart_4_eq (v10 : FVec F S1024x512 .f32) :
    k0_pay24 v10 = inormRows (cols 256 v10 slices_S1024x512_o0_256_S1024x64) := rfl
theorem kpart_5_eq (v10 : FVec F S1024x512 .f32) :
    k0_pay27 v10 = inormRows (cols 320 v10 slices_S1024x512_o0_320_S1024x64) := rfl
theorem kpart_6_eq (v10 : FVec F S1024x512 .f32) :
    k0_pay31 v10 = inormRows (cols 384 v10 slices_S1024x512_o0_384_S1024x64) := rfl
/-- Head 7's raw key slice, which the last product normalises itself. -/
theorem kraw_7_eq (v10 : FVec F S1024x512 .f32) :
    k0_pay33 v10 = cols 448 v10 slices_S1024x512_o0_448_S1024x64 := rfl

/-! ## Values: heads 0 to 6 -/

theorem vpart_0_eq (x0 : Vec F S1x1024x256 .f32) (x1 : Vec F S256x1024 .f32) :
    k0_pay11 (k0_pay7 x0 x1) (k0_pay9 x0 x1) (k0_pay10 x0 x1) = inormRows (cols 0 (k0_pay6 x0 x1) slices_S1024x512_o0_0_S1024x64) := rfl
theorem vpart_1_eq (v11 : FVec F S1024x512 .f32) :
    k0_pay13 v11 = inormRows (cols 64 v11 slices_S1024x512_o0_64_S1024x64) := rfl
theorem vpart_2_eq (v11 : FVec F S1024x512 .f32) :
    k0_pay16 v11 = inormRows (cols 128 v11 slices_S1024x512_o0_128_S1024x64) := rfl
theorem vpart_3_eq (v11 : FVec F S1024x512 .f32) :
    k0_pay22 (k0_pay18 v11) = inormRows (cols 192 v11 slices_S1024x512_o0_192_S1024x64) := rfl
theorem vpart_4_eq (v11 : FVec F S1024x512 .f32) :
    k0_pay25 (k0_pay23 v11) = inormRows (cols 256 v11 slices_S1024x512_o0_256_S1024x64) := rfl
theorem vpart_5_eq (v11 : FVec F S1024x512 .f32) :
    k0_pay30 (k0_pay26 v11) (k0_pay28 v11) (k0_pay29 v11) = inormRows (cols 320 v11 slices_S1024x512_o0_320_S1024x64) := rfl
theorem vpart_6_eq (v11 : FVec F S1024x512 .f32) :
    k0_pay32 v11 = inormRows (cols 384 v11 slices_S1024x512_o0_384_S1024x64) := rfl

/-! ## Head 7, inside the last product -/

/-- The body's 512 x 512 product: the eight normalised key slices side by side, transposed, times the eight
    normalised value slices side by side; head 7's two slices are normalised here. -/
theorem k0_pay34_eq (v11 : FVec F S1024x512 .f32) (v31 : FVec F S1024x64 .f32) (v49 : FVec F S1024x64 .f32) (v69 : FVec F S1024x64 .f32) (v87 : FVec F S1024x64 .f32) (v107 : FVec F S1024x64 .f32) (v125 : FVec F S1024x64 .f32) (v145 : FVec F S1024x64 .f32) (v163 : FVec F S1024x64 .f32) (v183 : FVec F S1024x64 .f32) (v201 : FVec F S1024x64 .f32) (v221 : FVec F S1024x64 .f32) (v239 : FVec F S1024x64 .f32) (v259 : FVec F S1024x64 .f32) (v277 : FVec F S1024x64 .f32) (v278 : FVec F S1024x64 .f32) :
    k0_pay34 v11 v31 v49 v69 v87 v107 v125 v145 v163 v183 v201 v221 v239 v259 v277 v278
      = matmul dot_S1024x512_S1024x512_S512x512_0_0_1_1_n_n none
          (truncf .bf16 (concatenate S1024x512 1 [⟨S1024x64, v31⟩, ⟨S1024x64, v69⟩, ⟨S1024x64, v107⟩, ⟨S1024x64, v145⟩,
            ⟨S1024x64, v183⟩, ⟨S1024x64, v221⟩, ⟨S1024x64, v259⟩, ⟨S1024x64, inormRows v278⟩]
            concatenates_S1024x64_S1024x64_S1024x64_S1024x64_S1024x64_S1024x64_S1024x64_S1024x64_S1024x512_d1) bitsLt_bf16_f32)
          (truncf .bf16 (concatenate S1024x512 1 [⟨S1024x64, v49⟩, ⟨S1024x64, v87⟩, ⟨S1024x64, v125⟩, ⟨S1024x64, v163⟩,
            ⟨S1024x64, v201⟩, ⟨S1024x64, v239⟩, ⟨S1024x64, v277⟩, ⟨S1024x64, inormRows (cols 448 v11 slices_S1024x512_o0_448_S1024x64)⟩]
            concatenates_S1024x64_S1024x64_S1024x64_S1024x64_S1024x64_S1024x64_S1024x64_S1024x64_S1024x512_d1) bitsLt_bf16_f32)
          (constant S512x512 .f32 0x00000000#32) := rfl

end Cert.KernelIdeal.Hand

end
-- ==== Proof.KI.Norm0c.lean ====
/-
  The first kernel's projection read at an element, and through it the sixteen normalised head slices: element
  `(r, c)` of the point's 1024 x 1024 product is the sum over the 256 input features of the block's row `r` times
  the weights' column `c`; the keys are its columns 0 to 511 and the values its columns 512 to 1023; so each
  normalised head slice, at `(r, j)`, is the specification's instance norm of the 64 projections of row `r` onto
  that head's columns.
-/
import proofs.«109764_j50680614093003_2_alg».proof.Proof.KI.Norm0b

noncomputable section

open scoped BigOperators

namespace Cert.KernelIdeal.Hand

open Idealize.ShloMosaic Idealize.ShloMosaic.ValueIdx Cert.KernelIdeal Cert.KernelIdeal.Gen

/-! ## The product's operand indices -/

theorem proj_lhs_0 (i : S1024x1024.Idx) (q : dot_S1024x256_S256x1024_S1024x1024_1_0_0_1_n_n.contr.Idx) : (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide),
    dif_pos (show (0 : Fin S1024x256.rank) ∈ dot_S1024x256_S256x1024_S1024x1024_1_0_0_1_n_n.lhsNonContracting by decide)]
  rfl
theorem proj_lhs_1 (i : S1024x1024.Idx) (q : dot_S1024x256_S256x1024_S1024x1024_1_0_0_1_n_n.contr.Idx) : (dot_S1024x256_S256x1024_S1024x1024_1_0_0_1_n_n.lhsIdx i q 1).val = (q ⟨0, by decide⟩).val :=
  dot_S1024x256_S256x1024_S1024x1024_1_0_0_1_n_n.lhsIdx_val_of_single rfl i q
theorem proj_rhs_0 (i : S1024x1024.Idx) (q : dot_S1024x256_S256x1024_S1024x1024_1_0_0_1_n_n.contr.Idx) : (dot_S1024x256_S256x1024_S1024x1024_1_0_0_1_n_n.rhsIdx i q 0).val = (q ⟨0, by decide⟩).val :=
  dot_S1024x256_S256x1024_S1024x1024_1_0_0_1_n_n.rhsIdx_val_of_single rfl i q
theorem proj_rhs_1 (i : S1024x1024.Idx) (q : dot_S1024x256_S256x1024_S1024x1024_1_0_0_1_n_n.contr.Idx) : (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide),
    dif_pos (show (1 : Fin S256x1024.rank) ∈ dot_S1024x256_S256x1024_S1024x1024_1_0_0_1_n_n.rhsNonContracting by decide)]
  rfl

/-- THE PROJECTION AT AN ELEMENT: row `r` of the block against column `col` of the weights. -/
theorem proj0_apply (x0 : Vec Ideal S1x1024x256 .f32) (x1 : Vec Ideal S256x1024 .f32) (r : Fin 1024) (col : Fin 1024) :
    k0_pay4 x0 x1 (ix2 r col) = ∑ k : Fin 256, x0 (ix3 0 r k) * x1 (ix2 k col) := by
  unfold k0_pay4
  simp only [matmul]
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r col) ((contrEquiv1 dot_S1024x256_S256x1024_S1024x1024_1_0_0_1_n_n 256 rfl rfl).symm k) = ix2 r k := funext fun a => Fin.ext (by
    match a with
    | ⟨0, _⟩ => exact proj_lhs_0 _ _
    | ⟨1, _⟩ => exact (proj_lhs_1 _ _).trans hk)
  have er : dot_S1024x256_S256x1024_S1024x1024_1_0_0_1_n_n.rhsIdx (ix2 r col) ((contrEquiv1 dot_S1024x256_S256x1024_S1024x1024_1_0_0_1_n_n 256 rfl rfl).symm k) = ix2 k col := funext fun a => Fin.ext (by
    match a with
    | ⟨0, _⟩ => exact (proj_rhs_0 _ _).trans hk
    | ⟨1, _⟩ => exact proj_rhs_1 _ _)
  rw [el, er, truncf_apply, truncf_apply, shapeCast_1ab_ab_apply]
  exact congrArg (x0 (ix3 0 r k) * ·) (shapeCast_apply x1 shapeCasts_S256x1024_S256x1024 (ix2 k col) (ix2 k col) rfl)

/-- The keys' projection: the product's columns 0 to 511. -/
theorem keys_at (x0 : Vec Ideal S1x1024x256 .f32) (x1 : Vec Ideal S256x1024 .f32) (r : Fin 1024) (c : Fin 512)
    (col : Fin 1024) (hcol : col.val = c.val) :
    k0_pay5 x0 x1 (ix2 r c) = ∑ k : Fin 256, x0 (ix3 0 r k) * x1 (ix2 k col) :=
  (slice2_axis1_apply 0 (k0_pay4 x0 x1) slices_S1024x1024_o0_0_S1024x512 r c col
    (hcol.trans (Nat.zero_add _).symm)).trans (proj0_apply x0 x1 r col)

/-- The values' projection: the product's columns 512 to 1023. -/
theorem values_at (x0 : Vec Ideal S1x1024x256 .f32) (x1 : Vec Ideal S256x1024 .f32) (r : Fin 1024) (c : Fin 512)
    (col : Fin 1024) (hcol : col.val = 512 + c.val) :
    k0_pay6 x0 x1 (ix2 r c) = ∑ k : Fin 256, x0 (ix3 0 r k) * x1 (ix2 k col) :=
  (slice2_axis1_apply 512 (k0_pay4 x0 x1) slices_S1024x1024_o0_512_S1024x512 r c col hcol).trans
    (proj0_apply x0 x1 r col)

/-- A 64-column slice of the keys, normalised, at an element: `col j'` names the product's column under the
    slice's column `j'`. -/
theorem inorm_cols_keys (o : Nat) (h : S1024x512.Slices ![0, o] S1024x64)
    (x0 : Vec Ideal S1x1024x256 .f32) (x1 : Vec Ideal S256x1024 .f32) (r : Fin 1024) (j : Fin 64)
    (col : Fin 64 → Fin 1024) (hcol : ∀ j', (col j').val = o + j'.val) :
    inormRows (cols o (k0_pay5 x0 x1) h) (ix2 r j)
      = Cert.Spec.inorm (fun j' : Fin 64 => ∑ k : Fin 256, x0 (ix3 0 r k) * x1 (ix2 k (col j'))) j :=
  (inormRows_apply _ r j).trans (congrArg (fun f => Cert.Spec.inorm f j) (funext fun j' =>
    (slice2_axis1_eq o (k0_pay5 x0 x1) h r j').trans
      (keys_at x0 x1 r _ (col j') (hcol j'))))

/-- The same for a slice of the values: the product's column is 512 further. -/
theorem inorm_cols_values (o : Nat) (h : S1024x512.Slices ![0, o] S1024x64)
    (x0 : Vec Ideal S1x1024x256 .f32) (x1 : Vec Ideal S256x1024 .f32) (r : Fin 1024) (j : Fin 64)
    (col : Fin 64 → Fin 1024) (hcol : ∀ j', (col j').val = 512 + o + j'.val) :
    inormRows (cols o (k0_pay6 x0 x1) h) (ix2 r j)
      = Cert.Spec.inorm (fun j' : Fin 64 => ∑ k : Fin 256, x0 (ix3 0 r k) * x1 (ix2 k (col j'))) j :=
  (inormRows_apply _ r j).trans (congrArg (fun f => Cert.Spec.inorm f j) (funext fun j' =>
    (slice2_axis1_eq o (k0_pay6 x0 x1) h r j').trans
      (values_at x0 x1 r _ (col j') ((hcol j').trans (Nat.add_assoc _ _ _)))))

/-! ## The sixteen normalised head slices at an element -/

/-- Head 0's normalised keys at row `r`, column `j`: the instance norm of the row's projection onto columns 0 to 63. -/
theorem kpart_0_apply (x0 : Vec Ideal S1x1024x256 .f32) (x1 : Vec Ideal S256x1024 .f32) (r : Fin 1024) (j : Fin 64) :
    k0_pay8 x0 x1 (ix2 r j)
      = Cert.Spec.inorm (fun j' : Fin 64 => ∑ k : Fin 256, x0 (ix3 0 r k) * x1 (ix2 k ⟨64 * 0 + j'.val, by omega⟩)) j :=
  (congrFun (kpart_0_eq x0 x1) (ix2 r j)).trans (inorm_cols_keys 0 _ x0 x1 r j _ (fun _ => rfl))

/-- Head 1's normalised keys at row `r`, column `j`: the instance norm of the row's projection onto columns 64 to 127. -/
theorem kpart_1_apply (x0 : Vec Ideal S1x1024x256 .f32) (x1 : Vec Ideal S256x1024 .f32) (r : Fin 1024) (j : Fin 64) :
    k0_pay12 (k0_pay5 x0 x1) (ix2 r j)
      = Cert.Spec.inorm (fun j' : Fin 64 => ∑ k : Fin 256, x0 (ix3 0 r k) * x1 (ix2 k ⟨64 * 1 + j'.val, by omega⟩)) j :=
  (congrFun (kpart_1_eq (k0_pay5 x0 x1)) (ix2 r j)).trans (inorm_cols_keys 64 _ x0 x1 r j _ (fun _ => rfl))

/-- Head 2's normalised keys at row `r`, column `j`: the instance norm of the row's projection onto columns 128 to 191. -/
theorem kpart_2_apply (x0 : Vec Ideal S1x1024x256 .f32) (x1 : Vec Ideal S256x1024 .f32) (r : Fin 1024) (j : Fin 64) :
    k0_pay15 (k0_pay14 (k0_pay5 x0 x1)) (ix2 r j)
      = Cert.Spec.inorm (fun j' : Fin 64 => ∑ k : Fin 256, x0 (ix3 0 r k) * x1 (ix2 k ⟨64 * 2 + j'.val, by omega⟩)) j :=
  (congrFun (kpart_2_eq (k0_pay5 x0 x1)) (ix2 r j)).trans (inorm_cols_keys 128 _ x0 x1 r j _ (fun _ => rfl))

/-- Head 3's normalised keys at row `r`, column `j`: the instance norm of the row's projection onto columns 192 to 255. -/
theorem kpart_3_apply (x0 : Vec Ideal S1x1024x256 .f32) (x1 : Vec Ideal S256x1024 .f32) (r : Fin 1024) (j : Fin 64) :
    k0_pay21 (k0_pay17 (k0_pay5 x0 x1)) (k0_pay19 (k0_pay5 x0 x1)) (k0_pay20 (k0_pay5 x0 x1)) (ix2 r j)
      = Cert.Spec.inorm (fun j' : Fin 64 => ∑ k : Fin 256, x0 (ix3 0 r k) * x1 (ix2 k ⟨64 * 3 + j'.val, by omega⟩)) j :=
  (congrFun (kpart_3_eq (k0_pay5 x0 x1)) (ix2 r j)).trans (inorm_cols_keys 192 _ x0 x1 r j _ (fun _ => rfl))

/-- Head 4's normalised keys at row `r`, column `j`: the instance norm of the row's projection onto columns 256 to 319. -/
theorem kpart_4_apply (x0 : Vec Ideal S1x1024x256 .f32) (x1 : Vec Ideal S256x1024 .f32) (r : Fin 1024) (j : Fin 64) :
    k0_pay24 (k0_pay5 x0 x1) (ix2 r j)
      = Cert.Spec.inorm (fun j' : Fin 64 => ∑ k : Fin 256, x0 (ix3 0 r k) * x1 (ix2 k ⟨64 * 4 + j'.val, by omega⟩)) j :=
  (congrFun (kpart_4_eq (k0_pay5 x0 x1)) (ix2 r j)).trans (inorm_cols_keys 256 _ x0 x1 r j _ (fun _ => rfl))

/-- Head 5's normalised keys at row `r`, column `j`: the instance norm of the row's projection onto columns 320 to 383. -/
theorem kpart_5_apply (x0 : Vec Ideal S1x1024x256 .f32) (x1 : Vec Ideal S256x1024 .f32) (r : Fin 1024) (j : Fin 64) :
    k0_pay27 (k0_pay5 x0 x1) (ix2 r j)
      = Cert.Spec.inorm (fun j' : Fin 64 => ∑ k : Fin 256, x0 (ix3 0 r k) * x1 (ix2 k ⟨64 * 5 + j'.val, by omega⟩)) j :=
  (congrFun (kpart_5_eq (k0_pay5 x0 x1)) (ix2 r j)).trans (inorm_cols_keys 320 _ x0 x1 r j _ (fun _ => rfl))

/-- Head 6's normalised keys at row `r`, column `j`: the instance norm of the row's projection onto columns 384 to 447. -/
theorem kpart_6_apply (x0 : Vec Ideal S1x1024x256 .f32) (x1 : Vec Ideal S256x1024 .f32) (r : Fin 1024) (j : Fin 64) :
    k0_pay31 (k0_pay5 x0 x1) (ix2 r j)
      = Cert.Spec.inorm (fun j' : Fin 64 => ∑ k : Fin 256, x0 (ix3 0 r k) * x1 (ix2 k ⟨64 * 6 + j'.val, by omega⟩)) j :=
  (congrFun (kpart_6_eq (k0_pay5 x0 x1)) (ix2 r j)).trans (inorm_cols_keys 384 _ x0 x1 r j _ (fun _ => rfl))

/-- Head 7's normalised keys at row `r`, column `j`: the instance norm of the row's projection onto columns 448 to 511. -/
theorem kpart_7_apply (x0 : Vec Ideal S1x1024x256 .f32) (x1 : Vec Ideal S256x1024 .f32) (r : Fin 1024) (j : Fin 64) :
    inormRows (k0_pay33 (k0_pay5 x0 x1)) (ix2 r j)
      = Cert.Spec.inorm (fun j' : Fin 64 => ∑ k : Fin 256, x0 (ix3 0 r k) * x1 (ix2 k ⟨64 * 7 + j'.val, by omega⟩)) j :=
  inorm_cols_keys 448 slices_S1024x512_o0_448_S1024x64 x0 x1 r j _ (fun _ => rfl)

/-- Head 0's normalised values at row `r`, column `j`: the instance norm of the row's projection onto columns 512 to 575. -/
theorem vpart_0_apply (x0 : Vec Ideal S1x1024x256 .f32) (x1 : Vec Ideal S256x1024 .f32) (r : Fin 1024) (j : Fin 64) :
    k0_pay11 (k0_pay7 x0 x1) (k0_pay9 x0 x1) (k0_pay10 x0 x1) (ix2 r j)
      = Cert.Spec.inorm (fun j' : Fin 64 => ∑ k : Fin 256, x0 (ix3 0 r k) * x1 (ix2 k ⟨512 + 64 * 0 + j'.val, by omega⟩)) j :=
  (congrFun (vpart_0_eq x0 x1) (ix2 r j)).trans (inorm_cols_values 0 _ x0 x1 r j _ (fun _ => rfl))

/-- Head 1's normalised values at row `r`, column `j`: the instance norm of the row's projection onto columns 576 to 639. -/
theorem vpart_1_apply (x0 : Vec Ideal S1x1024x256 .f32) (x1 : Vec Ideal S256x1024 .f32) (r : Fin 1024) (j : Fin 64) :
    k0_pay13 (k0_pay6 x0 x1) (ix2 r j)
      = Cert.Spec.inorm (fun j' : Fin 64 => ∑ k : Fin 256, x0 (ix3 0 r k) * x1 (ix2 k ⟨512 + 64 * 1 + j'.val, by omega⟩)) j :=
  (congrFun (vpart_1_eq (k0_pay6 x0 x1)) (ix2 r j)).trans (inorm_cols_values 64 _ x0 x1 r j _ (fun _ => rfl))

/-- Head 2's normalised values at row `r`, column `j`: the instance norm of the row's projection onto columns 640 to 703. -/
theorem vpart_2_apply (x0 : Vec Ideal S1x1024x256 .f32) (x1 : Vec Ideal S256x1024 .f32) (r : Fin 1024) (j : Fin 64) :
    k0_pay16 (k0_pay6 x0 x1) (ix2 r j)
      = Cert.Spec.inorm (fun j' : Fin 64 => ∑ k : Fin 256, x0 (ix3 0 r k) * x1 (ix2 k ⟨512 + 64 * 2 + j'.val, by omega⟩)) j :=
  (congrFun (vpart_2_eq (k0_pay6 x0 x1)) (ix2 r j)).trans (inorm_cols_values 128 _ x0 x1 r j _ (fun _ => rfl))

/-- Head 3's normalised values at row `r`, column `j`: the instance norm of the row's projection onto columns 704 to 767. -/
theorem vpart_3_apply (x0 : Vec Ideal S1x1024x256 .f32) (x1 : Vec Ideal S256x1024 .f32) (r : Fin 1024) (j : Fin 64) :
    k0_pay22 (k0_pay18 (k0_pay6 x0 x1)) (ix2 r j)
      = Cert.Spec.inorm (fun j' : Fin 64 => ∑ k : Fin 256, x0 (ix3 0 r k) * x1 (ix2 k ⟨512 + 64 * 3 + j'.val, by omega⟩)) j :=
  (congrFun (vpart_3_eq (k0_pay6 x0 x1)) (ix2 r j)).trans (inorm_cols_values 192 _ x0 x1 r j _ (fun _ => rfl))

/-- Head 4's normalised values at row `r`, column `j`: the instance norm of the row's projection onto columns 768 to 831. -/
theorem vpart_4_apply (x0 : Vec Ideal S1x1024x256 .f32) (x1 : Vec Ideal S256x1024 .f32) (r : Fin 1024) (j : Fin 64) :
    k0_pay25 (k0_pay23 (k0_pay6 x0 x1)) (ix2 r j)
      = Cert.Spec.inorm (fun j' : Fin 64 => ∑ k : Fin 256, x0 (ix3 0 r k) * x1 (ix2 k ⟨512 + 64 * 4 + j'.val, by omega⟩)) j :=
  (congrFun (vpart_4_eq (k0_pay6 x0 x1)) (ix2 r j)).trans (inorm_cols_values 256 _ x0 x1 r j _ (fun _ => rfl))

/-- Head 5's normalised values at row `r`, column `j`: the instance norm of the row's projection onto columns 832 to 895. -/
theorem vpart_5_apply (x0 : Vec Ideal S1x1024x256 .f32) (x1 : Vec Ideal S256x1024 .f32) (r : Fin 1024) (j : Fin 64) :
    k0_pay30 (k0_pay26 (k0_pay6 x0 x1)) (k0_pay28 (k0_pay6 x0 x1)) (k0_pay29 (k0_pay6 x0 x1)) (ix2 r j)
      = Cert.Spec.inorm (fun j' : Fin 64 => ∑ k : Fin 256, x0 (ix3 0 r k) * x1 (ix2 k ⟨512 + 64 * 5 + j'.val, by omega⟩)) j :=
  (congrFun (vpart_5_eq (k0_pay6 x0 x1)) (ix2 r j)).trans (inorm_cols_values 320 _ x0 x1 r j _ (fun _ => rfl))

/-- Head 6's normalised values at row `r`, column `j`: the instance norm of the row's projection onto columns 896 to 959. -/
theorem vpart_6_apply (x0 : Vec Ideal S1x1024x256 .f32) (x1 : Vec Ideal S256x1024 .f32) (r : Fin 1024) (j : Fin 64) :
    k0_pay32 (k0_pay6 x0 x1) (ix2 r j)
      = Cert.Spec.inorm (fun j' : Fin 64 => ∑ k : Fin 256, x0 (ix3 0 r k) * x1 (ix2 k ⟨512 + 64 * 6 + j'.val, by omega⟩)) j :=
  (congrFun (vpart_6_eq (k0_pay6 x0 x1)) (ix2 r j)).trans (inorm_cols_values 384 _ x0 x1 r j _ (fun _ => rfl))

/-- Head 7's normalised values at row `r`, column `j`: the instance norm of the row's projection onto columns 960 to 1023. -/
theorem vpart_7_apply (x0 : Vec Ideal S1x1024x256 .f32) (x1 : Vec Ideal S256x1024 .f32) (r : Fin 1024) (j : Fin 64) :
    inormRows (cols 448 (k0_pay6 x0 x1) slices_S1024x512_o0_448_S1024x64) (ix2 r j)
      = Cert.Spec.inorm (fun j' : Fin 64 => ∑ k : Fin 256, x0 (ix3 0 r k) * x1 (ix2 k ⟨512 + 64 * 7 + j'.val, by omega⟩)) j :=
  inorm_cols_values 448 slices_S1024x512_o0_448_S1024x64 x0 x1 r j _ (fun _ => rfl)

end Cert.KernelIdeal.Hand

end
-- ==== Proof.KI.Step0Apply.lean ====
/-
  One grid point of the first kernel, read at an entry of the running total: the old total plus, for the entry's head,
  the sum over the point's 1024 rows of the normalised key (column `d`) times the normalised value (column `e`).
-/
import proofs.«109764_j50680614093003_2_alg».proof.Proof.KI.Diag0
import proofs.«109764_j50680614093003_2_alg».proof.Proof.KI.Norm0c

noncomputable section

open scoped BigOperators

namespace Cert.KernelIdeal.Hand

open Idealize.ShloMosaic Idealize.ShloMosaic.ValueIdx Cert.KernelIdeal Cert.KernelIdeal.Gen

/-- The eight normalised key slices of a point: head `h` is the row-wise normalisation of columns `64 h …` of the keys'
    projection. -/
def kparts (x0 : Vec Ideal S1x1024x256 .f32) (x1 : Vec Ideal S256x1024 .f32) : Fin 8 → FVec Ideal S1024x64 .f32 :=
  ![inormRows (cols 0 (k0_pay5 x0 x1) slices_S1024x512_o0_0_S1024x64),
    inormRows (cols 64 (k0_pay5 x0 x1) slices_S1024x512_o0_64_S1024x64),
    inormRows (cols 128 (k0_pay5 x0 x1) slices_S1024x512_o0_128_S1024x64),
    inormRows (cols 192 (k0_pay5 x0 x1) slices_S1024x512_o0_192_S1024x64),
    inormRows (cols 256 (k0_pay5 x0 x1) slices_S1024x512_o0_256_S1024x64),
    inormRows (cols 320 (k0_pay5 x0 x1) slices_S1024x512_o0_320_S1024x64),
    inormRows (cols 384 (k0_pay5 x0 x1) slices_S1024x512_o0_384_S1024x64),
    inormRows (cols 448 (k0_pay5 x0 x1) slices_S1024x512_o0_448_S1024x64)]

/-- The eight normalised value slices of a point, likewise from the values' projection. -/
def vparts (x0 : Vec Ideal S1x1024x256 .f32) (x1 : Vec Ideal S256x1024 .f32) : Fin 8 → FVec Ideal S1024x64 .f32 :=
  ![inormRows (cols 0 (k0_pay6 x0 x1) slices_S1024x512_o0_0_S1024x64),
    inormRows (cols 64 (k0_pay6 x0 x1) slices_S1024x512_o0_64_S1024x64),
    inormRows (cols 128 (k0_pay6 x0 x1) slices_S1024x512_o0_128_S1024x64),
    inormRows (cols 192 (k0_pay6 x0 x1) slices_S1024x512_o0_192_S1024x64),
    inormRows (cols 256 (k0_pay6 x0 x1) slices_S1024x512_o0_256_S1024x64),
    inormRows (cols 320 (k0_pay6 x0 x1) slices_S1024x512_o0_320_S1024x64),
    inormRows (cols 384 (k0_pay6 x0 x1) slices_S1024x512_o0_384_S1024x64),
    inormRows (cols 448 (k0_pay6 x0 x1) slices_S1024x512_o0_448_S1024x64)]

/-- The body's new total is the last part's computation over the sixteen normalised slices. -/
theorem step0_eq (x0 : Vec Ideal S1x1024x256 .f32) (x1 : Vec Ideal S256x1024 .f32) (s : Vec Ideal S8x64x64 .f32) :
    step0 x0 x1 s = k0_pay1 (full (kparts x0 x1) (vparts x0 x1))
      (extractStridedSlice S64x64 ![0, 0] (full (kparts x0 x1) (vparts x0 x1)) slices_S512x512_o0_0_S64x64)
      (extractStridedSlice S64x64 ![64, 64] (full (kparts x0 x1) (vparts x0 x1)) slices_S512x512_o64_64_S64x64)
      (extractStridedSlice S64x64 ![128, 128] (full (kparts x0 x1) (vparts x0 x1)) slices_S512x512_o128_128_S64x64)
      (extractStridedSlice S64x64 ![192, 192] (full (kparts x0 x1) (vparts x0 x1)) slices_S512x512_o192_192_S64x64)
      (extractStridedSlice S64x64 ![256, 256] (full (kparts x0 x1) (vparts x0 x1)) slices_S512x512_o256_256_S64x64)
      (extractStridedSlice S64x64 ![320, 320] (full (kparts x0 x1) (vparts x0 x1)) slices_S512x512_o320_320_S64x64)
      (extractStridedSlice S64x64 ![384, 384] (full (kparts x0 x1) (vparts x0 x1)) slices_S512x512_o384_384_S64x64)
      s := rfl

/-- Head `h`'s normalised keys at row `r`, column `j`: the instance norm of the row's projections onto the weights' columns
    `64 h …`. -/
theorem kparts_apply (x0 : Vec Ideal S1x1024x256 .f32) (x1 : Vec Ideal S256x1024 .f32) (h : Fin 8) (r : Fin 1024) (j : Fin 64) :
    kparts x0 x1 h (ix2 r j)
      = Cert.Spec.inorm (fun j' : Fin 64 => ∑ k : Fin 256, x0 (ix3 0 r k) * x1 (ix2 k ⟨64 * h.val + j'.val, by omega⟩)) j := by
  match h with
  | ⟨0, _⟩ => exact inorm_cols_keys 0 _ x0 x1 r j _ (fun j' => by show 64 * 0 + j'.val = 0 + j'.val; omega)
  | ⟨1, _⟩ => exact inorm_cols_keys 64 _ x0 x1 r j _ (fun j' => by show 64 * 1 + j'.val = 64 + j'.val; omega)
  | ⟨2, _⟩ => exact inorm_cols_keys 128 _ x0 x1 r j _ (fun j' => by show 64 * 2 + j'.val = 128 + j'.val; omega)
  | ⟨3, _⟩ => exact inorm_cols_keys 192 _ x0 x1 r j _ (fun j' => by show 64 * 3 + j'.val = 192 + j'.val; omega)
  | ⟨4, _⟩ => exact inorm_cols_keys 256 _ x0 x1 r j _ (fun j' => by show 64 * 4 + j'.val = 256 + j'.val; omega)
  | ⟨5, _⟩ => exact inorm_cols_keys 320 _ x0 x1 r j _ (fun j' => by show 64 * 5 + j'.val = 320 + j'.val; omega)
  | ⟨6, _⟩ => exact inorm_cols_keys 384 _ x0 x1 r j _ (fun j' => by show 64 * 6 + j'.val = 384 + j'.val; omega)
  | ⟨7, _⟩ => exact inorm_cols_keys 448 _ x0 x1 r j _ (fun j' => by show 64 * 7 + j'.val = 448 + j'.val; omega)

/-- Head `h`'s normalised values at row `r`, column `j`: the instance norm of the row's projections onto the weights' columns
    `512 + 64 h …`. -/
theorem vparts_apply (x0 : Vec Ideal S1x1024x256 .f32) (x1 : Vec Ideal S256x1024 .f32) (h : Fin 8) (r : Fin 1024) (j : Fin 64) :
    vparts x0 x1 h (ix2 r j)
      = Cert.Spec.inorm (fun j' : Fin 64 => ∑ k : Fin 256, x0 (ix3 0 r k) * x1 (ix2 k ⟨512 + 64 * h.val + j'.val, by omega⟩)) j := by
  match h with
  | ⟨0, _⟩ => exact inorm_cols_values 0 _ x0 x1 r j _ (fun j' => by show 512 + 64 * 0 + j'.val = 512 + 0 + j'.val; omega)
  | ⟨1, _⟩ => exact inorm_cols_values 64 _ x0 x1 r j _ (fun j' => by show 512 + 64 * 1 + j'.val = 512 + 64 + j'.val; omega)
  | ⟨2, _⟩ => exact inorm_cols_values 128 _ x0 x1 r j _ (fun j' => by show 512 + 64 * 2 + j'.val = 512 + 128 + j'.val; omega)
  | ⟨3, _⟩ => exact inorm_cols_values 192 _ x0 x1 r j _ (fun j' => by show 512 + 64 * 3 + j'.val = 512 + 192 + j'.val; omega)
  | ⟨4, _⟩ => exact inorm_cols_values 256 _ x0 x1 r j _ (fun j' => by show 512 + 64 * 4 + j'.val = 512 + 256 + j'.val; omega)
  | ⟨5, _⟩ => exact inorm_cols_values 320 _ x0 x1 r j _ (fun j' => by show 512 + 64 * 5 + j'.val = 512 + 320 + j'.val; omega)
  | ⟨6, _⟩ => exact inorm_cols_values 384 _ x0 x1 r j _ (fun j' => by show 512 + 64 * 6 + j'.val = 512 + 384 + j'.val; omega)
  | ⟨7, _⟩ => exact inorm_cols_values 448 _ x0 x1 r j _ (fun j' => by show 512 + 64 * 7 + j'.val = 512 + 448 + j'.val; omega)

/-- ONE POINT'S STEP AT AN ENTRY: the old total plus the sum over the point's 1024 rows of the head's normalised key
    (column `d`) times its normalised value (column `e`). -/
theorem step0_apply (x0 : Vec Ideal S1x1024x256 .f32) (x1 : Vec Ideal S256x1024 .f32) (s : Vec Ideal S8x64x64 .f32)
    (h : Fin 8) (d e : Fin 64) :
    step0 x0 x1 s (ix3 h d e) = s (ix3 h d e) + ∑ r : Fin 1024,
      Cert.Spec.inorm (fun j' : Fin 64 => ∑ k : Fin 256, x0 (ix3 0 r k) * x1 (ix2 k ⟨64 * h.val + j'.val, by omega⟩)) d
        * Cert.Spec.inorm (fun j' : Fin 64 => ∑ k : Fin 256, x0 (ix3 0 r k) * x1 (ix2 k ⟨512 + 64 * h.val + j'.val, by omega⟩)) e := by
  rw [step0_eq, new_total_apply]
  refine congrArg (s (ix3 h d e) + ·) (Finset.sum_congr rfl fun r _ => ?_)
  rw [kparts_apply, vparts_apply]

/-- The total a batch starts from is zero at every entry. -/
theorem zero0_apply (i : S8x64x64.Idx) : zero0 (F := Ideal) i = 0 := by
  unfold zero0 k0_pay3
  rw [shapeCast_self, broadcast_apply]
  exact Ideal.ofBits_zero_f32

end Cert.KernelIdeal.Hand

end
-- ==== Proof.KI.Final0.lean ====
/-
  The first kernel's result array, closed: one point's step and the starting total, read at an entry, are what the
  block-by-block sum over a batch's rows needs.
-/
import proofs.«109764_j50680614093003_2_alg».proof.Proof.KI.Value0
import proofs.«109764_j50680614093003_2_alg».proof.Proof.KI.Step0Apply

noncomputable section

namespace Cert.KernelIdeal.Hand

open Idealize.ShloMosaic Idealize.ShloMosaic.TcCoe Idealize.SL.Sem
open Idealize.ShloMosaic.ValueIdx
open Cert.KernelIdeal Cert.KernelIdeal.Gen

/-- The result array after the first kernel is `dots0` of the arrays the kernel finds. -/
theorem final0 (V : (c : Dev nD) → (b : Ref sig .tc) → Buf (Elt Ideal) ((c : Thread nD τ).loc b)) (c : Dev nD) :
    (dat0 (F := Ideal) V c).arrAt 2 cfg0.N = fun i => dots0 (V c main_arg0) (V c main_v6) (i 0) (i 1) (i 2) (i 3) :=
  final0_of V step0_apply (fun h d e => zero0_apply (ix3 h d e)) c

end Cert.KernelIdeal.Hand

end
-- ==== Proof.KI.ScatterSet.lean ====
/-
  A scatter whose body returns the update ("set"), read at one element.

  The scatter is a left fold over the update's indices: each in-range update index names one element of the
  operand and overwrites it. Read at a fixed element the fold is simple: an element no update index names keeps
  the operand's value, and an element named by update indices that all carry the same value ends at that value.
  For the block update used here (an 8 x 64 x 64 update written at rows and columns `o .. o + 63` of an
  8 x 512 x 512 operand) the update index `(b, p, q)` names the element `(b, o + p, o + q)`, so the result is the
  update inside the block and the operand outside.
-/
import proofs.«109764_j50680614093003_2_alg».proof.Proof.Gen.KernelIdeal.Skeleton
import Idealize.ShloMosaic.Lib.ValueIdx

noncomputable section

namespace Cert.KernelIdeal.Hand

open Idealize.ShloMosaic Cert.KernelIdeal Cert.KernelIdeal.Gen
open Idealize.ShloMosaic.ValueIdx

/-! ## A fold of point updates at one index -/

section Fold
variable {κ ι α : Type} (step : (ι → α) → κ → (ι → α)) (P : κ → Prop) (v : κ → α) (i' : ι)

/-- If no step of the list touches index `i'`, the fold leaves the start value there. -/
theorem foldl_at_of_miss (hmiss : ∀ r n, ¬ P n → step r n i' = r i') :
    ∀ (l : List κ) (x : ι → α), (∀ n ∈ l, ¬ P n) → l.foldl step x i' = x i'
  | [], _, _ => rfl
  | n :: l, x, h => by
    rw [List.foldl_cons, foldl_at_of_miss hmiss l _ (fun m hm => h m (List.mem_cons_of_mem _ hm)),
      hmiss _ _ (h n List.mem_cons_self)]

/-- If every step of the list that touches `i'` writes `c` there, and the start value there is `c`, so is the end value. -/
theorem foldl_at_of_const (c : α) (hmiss : ∀ r n, ¬ P n → step r n i' = r i') (hhit : ∀ r n, P n → step r n i' = v n) :
    ∀ (l : List κ) (x : ι → α), (∀ n ∈ l, P n → v n = c) → x i' = c → l.foldl step x i' = c
  | [], _, _, hx => hx
  | n :: l, x, h, hx => by
    rw [List.foldl_cons]
    refine foldl_at_of_const c hmiss hhit l _ (fun m hm => h m (List.mem_cons_of_mem _ hm)) ?_
    by_cases hp : P n
    · rw [hhit _ _ hp]; exact h n List.mem_cons_self hp
    · rw [hmiss _ _ hp]; exact hx

/-- If some step of the list touches `i'`, and every step that does writes the same value, the fold ends at that value. -/
theorem foldl_at_of_hit (hmiss : ∀ r n, ¬ P n → step r n i' = r i') (hhit : ∀ r n, P n → step r n i' = v n)
    (n₀ : κ) (hP : P n₀) :
    ∀ (l : List κ) (x : ι → α), n₀ ∈ l → (∀ n ∈ l, P n → v n = v n₀) → l.foldl step x i' = v n₀
  | [], _, hmem, _ => absurd hmem List.not_mem_nil
  | n :: l, x, hmem, h => by
    rw [List.foldl_cons]
    by_cases hl : n₀ ∈ l
    · exact foldl_at_of_hit hmiss hhit n₀ hP l _ hl (fun m hm => h m (List.mem_cons_of_mem _ hm))
    · have hn : n₀ = n := (List.mem_cons.1 hmem).resolve_right hl
      subst hn
      exact foldl_at_of_const step P v i' (v n₀) hmiss hhit l _ (fun m hm => h m (List.mem_cons_of_mem _ hm)) (hhit _ _ hP)

end Fold

/-! ## The scatter at one element -/

section Scatter
variable {s si u : Shape} {w : Nat} {α : Type} (d : ScatterDims s si u) (x : s.Idx → α) (idx : IVec si w) (upd : u.Idx → α)

theorem scatter_step_miss (i' : s.Idx) (r : s.Idx → α) (n : Fin u.numel) (h : ¬ d.resultIdx? (u.rowMajor.symm n) idx = some i') :
    (match d.resultIdx? (u.rowMajor.symm n) idx with
      | some i => fun k => if k = i then (fun (_ b : α) => b) (r i) (upd (u.rowMajor.symm n)) else r k
      | none => r) i' = r i' := by
  revert h
  generalize d.resultIdx? (u.rowMajor.symm n) idx = o
  intro h
  cases o with
  | none => rfl
  | some i => exact if_neg fun e => h (by rw [e])

theorem scatter_step_hit (i' : s.Idx) (r : s.Idx → α) (n : Fin u.numel) (h : d.resultIdx? (u.rowMajor.symm n) idx = some i') :
    (match d.resultIdx? (u.rowMajor.symm n) idx with
      | some i => fun k => if k = i then (fun (_ b : α) => b) (r i) (upd (u.rowMajor.symm n)) else r k
      | none => r) i' = upd (u.rowMajor.symm n) := by
  revert h
  generalize d.resultIdx? (u.rowMajor.symm n) idx = o
  intro h
  cases o with
  | none => exact absurd h (by simp)
  | some i => exact if_pos (Option.some.inj h).symm

/-- An element no update index names keeps the operand's value. -/
theorem scatter_set_of_miss (i' : s.Idx) (h : ∀ j, d.resultIdx? j idx ≠ some i') :
    Host.scatter d (fun _ b => b) x idx upd i' = x i' :=
  foldl_at_of_miss _ (fun n => d.resultIdx? (u.rowMajor.symm n) idx = some i') i'
    (fun r n hn => scatter_step_miss d idx upd i' r n hn) _ _ (fun n _ => h _)

/-- An element named by update index `j₀`, and by no update index carrying another value, ends at `upd j₀`. -/
theorem scatter_set_of_hit (i' : s.Idx) (j₀ : u.Idx) (h₀ : d.resultIdx? j₀ idx = some i')
    (h : ∀ j, d.resultIdx? j idx = some i' → upd j = upd j₀) :
    Host.scatter d (fun _ b => b) x idx upd i' = upd j₀ := by
  have e := foldl_at_of_hit (fun r n => match d.resultIdx? (u.rowMajor.symm n) idx with
      | some i => fun k => if k = i then (fun (_ b : α) => b) (r i) (upd (u.rowMajor.symm n)) else r k
      | none => r) (fun n => d.resultIdx? (u.rowMajor.symm n) idx = some i') (fun n => upd (u.rowMajor.symm n)) i'
    (fun r n hn => scatter_step_miss d idx upd i' r n hn) (fun r n hn => scatter_step_hit d idx upd i' r n hn)
    (u.rowMajor j₀) (by rw [Equiv.symm_apply_apply]; exact h₀) (List.finRange u.numel) x (List.mem_finRange _)
    (fun n _ hn => by rw [Equiv.symm_apply_apply]; exact h _ hn)
  rw [Equiv.symm_apply_apply] at e
  exact e

end Scatter

/-! ## The block update's result index -/

section Block

theorem bd_window0 (j : S8x64x64.Idx) : scatter_S8x512x512_S2_S8x64x64_012_n_12_0.window j 0 = (j 0).val := by
  unfold ScatterDims.window; rw [dif_pos (by decide)]; rfl
theorem bd_window1 (j : S8x64x64.Idx) : scatter_S8x512x512_S2_S8x64x64_012_n_12_0.window j 1 = (j 1).val := by
  unfold ScatterDims.window; rw [dif_pos (by decide)]; rfl
theorem bd_window2 (j : S8x64x64.Idx) : scatter_S8x512x512_S2_S8x64x64_012_n_12_0.window j 2 = (j 2).val := by
  unfold ScatterDims.window; rw [dif_pos (by decide)]; rfl

theorem bd_start0 (j : S8x64x64.Idx) (idx : IVec S2 32) : scatter_S8x512x512_S2_S8x64x64_012_n_12_0.start j idx 0 = 0 := by
  unfold ScatterDims.start
  rw [dif_neg (by decide)]

theorem bd_start1 (j : S8x64x64.Idx) (idx : IVec S2 32) : scatter_S8x512x512_S2_S8x64x64_012_n_12_0.start j idx 1 = (idx (ix1 0)).toInt := by
  unfold ScatterDims.start
  rw [dif_pos (by decide)]
  refine congrArg (fun k => (idx k).toInt) (funext fun b => ?_)
  match b with
  | ⟨0, _⟩ => exact dif_pos rfl

theorem bd_start2 (j : S8x64x64.Idx) (idx : IVec S2 32) : scatter_S8x512x512_S2_S8x64x64_012_n_12_0.start j idx 2 = (idx (ix1 1)).toInt := by
  unfold ScatterDims.start
  rw [dif_pos (by decide)]
  refine congrArg (fun k => (idx k).toInt) (funext fun b => ?_)
  match b with
  | ⟨0, _⟩ => exact dif_pos rfl

/-- With both start words reading `o` (a block that fits: `o + 64 ≤ 512`), update index `(b, p, q)` names element
    `(b, o + p, o + q)` of the operand. -/
theorem bd_resultIdx (idx : IVec S2 32) (o : Nat) (ho : o + 64 ≤ 512) (h0 : (idx (ix1 0)).toInt = (o : Int))
    (h1 : (idx (ix1 1)).toInt = (o : Int)) (b : Fin 8) (p q : Fin 64) :
    scatter_S8x512x512_S2_S8x64x64_012_n_12_0.resultIdx? (ix3 b p q) idx
      = some (ix3 b (⟨o + p.val, by omega⟩ : Fin 512) (⟨o + q.val, by omega⟩ : Fin 512)) := by
  have e0 : scatter_S8x512x512_S2_S8x64x64_012_n_12_0.start (ix3 b p q) idx 0 + scatter_S8x512x512_S2_S8x64x64_012_n_12_0.window (ix3 b p q) 0 = ((b.val : Nat) : Int) := by
    rw [bd_start0, bd_window0]; exact Int.zero_add _
  have e1 : scatter_S8x512x512_S2_S8x64x64_012_n_12_0.start (ix3 b p q) idx 1 + scatter_S8x512x512_S2_S8x64x64_012_n_12_0.window (ix3 b p q) 1 = ((o + p.val : Nat) : Int) := by
    rw [bd_start1, bd_window1, h0]; exact (Int.natCast_add _ _).symm
  have e2 : scatter_S8x512x512_S2_S8x64x64_012_n_12_0.start (ix3 b p q) idx 2 + scatter_S8x512x512_S2_S8x64x64_012_n_12_0.window (ix3 b p q) 2 = ((o + q.val : Nat) : Int) := by
    rw [bd_start2, bd_window2, h1]; exact (Int.natCast_add _ _).symm
  have H : ∀ a, 0 ≤ scatter_S8x512x512_S2_S8x64x64_012_n_12_0.start (ix3 b p q) idx a + scatter_S8x512x512_S2_S8x64x64_012_n_12_0.window (ix3 b p q) a
      ∧ scatter_S8x512x512_S2_S8x64x64_012_n_12_0.start (ix3 b p q) idx a + scatter_S8x512x512_S2_S8x64x64_012_n_12_0.window (ix3 b p q) a < S8x512x512.size a := fun a => by
    match a with
    | ⟨0, _⟩ =>
      show 0 ≤ scatter_S8x512x512_S2_S8x64x64_012_n_12_0.start (ix3 b p q) idx 0 + scatter_S8x512x512_S2_S8x64x64_012_n_12_0.window (ix3 b p q) 0 ∧ scatter_S8x512x512_S2_S8x64x64_012_n_12_0.start (ix3 b p q) idx 0 + scatter_S8x512x512_S2_S8x64x64_012_n_12_0.window (ix3 b p q) 0 < ((8 : Nat) : Int)
      rw [e0]; omega
    | ⟨1, _⟩ =>
      show 0 ≤ scatter_S8x512x512_S2_S8x64x64_012_n_12_0.start (ix3 b p q) idx 1 + scatter_S8x512x512_S2_S8x64x64_012_n_12_0.window (ix3 b p q) 1 ∧ scatter_S8x512x512_S2_S8x64x64_012_n_12_0.start (ix3 b p q) idx 1 + scatter_S8x512x512_S2_S8x64x64_012_n_12_0.window (ix3 b p q) 1 < ((512 : Nat) : Int)
      rw [e1]; omega
    | ⟨2, _⟩ =>
      show 0 ≤ scatter_S8x512x512_S2_S8x64x64_012_n_12_0.start (ix3 b p q) idx 2 + scatter_S8x512x512_S2_S8x64x64_012_n_12_0.window (ix3 b p q) 2 ∧ scatter_S8x512x512_S2_S8x64x64_012_n_12_0.start (ix3 b p q) idx 2 + scatter_S8x512x512_S2_S8x64x64_012_n_12_0.window (ix3 b p q) 2 < ((512 : Nat) : Int)
      rw [e2]; omega
  unfold ScatterDims.resultIdx?
  rw [dif_pos H]
  refine congrArg some (funext fun a => Fin.ext ?_)
  match a with
  | ⟨0, _⟩ =>
    show (scatter_S8x512x512_S2_S8x64x64_012_n_12_0.start (ix3 b p q) idx 0 + scatter_S8x512x512_S2_S8x64x64_012_n_12_0.window (ix3 b p q) 0).toNat = b.val
    rw [e0]; rfl
  | ⟨1, _⟩ =>
    show (scatter_S8x512x512_S2_S8x64x64_012_n_12_0.start (ix3 b p q) idx 1 + scatter_S8x512x512_S2_S8x64x64_012_n_12_0.window (ix3 b p q) 1).toNat = o + p.val
    rw [e1]; rfl
  | ⟨2, _⟩ =>
    show (scatter_S8x512x512_S2_S8x64x64_012_n_12_0.start (ix3 b p q) idx 2 + scatter_S8x512x512_S2_S8x64x64_012_n_12_0.window (ix3 b p q) 2).toNat = o + q.val
    rw [e2]; rfl

/-- The block update read at an element: inside rows and columns `o .. o + 63` the update, outside the operand. -/
theorem scatter_bd_apply {α : Type} (x : S8x512x512.Idx → α) (idx : IVec S2 32) (upd : S8x64x64.Idx → α) (o : Nat) (ho : o + 64 ≤ 512)
    (h0 : (idx (ix1 0)).toInt = (o : Int)) (h1 : (idx (ix1 1)).toInt = (o : Int)) (b : Fin 8) (r c : Fin 512) :
    Host.scatter scatter_S8x512x512_S2_S8x64x64_012_n_12_0 (fun _ b => b) x idx upd (ix3 b r c)
      = if h : (o ≤ r.val ∧ r.val < o + 64) ∧ (o ≤ c.val ∧ c.val < o + 64) then
          upd (ix3 b (⟨r.val - o, by omega⟩ : Fin 64) (⟨c.val - o, by omega⟩ : Fin 64))
        else x (ix3 b r c) := by
  by_cases h : (o ≤ r.val ∧ r.val < o + 64) ∧ (o ≤ c.val ∧ c.val < o + 64)
  · rw [dif_pos h]
    refine scatter_set_of_hit scatter_S8x512x512_S2_S8x64x64_012_n_12_0 x idx upd _ _ ?_ ?_
    · rw [bd_resultIdx idx o ho h0 h1]
      refine congrArg some (congrArg₂ (ix3 b) (Fin.ext ?_) (Fin.ext ?_))
      · show o + (r.val - o) = r.val; omega
      · show o + (c.val - o) = c.val; omega
    · intro j hj
      obtain ⟨b', p, q, rfl⟩ : ∃ (b' : Fin 8) (p q : Fin 64), j = ix3 b' p q := ⟨j 0, j 1, j 2, eq_ix3 j⟩
      rw [bd_resultIdx idx o ho h0 h1] at hj
      have hj' := Option.some.inj hj
      have hb : b' = b := congrFun hj' 0
      have hp : o + p.val = r.val := congrArg Fin.val (congrFun hj' 1)
      have hq : o + q.val = c.val := congrArg Fin.val (congrFun hj' 2)
      subst hb
      refine congrArg upd (congrArg₂ (ix3 b') (Fin.ext ?_) (Fin.ext ?_))
      · show p.val = r.val - o; omega
      · show q.val = c.val - o; omega
  · rw [dif_neg h]
    refine scatter_set_of_miss scatter_S8x512x512_S2_S8x64x64_012_n_12_0 x idx upd _ fun j hj => h ?_
    obtain ⟨b', p, q, rfl⟩ : ∃ (b' : Fin 8) (p q : Fin 64), j = ix3 b' p q := ⟨j 0, j 1, j 2, eq_ix3 j⟩
    rw [bd_resultIdx idx o ho h0 h1] at hj
    have hj' := Option.some.inj hj
    have hp : o + p.val = r.val := congrArg Fin.val (congrFun hj' 1)
    have hq : o + q.val = c.val := congrArg Fin.val (congrFun hj' 2)
    have := p.isLt; have := q.isLt
    omega

end Block

end Cert.KernelIdeal.Hand
-- ==== Proof.KI.Host1Step.lean ====
/-
  One step of the block-diagonal assembly, read at an element.

  The second host stretch builds an 8 x 512 x 512 array from the first kernel's 8 x 8 x 64 x 64 result: starting
  from zeros, for each head h it takes the slice [:, h], drops the unit axis, scales it by a constant and writes the
  resulting 8 x 64 x 64 block at rows and columns 64 h .. 64 h + 63. Here: the start vector [64 h, 64 h] read at its
  two positions, the scaled slice read at an index, and the step as a whole: at (b, r, c) the new array is the
  scaled head element when both r and c lie in the block, and the old array elsewhere.
-/
import proofs.«109764_j50680614093003_2_alg».proof.Proof.KI.ScatterSet
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.SL.Sem
open Idealize.ShloMosaic.ValueIdx
open Cert.KernelIdeal Cert.KernelIdeal.Gen

/-! ## The pieces of one step, read at an index -/

/-- The two-word start vector `[w, w]` reads `w` at both positions. -/
theorem startVec_apply0 (w : BitVec 32) :
    concatenate S2 0 [⟨S1, broadcastInDim S1 ![] bcast_S_S1 (constantI S_ 32 w)⟩, ⟨S1, broadcastInDim S1 ![] bcast_S_S1 (constantI S_ 32 w)⟩]
      concatenates_S1_S1_S2_d0 (ix1 (0 : Fin 2)) = w :=
  concatenate_pair_apply_left (0 : Fin S2.rank) _ _ concatenates_S1_S1_S2_d0 (ix1 (0 : Fin 2)) rfl (ix1 (0 : Fin 1))
    (fun a => match a with | ⟨0, _⟩ => rfl)

theorem startVec_apply1 (w : BitVec 32) :
    concatenate S2 0 [⟨S1, broadcastInDim S1 ![] bcast_S_S1 (constantI S_ 32 w)⟩, ⟨S1, broadcastInDim S1 ![] bcast_S_S1 (constantI S_ 32 w)⟩]
      concatenates_S1_S1_S2_d0 (ix1 (1 : Fin 2)) = w :=
  concatenate_pair_apply_right (0 : Fin S2.rank) _ _ concatenates_S1_S1_S2_d0 (ix1 (1 : Fin 2)) rfl rfl (ix1 (0 : Fin 1))
    (fun a ha => match a, ha with | ⟨0, _⟩, ha => absurd rfl ha) rfl

/-- Head `h` of the first kernel's result, scaled: the slice `[:, h]` with its unit axis dropped, times the
    broadcast constant. -/
theorem scaledHead_apply (A : S8x8x64x64.Idx → EReal) (off : Fin 4 → Nat) (hs : S8x8x64x64.Slices off S8x1x64x64) (h : Fin 8)
    (hoff : off = ![0, h.val, 0, 0]) (b : Fin 8) (p q : Fin 64) :
    (mulf (F := Ideal) (φ := .f32) (fun i => shapeCast S8x64x64 (extractStridedSlice S8x1x64x64 off A hs) shapeCasts_S8x1x64x64_S8x64x64 i)
        (broadcastInDim S8x64x64 ![] bcast_S_S8x64x64 (constant S_ .f32 0x39000000#32)) : S8x64x64.Idx → EReal) (ix3 b p q)
      = A (ix4 b h p q) * Ideal.ofBits .f32 0x39000000#32 := by
  rw [mulf_apply]
  congr 1
  refine (shapeCast_apply _ shapeCasts_S8x1x64x64_S8x64x64 (ix3 b p q) (ix4 b (0 : Fin 1) p q) ?_).trans ?_
  · rw [Shape.rowMajor_val_four, Shape.rowMajor_val_three]
    show ((b.val * 1 + 0) * 64 + p.val) * 64 + q.val = (b.val * 64 + p.val) * 64 + q.val
    omega
  · refine extractStridedSlice_apply off A hs _ (ix4 b h p q) fun a => ?_
    subst hoff
    match a with
    | ⟨0, _⟩ => exact (Nat.zero_add _).symm
    | ⟨1, _⟩ => rfl
    | ⟨2, _⟩ => exact (Nat.zero_add _).symm
    | ⟨3, _⟩ => exact (Nat.zero_add _).symm

/-- One step: the running array with head `h`'s scaled block written on the diagonal at rows and columns `64 h .. 64 h + 63`. -/
theorem step_apply (X : S8x512x512.Idx → EReal) (A : S8x8x64x64.Idx → EReal) (w : BitVec 32) (off : Fin 4 → Nat)
    (hs : S8x8x64x64.Slices off S8x1x64x64) (h : Fin 8) (hw : w.toInt = ((64 * h.val : Nat) : Int)) (hoff : off = ![0, h.val, 0, 0])
    (b : Fin 8) (r c : Fin 512) :
    Host.scatter scatter_S8x512x512_S2_S8x64x64_012_n_12_0 (fun _ b => b) X
        (concatenate S2 0 [⟨S1, broadcastInDim S1 ![] bcast_S_S1 (constantI S_ 32 w)⟩, ⟨S1, broadcastInDim S1 ![] bcast_S_S1 (constantI S_ 32 w)⟩]
          concatenates_S1_S1_S2_d0)
        (mulf (F := Ideal) (φ := .f32) (fun i => shapeCast S8x64x64 (extractStridedSlice S8x1x64x64 off A hs) shapeCasts_S8x1x64x64_S8x64x64 i)
          (broadcastInDim S8x64x64 ![] bcast_S_S8x64x64 (constant S_ .f32 0x39000000#32)))
        (ix3 b r c)
      = if r.val / 64 = h.val ∧ c.val / 64 = h.val then
          A (ix4 b h (⟨r.val % 64, Nat.mod_lt _ (by decide)⟩ : Fin 64) (⟨c.val % 64, Nat.mod_lt _ (by decide)⟩ : Fin 64)) * Ideal.ofBits .f32 0x39000000#32
        else X (ix3 b r c) := by
  have hh := h.isLt
  refine (scatter_bd_apply X _ _ (64 * h.val) (by omega) ((startVec_apply0 w).symm ▸ hw) ((startVec_apply1 w).symm ▸ hw) b r c).trans ?_
  by_cases hc : r.val / 64 = h.val ∧ c.val / 64 = h.val
  · rw [if_pos hc, dif_pos (by omega)]
    refine (scaledHead_apply A off hs h hoff b _ _).trans ?_
    congr 2
    refine congrArg₂ (ix4 b h) (Fin.ext ?_) (Fin.ext ?_)
    · show r.val - 64 * h.val = r.val % 64; omega
    · show c.val - 64 * h.val = c.val % 64; omega
  · rw [if_neg hc, dif_neg (by omega)]

end Cert.KernelIdeal.Hand
-- ==== Proof.KI.Host1Seg.lean ====
/-
  The second host stretch, step by step.

  The stretch's 91 operations are: two that make the array of zeros, eight groups of eleven (one per head: slice,
  reshape, scale, start vector, block update), and the final narrowing. Each group is read here on its own, from an
  arbitrary state of the buffers: it leaves the first kernel's result alone, and at an element (b, r, c) its result
  is the head's scaled element when r and c both lie in the head's block and the previous array's element otherwise.
-/
import proofs.«109764_j50680614093003_2_alg».proof.Proof.KI.Host1Step
import proofs.«109764_j50680614093003_2_alg».proof.Proof.Gen.KernelIdeal.Launch
import Idealize.ShloMosaic.Lib.StableHlo.Run

noncomputable section

namespace Cert.KernelIdeal.Hand

open Idealize.ShloMosaic Idealize.ShloMosaic.TcCoe Idealize.SL.Sem
open Idealize.ShloMosaic.ValueIdx
open Cert.KernelIdeal Cert.KernelIdeal.Gen

/-- Step 0 leaves the first kernel's result alone. -/
theorem seg0_keep (V : Valuation τ sig (Elt Ideal)) :
    StableHlo.after (((hostOps1 (F := Ideal)).drop 2).take 11) V (Proc.devRef .tc main_v8) = V (Proc.devRef .tc main_v8) := by
  dsimp only [hostOps1, List.drop, List.take]
  after_results

/-- Step 0 at an element: head 0's scaled block inside rows and columns 0 .. 63, the previous array elsewhere. -/
theorem seg0_apply (V : Valuation τ sig (Elt Ideal)) (A : S8x8x64x64.Idx → EReal) (X : S8x512x512.Idx → EReal)
    (hA : V (Proc.devRef .tc main_v8) = A) (hX : V (Proc.devRef .tc main_v9) = X) (b : Fin 8) (r c : Fin 512) :
    @Eq EReal ((StableHlo.after (((hostOps1 (F := Ideal)).drop 2).take 11) V (Proc.devRef .tc main_v17) : S8x512x512.Idx → EReal) (ix3 b r c))
      (if r.val / 64 = 0 ∧ c.val / 64 = 0 then
          A (ix4 b (0 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 2).take 11) V (Proc.devRef .tc main_v17) : S8x512x512.Idx → EReal)
      = Host.scatter scatter_S8x512x512_S2_S8x64x64_012_n_12_0 (fun _ b => b) (V (Proc.devRef .tc main_v9))
          (concatenate S2 0 [⟨S1, broadcastInDim S1 ![] bcast_S_S1 (constantI S_ 32 0#32)⟩, ⟨S1, broadcastInDim S1 ![] bcast_S_S1 (constantI S_ 32 0#32)⟩]
            concatenates_S1_S1_S2_d0)
          (mulf (F := Ideal) (φ := .f32) (fun i => shapeCast S8x64x64 (extractStridedSlice S8x1x64x64 ![0, 0, 0, 0] (V (Proc.devRef .tc main_v8)) slices_S8x8x64x64_S8x1x64x64_0_0_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v9)) (V (Proc.devRef .tc main_v8)) 0#32 ![0, 0, 0, 0] slices_S8x8x64x64_S8x1x64x64_0_0_0_0 (0 : Fin 8) (by decide) rfl b r c)

/-- Step 1 leaves the first kernel's result alone. -/
theorem seg1_keep (V : Valuation τ sig (Elt Ideal)) :
    StableHlo.after (((hostOps1 (F := Ideal)).drop 13).take 11) V (Proc.devRef .tc main_v8) = V (Proc.devRef .tc main_v8) := by
  dsimp only [hostOps1, List.drop, List.take]
  after_results

/-- Step 1 at an element: head 1's scaled block inside rows and columns 64 .. 127, the previous array elsewhere. -/
theorem seg1_apply (V : Valuation τ sig (Elt Ideal)) (A : S8x8x64x64.Idx → EReal) (X : S8x512x512.Idx → EReal)
    (hA : V (Proc.devRef .tc main_v8) = A) (hX : V (Proc.devRef .tc main_v17) = X) (b : Fin 8) (r c : Fin 512) :
    @Eq EReal ((StableHlo.after (((hostOps1 (F := Ideal)).drop 13).take 11) V (Proc.devRef .tc main_v25) : S8x512x512.Idx → EReal) (ix3 b r c))
      (if r.val / 64 = 1 ∧ c.val / 64 = 1 then
          A (ix4 b (1 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 13).take 11) V (Proc.devRef .tc main_v25) : S8x512x512.Idx → EReal)
      = Host.scatter scatter_S8x512x512_S2_S8x64x64_012_n_12_0 (fun _ b => b) (V (Proc.devRef .tc main_v17))
          (concatenate S2 0 [⟨S1, broadcastInDim S1 ![] bcast_S_S1 (constantI S_ 32 64#32)⟩, ⟨S1, broadcastInDim S1 ![] bcast_S_S1 (constantI S_ 32 64#32)⟩]
            concatenates_S1_S1_S2_d0)
          (mulf (F := Ideal) (φ := .f32) (fun i => shapeCast S8x64x64 (extractStridedSlice S8x1x64x64 ![0, 1, 0, 0] (V (Proc.devRef .tc main_v8)) slices_S8x8x64x64_S8x1x64x64_0_1_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v17)) (V (Proc.devRef .tc main_v8)) 64#32 ![0, 1, 0, 0] slices_S8x8x64x64_S8x1x64x64_0_1_0_0 (1 : Fin 8) (by decide) rfl b r c)

/-- Step 2 leaves the first kernel's result alone. -/
theorem seg2_keep (V : Valuation τ sig (Elt Ideal)) :
    StableHlo.after (((hostOps1 (F := Ideal)).drop 24).take 11) V (Proc.devRef .tc main_v8) = V (Proc.devRef .tc main_v8) := by
  dsimp only [hostOps1, List.drop, List.take]
  after_results

/-- Step 2 at an element: head 2's scaled block inside rows and columns 128 .. 191, the previous array elsewhere. -/
theorem seg2_apply (V : Valuation τ sig (Elt Ideal)) (A : S8x8x64x64.Idx → EReal) (X : S8x512x512.Idx → EReal)
    (hA : V (Proc.devRef .tc main_v8) = A) (hX : V (Proc.devRef .tc main_v25) = X) (b : Fin 8) (r c : Fin 512) :
    @Eq EReal ((StableHlo.after (((hostOps1 (F := Ideal)).drop 24).take 11) V (Proc.devRef .tc main_v33) : S8x512x512.Idx → EReal) (ix3 b r c))
      (if r.val / 64 = 2 ∧ c.val / 64 = 2 then
          A (ix4 b (2 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 24).take 11) V (Proc.devRef .tc main_v33) : S8x512x512.Idx → EReal)
      = Host.scatter scatter_S8x512x512_S2_S8x64x64_012_n_12_0 (fun _ b => b) (V (Proc.devRef .tc main_v25))
          (concatenate S2 0 [⟨S1, broadcastInDim S1 ![] bcast_S_S1 (constantI S_ 32 128#32)⟩, ⟨S1, broadcastInDim S1 ![] bcast_S_S1 (constantI S_ 32 128#32)⟩]
            concatenates_S1_S1_S2_d0)
          (mulf (F := Ideal) (φ := .f32) (fun i => shapeCast S8x64x64 (extractStridedSlice S8x1x64x64 ![0, 2, 0, 0] (V (Proc.devRef .tc main_v8)) slices_S8x8x64x64_S8x1x64x64_0_2_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v25)) (V (Proc.devRef .tc main_v8)) 128#32 ![0, 2, 0, 0] slices_S8x8x64x64_S8x1x64x64_0_2_0_0 (2 : Fin 8) (by decide) rfl b r c)

/-- Step 3 leaves the first kernel's result alone. -/
theorem seg3_keep (V : Valuation τ sig (Elt Ideal)) :
    StableHlo.after (((hostOps1 (F := Ideal)).drop 35).take 11) V (Proc.devRef .tc main_v8) = V (Proc.devRef .tc main_v8) := by
  dsimp only [hostOps1, List.drop, List.take]
  after_results

/-- Step 3 at an element: head 3's scaled block inside rows and columns 192 .. 255, the previous array elsewhere. -/
theorem seg3_apply (V : Valuation τ sig (Elt Ideal)) (A : S8x8x64x64.Idx → EReal) (X : S8x512x512.Idx → EReal)
    (hA : V (Proc.devRef .tc main_v8) = A) (hX : V (Proc.devRef .tc main_v33) = X) (b : Fin 8) (r c : Fin 512) :
    @Eq EReal ((StableHlo.after (((hostOps1 (F := Ideal)).drop 35).take 11) V (Proc.devRef .tc main_v41) : S8x512x512.Idx → EReal) (ix3 b r c))
      (if r.val / 64 = 3 ∧ c.val / 64 = 3 then
          A (ix4 b (3 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 35).take 11) V (Proc.devRef .tc main_v41) : S8x512x512.Idx → EReal)
      = Host.scatter scatter_S8x512x512_S2_S8x64x64_012_n_12_0 (fun _ b => b) (V (Proc.devRef .tc main_v33))
          (concatenate S2 0 [⟨S1, broadcastInDim S1 ![] bcast_S_S1 (constantI S_ 32 192#32)⟩, ⟨S1, broadcastInDim S1 ![] bcast_S_S1 (constantI S_ 32 192#32)⟩]
            concatenates_S1_S1_S2_d0)
          (mulf (F := Ideal) (φ := .f32) (fun i => shapeCast S8x64x64 (extractStridedSlice S8x1x64x64 ![0, 3, 0, 0] (V (Proc.devRef .tc main_v8)) slices_S8x8x64x64_S8x1x64x64_0_3_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v33)) (V (Proc.devRef .tc main_v8)) 192#32 ![0, 3, 0, 0] slices_S8x8x64x64_S8x1x64x64_0_3_0_0 (3 : Fin 8) (by decide) rfl b r c)

/-- Step 4 leaves the first kernel's result alone. -/
theorem seg4_keep (V : Valuation τ sig (Elt Ideal)) :
    StableHlo.after (((hostOps1 (F := Ideal)).drop 46).take 11) V (Proc.devRef .tc main_v8) = V (Proc.devRef .tc main_v8) := by
  dsimp only [hostOps1, List.drop, List.take]
  after_results

/-- Step 4 at an element: head 4's scaled block inside rows and columns 256 .. 319, the previous array elsewhere. -/
theorem seg4_apply (V : Valuation τ sig (Elt Ideal)) (A : S8x8x64x64.Idx → EReal) (X : S8x512x512.Idx → EReal)
    (hA : V (Proc.devRef .tc main_v8) = A) (hX : V (Proc.devRef .tc main_v41) = X) (b : Fin 8) (r c : Fin 512) :
    @Eq EReal ((StableHlo.after (((hostOps1 (F := Ideal)).drop 46).take 11) V (Proc.devRef .tc main_v49) : S8x512x512.Idx → EReal) (ix3 b r c))
      (if r.val / 64 = 4 ∧ c.val / 64 = 4 then
          A (ix4 b (4 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 46).take 11) V (Proc.devRef .tc main_v49) : S8x512x512.Idx → EReal)
      = Host.scatter scatter_S8x512x512_S2_S8x64x64_012_n_12_0 (fun _ b => b) (V (Proc.devRef .tc main_v41))
          (concatenate S2 0 [⟨S1, broadcastInDim S1 ![] bcast_S_S1 (constantI S_ 32 256#32)⟩, ⟨S1, broadcastInDim S1 ![] bcast_S_S1 (constantI S_ 32 256#32)⟩]
            concatenates_S1_S1_S2_d0)
          (mulf (F := Ideal) (φ := .f32) (fun i => shapeCast S8x64x64 (extractStridedSlice S8x1x64x64 ![0, 4, 0, 0] (V (Proc.devRef .tc main_v8)) slices_S8x8x64x64_S8x1x64x64_0_4_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v41)) (V (Proc.devRef .tc main_v8)) 256#32 ![0, 4, 0, 0] slices_S8x8x64x64_S8x1x64x64_0_4_0_0 (4 : Fin 8) (by decide) rfl b r c)

/-- Step 5 leaves the first kernel's result alone. -/
theorem seg5_keep (V : Valuation τ sig (Elt Ideal)) :
    StableHlo.after (((hostOps1 (F := Ideal)).drop 57).take 11) V (Proc.devRef .tc main_v8) = V (Proc.devRef .tc main_v8) := by
  dsimp only [hostOps1, List.drop, List.take]
  after_results

/-- Step 5 at an element: head 5's scaled block inside rows and columns 320 .. 383, the previous array elsewhere. -/
theorem seg5_apply (V : Valuation τ sig (Elt Ideal)) (A : S8x8x64x64.Idx → EReal) (X : S8x512x512.Idx → EReal)
    (hA : V (Proc.devRef .tc main_v8) = A) (hX : V (Proc.devRef .tc main_v49) = X) (b : Fin 8) (r c : Fin 512) :
    @Eq EReal ((StableHlo.after (((hostOps1 (F := Ideal)).drop 57).take 11) V (Proc.devRef .tc main_v57) : S8x512x512.Idx → EReal) (ix3 b r c))
      (if r.val / 64 = 5 ∧ c.val / 64 = 5 then
          A (ix4 b (5 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 57).take 11) V (Proc.devRef .tc main_v57) : S8x512x512.Idx → EReal)
      = Host.scatter scatter_S8x512x512_S2_S8x64x64_012_n_12_0 (fun _ b => b) (V (Proc.devRef .tc main_v49))
          (concatenate S2 0 [⟨S1, broadcastInDim S1 ![] bcast_S_S1 (constantI S_ 32 320#32)⟩, ⟨S1, broadcastInDim S1 ![] bcast_S_S1 (constantI S_ 32 320#32)⟩]
            concatenates_S1_S1_S2_d0)
          (mulf (F := Ideal) (φ := .f32) (fun i => shapeCast S8x64x64 (extractStridedSlice S8x1x64x64 ![0, 5, 0, 0] (V (Proc.devRef .tc main_v8)) slices_S8x8x64x64_S8x1x64x64_0_5_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v49)) (V (Proc.devRef .tc main_v8)) 320#32 ![0, 5, 0, 0] slices_S8x8x64x64_S8x1x64x64_0_5_0_0 (5 : Fin 8) (by decide) rfl b r c)

/-- Step 6 leaves the first kernel's result alone. -/
theorem seg6_keep (V : Valuation τ sig (Elt Ideal)) :
    StableHlo.after (((hostOps1 (F := Ideal)).drop 68).take 11) V (Proc.devRef .tc main_v8) = V (Proc.devRef .tc main_v8) := by
  dsimp only [hostOps1, List.drop, List.take]
  after_results

/-- Step 6 at an element: head 6's scaled block inside rows and columns 384 .. 447, the previous array elsewhere. -/
theorem seg6_apply (V : Valuation τ sig (Elt Ideal)) (A : S8x8x64x64.Idx → EReal) (X : S8x512x512.Idx → EReal)
    (hA : V (Proc.devRef .tc main_v8) = A) (hX : V (Proc.devRef .tc main_v57) = X) (b : Fin 8) (r c : Fin 512) :
    @Eq EReal ((StableHlo.after (((hostOps1 (F := Ideal)).drop 68).take 11) V (Proc.devRef .tc main_v65) : S8x512x512.Idx → EReal) (ix3 b r c))
      (if r.val / 64 = 6 ∧ c.val / 64 = 6 then
          A (ix4 b (6 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 68).take 11) V (Proc.devRef .tc main_v65) : S8x512x512.Idx → EReal)
      = Host.scatter scatter_S8x512x512_S2_S8x64x64_012_n_12_0 (fun _ b => b) (V (Proc.devRef .tc main_v57))
          (concatenate S2 0 [⟨S1, broadcastInDim S1 ![] bcast_S_S1 (constantI S_ 32 384#32)⟩, ⟨S1, broadcastInDim S1 ![] bcast_S_S1 (constantI S_ 32 384#32)⟩]
            concatenates_S1_S1_S2_d0)
          (mulf (F := Ideal) (φ := .f32) (fun i => shapeCast S8x64x64 (extractStridedSlice S8x1x64x64 ![0, 6, 0, 0] (V (Proc.devRef .tc main_v8)) slices_S8x8x64x64_S8x1x64x64_0_6_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v57)) (V (Proc.devRef .tc main_v8)) 384#32 ![0, 6, 0, 0] slices_S8x8x64x64_S8x1x64x64_0_6_0_0 (6 : Fin 8) (by decide) rfl b r c)

/-- Step 7 leaves the first kernel's result alone. -/
theorem seg7_keep (V : Valuation τ sig (Elt Ideal)) :
    StableHlo.after (((hostOps1 (F := Ideal)).drop 79).take 11) V (Proc.devRef .tc main_v8) = V (Proc.devRef .tc main_v8) := by
  dsimp only [hostOps1, List.drop, List.take]
  after_results

/-- Step 7 at an element: head 7's scaled block inside rows and columns 448 .. 511, the previous array elsewhere. -/
theorem seg7_apply (V : Valuation τ sig (Elt Ideal)) (A : S8x8x64x64.Idx → EReal) (X : S8x512x512.Idx → EReal)
    (hA : V (Proc.devRef .tc main_v8) = A) (hX : V (Proc.devRef .tc main_v65) = X) (b : Fin 8) (r c : Fin 512) :
    @Eq EReal ((StableHlo.after (((hostOps1 (F := Ideal)).drop 79).take 11) V (Proc.devRef .tc main_v73) : S8x512x512.Idx → EReal) (ix3 b r c))
      (if r.val / 64 = 7 ∧ c.val / 64 = 7 then
          A (ix4 b (7 : Fin 8) (⟨r.val % 64, Nat.mod_lt _ (by decide)⟩ : Fin 64) (⟨c.val % 64, Nat.mod_lt _ (by decide)⟩ : Fin 64)) * Ideal.ofBits .f32 0x39000000#32
        else X (ix3 b r c)) := by
  subst hA hX
  have e : (StableHlo.after (((hostOps1 (F := Ideal)).drop 79).take 11) V (Proc.devRef .tc main_v73) : S8x512x512.Idx → EReal)
      = Host.scatter scatter_S8x512x512_S2_S8x64x64_012_n_12_0 (fun _ b => b) (V (Proc.devRef .tc main_v65))
          (concatenate S2 0 [⟨S1, broadcastInDim S1 ![] bcast_S_S1 (constantI S_ 32 448#32)⟩, ⟨S1, broadcastInDim S1 ![] bcast_S_S1 (constantI S_ 32 448#32)⟩]
            concatenates_S1_S1_S2_d0)
          (mulf (F := Ideal) (φ := .f32) (fun i => shapeCast S8x64x64 (extractStridedSlice S8x1x64x64 ![0, 7, 0, 0] (V (Proc.devRef .tc main_v8)) slices_S8x8x64x64_S8x1x64x64_0_7_0_0) shapeCasts_S8x1x64x64_S8x64x64 i)
            (broadcastInDim S8x64x64 ![] bcast_S_S8x64x64 (constant S_ .f32 0x39000000#32))) := by
    dsimp only [hostOps1, List.drop, List.take]
    after_results
    rfl
  exact (congrFun e (ix3 b r c)).trans
    (step_apply (V (Proc.devRef .tc main_v65)) (V (Proc.devRef .tc main_v8)) 448#32 ![0, 7, 0, 0] slices_S8x8x64x64_S8x1x64x64_0_7_0_0 (7 : Fin 8) (by decide) rfl b r c)

end Cert.KernelIdeal.Hand
-- ==== Proof.KI.Host1.lean ====
/-
  The second host stretch as a whole: the array the second kernel reads.

  From the first kernel's result D (batch, head, 64, 64) the stretch builds, per batch, the 512 x 512 matrix whose
  eight diagonal 64 x 64 blocks are the heads of D scaled by the constant, and whose other elements are zero:
      BD[b, j, e] = D[b, j / 64, j mod 64, e mod 64] * const   if j / 64 = e / 64,   0 otherwise.
  The proof follows the program: zeros, then the array after the first k heads for k = 1 .. 8 (each step writes one
  more diagonal block and keeps the rest), then the narrowing, which changes nothing at the ideal values.
-/
import proofs.«109764_j50680614093003_2_alg».proof.Proof.KI.Host1Seg
import Idealize.ShloMosaic.Lib.Pipeline.Frame

noncomputable section

namespace Cert.KernelIdeal.Hand

open Idealize.ShloMosaic Idealize.ShloMosaic.TcCoe Idealize.SL.Sem
open Idealize.ShloMosaic.ValueIdx
open Cert.KernelIdeal Cert.KernelIdeal.Gen

/-! ## The array after the first k heads -/

/-- Block-diagonal on the first `k` heads, zero elsewhere: at (b, r, c) the scaled element (r mod 64, c mod 64) of head
    r / 64 when r and c lie in the same 64-block and that block is among the first `k`. -/
def bdUpTo (A : S8x8x64x64.Idx → EReal) (k : Nat) (b : Fin 8) (r c : Fin 512) : EReal :=
  if r.val / 64 = c.val / 64 ∧ r.val / 64 < k then
    A (ix4 b (⟨r.val / 64, by have := r.isLt; omega⟩ : Fin 8) (⟨r.val % 64, Nat.mod_lt _ (by decide)⟩ : Fin 64)
      (⟨c.val % 64, Nat.mod_lt _ (by decide)⟩ : Fin 64)) * Ideal.ofBits .f32 0x39000000#32
  else 0

theorem bdUpTo_zero (A : S8x8x64x64.Idx → EReal) (b : Fin 8) (r c : Fin 512) : bdUpTo A 0 b r c = 0 :=
  if_neg (by omega)

/-- Writing head `k`'s block over the array of the first `k` heads gives the array of the first `k + 1`. -/
theorem bdUpTo_succ (A : S8x8x64x64.Idx → EReal) (k : Fin 8) (b : Fin 8) (r c : Fin 512) :
    (if r.val / 64 = k.val ∧ c.val / 64 = k.val then
        A (ix4 b k (⟨r.val % 64, Nat.mod_lt _ (by decide)⟩ : Fin 64) (⟨c.val % 64, Nat.mod_lt _ (by decide)⟩ : Fin 64)) * Ideal.ofBits .f32 0x39000000#32
      else bdUpTo A k.val b r c) = bdUpTo A (k.val + 1) b r c := by
  unfold bdUpTo
  by_cases h1 : r.val / 64 = k.val ∧ c.val / 64 = k.val
  · rw [if_pos h1, if_pos (by omega)]
    exact congrArg (fun t : Fin 8 => A (ix4 b t (⟨r.val % 64, Nat.mod_lt _ (by decide)⟩ : Fin 64) (⟨c.val % 64, Nat.mod_lt _ (by decide)⟩ : Fin 64)) * Ideal.ofBits .f32 0x39000000#32)
      (Fin.ext h1.1.symm)
  · rw [if_neg h1]
    by_cases h2 : r.val / 64 = c.val / 64 ∧ r.val / 64 < k.val
    · rw [if_pos h2, if_pos (by omega)]
    · rw [if_neg h2, if_neg (by omega)]

/-! ## The buffers after the zeros and after each step -/

/-- The buffers after the two operations that make the array of zeros. -/
def hW0 (W : Valuation τ sig (Elt Ideal)) : Valuation τ sig (Elt Ideal) := StableHlo.after ((hostOps1 (F := Ideal)).take 2) W
/-- The buffers after step 0. -/
def hW1 (W : Valuation τ sig (Elt Ideal)) : Valuation τ sig (Elt Ideal) := StableHlo.after (((hostOps1 (F := Ideal)).drop 2).take 11) (hW0 W)
/-- The buffers after step 1. -/
def hW2 (W : Valuation τ sig (Elt Ideal)) : Valuation τ sig (Elt Ideal) := StableHlo.after (((hostOps1 (F := Ideal)).drop 13).take 11) (hW1 W)
/-- The buffers after step 2. -/
def hW3 (W : Valuation τ sig (Elt Ideal)) : Valuation τ sig (Elt Ideal) := StableHlo.after (((hostOps1 (F := Ideal)).drop 24).take 11) (hW2 W)
/-- The buffers after step 3. -/
def hW4 (W : Valuation τ sig (Elt Ideal)) : Valuation τ sig (Elt Ideal) := StableHlo.after (((hostOps1 (F := Ideal)).drop 35).take 11) (hW3 W)
/-- The buffers after step 4. -/
def hW5 (W : Valuation τ sig (Elt Ideal)) : Valuation τ sig (Elt Ideal) := StableHlo.after (((hostOps1 (F := Ideal)).drop 46).take 11) (hW4 W)
/-- The buffers after step 5. -/
def hW6 (W : Valuation τ sig (Elt Ideal)) : Valuation τ sig (Elt Ideal) := StableHlo.after (((hostOps1 (F := Ideal)).drop 57).take 11) (hW5 W)
/-- The buffers after step 6. -/
def hW7 (W : Valuation τ sig (Elt Ideal)) : Valuation τ sig (Elt Ideal) := StableHlo.after (((hostOps1 (F := Ideal)).drop 68).take 11) (hW6 W)
/-- The buffers after step 7. -/
def hW8 (W : Valuation τ sig (Elt Ideal)) : Valuation τ sig (Elt Ideal) := StableHlo.after (((hostOps1 (F := Ideal)).drop 79).take 11) (hW7 W)

theorem hW0_v8 (W : Valuation τ sig (Elt Ideal)) : hW0 W (Proc.devRef .tc main_v8) = W (Proc.devRef .tc main_v8) := by
  unfold hW0
  dsimp only [hostOps1, List.take]
  after_results
theorem hW1_v8 (W : Valuation τ sig (Elt Ideal)) : hW1 W (Proc.devRef .tc main_v8) = W (Proc.devRef .tc main_v8) :=
  (seg0_keep (hW0 W)).trans (hW0_v8 W)
theorem hW2_v8 (W : Valuation τ sig (Elt Ideal)) : hW2 W (Proc.devRef .tc main_v8) = W (Proc.devRef .tc main_v8) :=
  (seg1_keep (hW1 W)).trans (hW1_v8 W)
theorem hW3_v8 (W : Valuation τ sig (Elt Ideal)) : hW3 W (Proc.devRef .tc main_v8) = W (Proc.devRef .tc main_v8) :=
  (seg2_keep (hW2 W)).trans (hW2_v8 W)
theorem hW4_v8 (W : Valuation τ sig (Elt Ideal)) : hW4 W (Proc.devRef .tc main_v8) = W (Proc.devRef .tc main_v8) :=
  (seg3_keep (hW3 W)).trans (hW3_v8 W)
theorem hW5_v8 (W : Valuation τ sig (Elt Ideal)) : hW5 W (Proc.devRef .tc main_v8) = W (Proc.devRef .tc main_v8) :=
  (seg4_keep (hW4 W)).trans (hW4_v8 W)
theorem hW6_v8 (W : Valuation τ sig (Elt Ideal)) : hW6 W (Proc.devRef .tc main_v8) = W (Proc.devRef .tc main_v8) :=
  (seg5_keep (hW5 W)).trans (hW5_v8 W)
theorem hW7_v8 (W : Valuation τ sig (Elt Ideal)) : hW7 W (Proc.devRef .tc main_v8) = W (Proc.devRef .tc main_v8) :=
  (seg6_keep (hW6 W)).trans (hW6_v8 W)
theorem hW8_v8 (W : Valuation τ sig (Elt Ideal)) : hW8 W (Proc.devRef .tc main_v8) = W (Proc.devRef .tc main_v8) :=
  (seg7_keep (hW7 W)).trans (hW7_v8 W)

/-- The start: all zeros. -/
theorem hW0_apply (W : Valuation τ sig (Elt Ideal)) (A : S8x8x64x64.Idx → EReal) (b : Fin 8) (r c : Fin 512) :
    @Eq EReal ((hW0 W (Proc.devRef .tc main_v9) : S8x512x512.Idx → EReal) (ix3 b r c)) (bdUpTo A 0 b r c) := by
  have e : (hW0 W (Proc.devRef .tc main_v9) : S8x512x512.Idx → EReal)
      = broadcastInDim S8x512x512 ![] bcast_S_S8x512x512 (constant (F := Ideal) S_ .f32 0x00000000#32) := by
    unfold hW0
    dsimp only [hostOps1, List.take]
    after_results
  refine (congrFun e (ix3 b r c)).trans ?_
  refine (broadcastInDim_apply _ bcast_S_S8x512x512 _ (ix3 b r c) ix0 (fun a => a.elim0)).trans ?_
  exact ((constant_apply _ _).trans Ideal.ofBits_zero_f32).trans (bdUpTo_zero A b r c).symm

theorem hW1_apply (W : Valuation τ sig (Elt Ideal)) (A : S8x8x64x64.Idx → EReal) (hA : W (Proc.devRef .tc main_v8) = A)
    (b : Fin 8) (r c : Fin 512) :
    @Eq EReal ((hW1 W (Proc.devRef .tc main_v17) : S8x512x512.Idx → EReal) (ix3 b r c)) (bdUpTo A 1 b r c) :=
  (seg0_apply (hW0 W) A (hW0 W (Proc.devRef .tc main_v9)) ((hW0_v8 W).trans hA) rfl b r c).trans (by
    rw [hW0_apply W A b r c]
    exact bdUpTo_succ A (0 : Fin 8) b r c)

theorem hW2_apply (W : Valuation τ sig (Elt Ideal)) (A : S8x8x64x64.Idx → EReal) (hA : W (Proc.devRef .tc main_v8) = A)
    (b : Fin 8) (r c : Fin 512) :
    @Eq EReal ((hW2 W (Proc.devRef .tc main_v25) : S8x512x512.Idx → EReal) (ix3 b r c)) (bdUpTo A 2 b r c) :=
  (seg1_apply (hW1 W) A (hW1 W (Proc.devRef .tc main_v17)) ((hW1_v8 W).trans hA) rfl b r c).trans (by
    rw [hW1_apply W A hA b r c]
    exact bdUpTo_succ A (1 : Fin 8) b r c)

theorem hW3_apply (W : Valuation τ sig (Elt Ideal)) (A : S8x8x64x64.Idx → EReal) (hA : W (Proc.devRef .tc main_v8) = A)
    (b : Fin 8) (r c : Fin 512) :
    @Eq EReal ((hW3 W (Proc.devRef .tc main_v33) : S8x512x512.Idx → EReal) (ix3 b r c)) (bdUpTo A 3 b r c) :=
  (seg2_apply (hW2 W) A (hW2 W (Proc.devRef .tc main_v25)) ((hW2_v8 W).trans hA) rfl b r c).trans (by
    rw [hW2_apply W A hA b r c]
    exact bdUpTo_succ A (2 : Fin 8) b r c)

theorem hW4_apply (W : Valuation τ sig (Elt Ideal)) (A : S8x8x64x64.Idx → EReal) (hA : W (Proc.devRef .tc main_v8) = A)
    (b : Fin 8) (r c : Fin 512) :
    @Eq EReal ((hW4 W (Proc.devRef .tc main_v41) : S8x512x512.Idx → EReal) (ix3 b r c)) (bdUpTo A 4 b r c) :=
  (seg3_apply (hW3 W) A (hW3 W (Proc.devRef .tc main_v33)) ((hW3_v8 W).trans hA) rfl b r c).trans (by
    rw [hW3_apply W A hA b r c]
    exact bdUpTo_succ A (3 : Fin 8) b r c)

theorem hW5_apply (W : Valuation τ sig (Elt Ideal)) (A : S8x8x64x64.Idx → EReal) (hA : W (Proc.devRef .tc main_v8) = A)
    (b : Fin 8) (r c : Fin 512) :
    @Eq EReal ((hW5 W (Proc.devRef .tc main_v49) : S8x512x512.Idx → EReal) (ix3 b r c)) (bdUpTo A 5 b r c) :=
  (seg4_apply (hW4 W) A (hW4 W (Proc.devRef .tc main_v41)) ((hW4_v8 W).trans hA) rfl b r c).trans (by
    rw [hW4_apply W A hA b r c]
    exact bdUpTo_succ A (4 : Fin 8) b r c)

theorem hW6_apply (W : Valuation τ sig (Elt Ideal)) (A : S8x8x64x64.Idx → EReal) (hA : W (Proc.devRef .tc main_v8) = A)
    (b : Fin 8) (r c : Fin 512) :
    @Eq EReal ((hW6 W (Proc.devRef .tc main_v57) : S8x512x512.Idx → EReal) (ix3 b r c)) (bdUpTo A 6 b r c) :=
  (seg5_apply (hW5 W) A (hW5 W (Proc.devRef .tc main_v49)) ((hW5_v8 W).trans hA) rfl b r c).trans (by
    rw [hW5_apply W A hA b r c]
    exact bdUpTo_succ A (5 : Fin 8) b r c)

theorem hW7_apply (W : Valuation τ sig (Elt Ideal)) (A : S8x8x64x64.Idx → EReal) (hA : W (Proc.devRef .tc main_v8) = A)
    (b : Fin 8) (r c : Fin 512) :
    @Eq EReal ((hW7 W (Proc.devRef .tc main_v65) : S8x512x512.Idx → EReal) (ix3 b r c)) (bdUpTo A 7 b r c) :=
  (seg6_apply (hW6 W) A (hW6 W (Proc.devRef .tc main_v57)) ((hW6_v8 W).trans hA) rfl b r c).trans (by
    rw [hW6_apply W A hA b r c]
    exact bdUpTo_succ A (6 : Fin 8) b r c)

theorem hW8_apply (W : Valuation τ sig (Elt Ideal)) (A : S8x8x64x64.Idx → EReal) (hA : W (Proc.devRef .tc main_v8) = A)
    (b : Fin 8) (r c : Fin 512) :
    @Eq EReal ((hW8 W (Proc.devRef .tc main_v73) : S8x512x512.Idx → EReal) (ix3 b r c)) (bdUpTo A 8 b r c) :=
  (seg7_apply (hW7 W) A (hW7 W (Proc.devRef .tc main_v65)) ((hW7_v8 W).trans hA) rfl b r c).trans (by
    rw [hW7_apply W A hA b r c]
    exact bdUpTo_succ A (7 : Fin 8) b r c)

/-! ## The whole stretch -/

set_option maxRecDepth 8192 in
/-- The stretch is the zeros, the eight steps and the narrowing, one after the other. -/
theorem host1_split (W : Valuation τ sig (Elt Ideal)) :
    StableHlo.after (hostOps1 (F := Ideal)) W = StableHlo.after ((hostOps1 (F := Ideal)).drop 90) (hW8 W) := by
  have hL : (hostOps1 (F := Ideal)) = (hostOps1 (F := Ideal)).take 2 ++ (((hostOps1 (F := Ideal)).drop 2).take 11 ++ (((hostOps1 (F := Ideal)).drop 13).take 11 ++ (((hostOps1 (F := Ideal)).drop 24).take 11 ++ (((hostOps1 (F := Ideal)).drop 35).take 11 ++ (((hostOps1 (F := Ideal)).drop 46).take 11 ++ (((hostOps1 (F := Ideal)).drop 57).take 11 ++ (((hostOps1 (F := Ideal)).drop 68).take 11 ++ (((hostOps1 (F := Ideal)).drop 79).take 11 ++ (hostOps1 (F := Ideal)).drop 90)))))))) := rfl
  refine (congrArg (fun l => StableHlo.after l W) hL).trans ?_
  simp only [StableHlo.after_append]
  rfl

/-- The array the second kernel reads, at an element: block-diagonal, the scaled head j / 64 of the first kernel's
    result where j and e lie in the same 64-block, zero elsewhere. -/
theorem bd_apply (W : Valuation τ sig (Elt Ideal)) (D : S8x8x64x64.Idx → EReal) (hD : (W (Proc.devRef .tc main_v8) : S8x8x64x64.Idx → EReal) = D)
    (b : Fin 8) (j e : Fin 512) :
    @Eq EReal ((StableHlo.after (hostOps1 (F := Ideal)) W (Proc.devRef .tc main_v74) : S8x512x512.Idx → EReal) (ix3 b j e))
      (if j.val / 64 = e.val / 64 then D (ix4 b ⟨j.val / 64, by omega⟩ ⟨j.val % 64, by omega⟩ ⟨e.val % 64, by omega⟩) * Ideal.ofBits .f32 0x39000000#32 else 0) := by
  have e1 : (StableHlo.after (hostOps1 (F := Ideal)) W (Proc.devRef .tc main_v74) : S8x512x512.Idx → EReal)
      = truncf (F := Ideal) .bf16 (hW8 W (Proc.devRef .tc main_v73) : S8x512x512.Idx → EReal) bitsLt_bf16_f32 := by
    rw [host1_split W]
    dsimp only [hostOps1, List.drop]
    after_results
  refine (congrFun e1 (ix3 b j e)).trans ?_
  refine (truncf_apply (s := S8x512x512) (φ := .f32) (ψ := .bf16) _ bitsLt_bf16_f32 (ix3 b j e)).trans ?_
  refine (hW8_apply W D hD b j e).trans ?_
  unfold bdUpTo
  by_cases h : j.val / 64 = e.val / 64
  · rw [if_pos h, if_pos ⟨h, by omega⟩]
  · rw [if_neg h, if_neg (fun hh => h hh.1)]

end Cert.KernelIdeal.Hand
-- ==== Proof.KI.Host1Keep.lean ====
/-
  The second host stretch writes neither the transposed query block nor the transposed output weights: both reach
  the second launch as the first host stretch left them.
-/
import proofs.«109764_j50680614093003_2_alg».proof.Proof.Gen.KernelIdeal.Launch
import Idealize.ShloMosaic.Lib.StableHlo.Run
import Idealize.ShloMosaic.PureOps.Ideal

set_option maxRecDepth 16384

noncomputable section

namespace Cert.KernelIdeal.Hand

open Idealize.ShloMosaic Idealize.ShloMosaic.TcCoe
open Cert.KernelIdeal Cert.KernelIdeal.Gen

set_option maxHeartbeats 4000000 in
theorem host1_keep_v1 (W : Valuation τ sig (Elt Ideal)) :
    StableHlo.after (hostOps1 (F := Ideal)) W (Proc.devRef .tc main_v1) = W (Proc.devRef .tc main_v1) :=
  StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
theorem host1_keep_v7 (W : Valuation τ sig (Elt Ideal)) :
    StableHlo.after (hostOps1 (F := Ideal)) W (Proc.devRef .tc main_v7) = W (Proc.devRef .tc main_v7) :=
  StableHlo.after_of_forall_not_mem (b := Proc.devRef .tc main_v7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Hand

end
-- ==== Proof.KI.Region1.lean ====
/-
  The second kernel's half of the frame, at the buffer contents `V` the kernel finds when it is entered.

  At every grid point the body reads its five input blocks whole — the point's 1024 rows of x, the query
  projection, the batch's 512 x 512 block-diagonal of accumulated key-value products, the output projection and
  the bias —, also reads the output block (and drops what it read), and overwrites the output block whole with one
  value computed from the five inputs. So after the body every input buffer still holds its block, and the
  output buffer holds that one value (`out1_5`), whatever it held before.

  An input that the pipeline does not fetch at a point has the block index it had at the point before, so its
  buffer holds the right block at every point, fetched there or not: the weights and the bias are fetched once,
  the key-value block when the batch changes, x at every point.
-/
import proofs.«109764_j50680614093003_2_alg».proof.Proof.Gen.KernelIdeal.Launch
import proofs.«109764_j50680614093003_2_alg».proof.Proof.Gen.KernelIdeal.Skeleton
import proofs.«109764_j50680614093003_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with an axis of 1024 coordinates: the structural check recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the core's buffer contents when the second kernel is entered
variable (V : (c : Dev nD) → (b : Ref sig .tc) → Buf (Elt F) ((c : Thread nD τ).loc b))

/-! ## The windows' blocks -/

/-- Window `w`'s block at point `t`, read off its array as the kernel finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (x, fetched at every point) holds its block at every point, for any proof data whose array is
    `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 (the query projection, fetched once) holds its block at every point: its index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 (the batch's key-value block, fetched when the batch changes) holds its block at every point:
    within a batch its index does not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 (the output projection, fetched once) holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 (the bias, fetched once) holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every one is of a whole buffer -/

abbrev r1_0 : Rect S1x1024x256 := Rect.unit (s := S1x1024x256) ![0, 0, 0] S1x1024x256.size inb_S1x1024x256_S1x1024x256_0_0_0
abbrev r1_1 : Rect S256x512 := Rect.unit (s := S256x512) ![0, 0] S256x512.size inb_S256x512_S256x512_0_0
abbrev r1_2 : Rect S1x512x512 := Rect.unit (s := S1x512x512) ![0, 0, 0] S1x512x512.size inb_S1x512x512_S1x512x512_0_0_0
abbrev r1_3 : Rect S512x256 := Rect.unit (s := S512x256) ![0, 0] S512x256.size inb_S512x256_S512x256_0_0
abbrev r1_4 : Rect S256 := Rect.unit (s := S256) ![0] S256.size inb_S256_S256_0

/-! ## What the body leaves in the output window's buffer -/

/-- Window 5's buffer after the body, from the input windows' blocks: its one store, of the whole block. -/
def out1_5 (x0 : Vec F S1x1024x256 .f32) (x1 : Vec F S256x512 .f32) (x2 : Vec F S1x512x512 .bf16) (x3 : Vec F S512x256 .f32) (x4 : Vec F S256 .f32) : Vec F S1x1024x256 .f32 :=
  View.canon [⟨r1_0, k1_pay1 (View.ld x0 r1_0) (View.ld x1 r1_1) (View.ld x2 r1_2) (View.ld x3 r1_3) (View.ld x4 r1_4)⟩]

/-- The one store covers the buffer. -/
theorem cover1_5 (p0 : Vec F S1x1024x256 .f32) (y : S1x1024x256.Idx) :
    ∃ pc ∈ ([⟨r1_0, p0⟩] : List (View.Piece (Elt F) S1x1024x256 .f32)), y ∈ pc.1.set :=
  View.cover_of_tiled [⟨r1_0, p0⟩] S1x1024x256.size (by rfl) y

/-! ## The body's triple -/

set_option maxHeartbeats 1000000 in
/-- The body on whole staging buffers, the inputs' at read contents `xW` and the output's at anything, runs to the
    continuation holding the inputs' as they were and the output's at `out1_5` of the inputs'. -/
theorem sound_kernel1 (c : Dev nD) (E : Set ℕ) (i : grid1.Coords)
    (arg0 : Memref sig .tc .vmem S1x1024x256 .f32) (harg0 : arg0.IsWhole) (arg1 : Memref sig .tc .vmem S256x512 .f32) (harg1 : arg1.IsWhole)
    (arg2 : Memref sig .tc .vmem S1x512x512 .bf16) (harg2 : arg2.IsWhole) (arg3 : Memref sig .tc .vmem S512x256 .f32) (harg3 : arg3.IsWhole)
    (arg4 : Memref sig .tc .vmem S256 .f32) (harg4 : arg4.IsWhole) (arg5 : Memref sig .tc .vmem S1x1024x256 .f32) (harg5 : arg5.IsWhole)
    (x0 : Vec F S1x1024x256 .f32) (x1 : Vec F S256x512 .f32) (x2 : Vec F S1x512x512 .bf16) (x3 : Vec F S512x256 .f32) (x4 : Vec F S256 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1_apply_kernel i arg0 harg0 arg1 harg1 arg2 harg2 arg3 harg3 arg4 harg4 arg5 harg5) K := by
  simp only [cc1_apply_kernel_eq_skeleton]; unfold cc1_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the second kernel's pipeline on core `c`: the arrays as the kernel finds them (`V`); after
    the body at point `t` each input's buffer at its block and the output's at `out1_5` of the input blocks; the
    invariant the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so `sound_kernel1` applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/-
  The run of the whole program: two kernel regions among two stretches of host operations. The buffer contents at
  each boundary are a fold from the launch memory — a host stretch applies its operations, a region replaces its
  arrays by what its write-backs leave and keeps every other buffer —, every argument array reads back through the
  fold to its launch contents (no host operation and no region writes one), and the result array ends at what the
  second region's write-backs leave.
-/
import proofs.«109764_j50680614093003_2_alg».proof.Proof.KI.Region1
import proofs.«109764_j50680614093003_2_alg».proof.Proof.KI.Region0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation writes an argument array -/

theorem W1_main_arg0 (c : Dev nD) : W1 m ρ c (Proc.devRef .tc main_arg0) = W0 m ρ c (Proc.devRef .tc main_arg0) :=
  StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg1 (c : Dev nD) : W1 m ρ c (Proc.devRef .tc main_arg1) = W0 m ρ c (Proc.devRef .tc main_arg1) :=
  StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg2 (c : Dev nD) : W1 m ρ c (Proc.devRef .tc main_arg2) = W0 m ρ c (Proc.devRef .tc main_arg2) :=
  StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg2 (c : Dev nD) : W3 m ρ c (Proc.devRef .tc main_arg2) = W2 m ρ c (Proc.devRef .tc main_arg2) :=
  StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W1_main_arg3 (c : Dev nD) : W1 m ρ c (Proc.devRef .tc main_arg3) = W0 m ρ c (Proc.devRef .tc main_arg3) :=
  StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
set_option maxHeartbeats 4000000 in
theorem W3_main_arg3 (c : Dev nD) : W3 m ρ c (Proc.devRef .tc main_arg3) = W2 m ρ c (Proc.devRef .tc main_arg3) :=
  StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The four argument arrays end as launched; the result array ends at the second region's write-backs. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := W3_main_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_main_arg1 m ρ c
    _ = W1 m ρ c (Proc.devRef .tc main_arg1) := W2_of_ne m ρ c main_arg1 (by decide)
    _ = W0 m ρ c (Proc.devRef .tc main_arg1) := W1_main_arg1 m ρ c
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_main_arg2 m ρ c
    _ = W1 m ρ c (Proc.devRef .tc main_arg2) := W2_of_ne m ρ c main_arg2 (by decide)
    _ = W0 m ρ c (Proc.devRef .tc main_arg2) := W1_main_arg2 m ρ c
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 4).trans (((dat1 (V3 m ρ) c).arrAt_in 4 rfl _).trans (A_eq1 (V3 m ρ) c 4))
    _ = W2 m ρ c (Proc.devRef .tc main_arg3) := W3_main_arg3 m ρ c
    _ = W1 m ρ c (Proc.devRef .tc main_arg3) := W2_of_ne m ρ c main_arg3 (by decide)
    _ = W0 m ρ c (Proc.devRef .tc main_arg3) := W1_main_arg3 m ρ c
    _ = m ((c : Thread nD τ).loc main_arg3) := rfl
theorem W4_main_v75 (c : Dev nD) : W4 m ρ c (Proc.devRef .tc main_v75) = (dat1 (V3 m ρ) c).arrAt 5 cfg1.N :=
  W4_arr m ρ c 5

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm (F := F) 0).1 ∗ Pipeline.scopedRest (Ix := Unit) (Name := ℕ) (U := UR sig nD τ) (Lvl := ℕ) (Val := Elt F) spec0 c)
        ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp ∗ Pipeline.scopedRest (Ix := Unit) (Name := ℕ) (U := UR sig nD τ) (Lvl := ℕ) (Val := Elt F) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
set_option maxHeartbeats 4000000 in
theorem main_run (c : Dev nD) : main (F := F) c = Pipeline.Seg.run (segs m ρ) := (main_chain c).trans (by chain_rfl)

set_option backward.isDefEq.respectTransparency.types false in
/-- From any memory with zero counters every weakly fair execution of the program terminates, nothing faulting; the
    result array ends at what the second region's write-backs leave and the four argument arrays end as launched. -/
theorem run_main : θ_run defs (onTc (τ := τ) (main (F := F))) ⟨m, fun _ => 0, ρ⟩ (fun r => ∀ c : Dev nD,
      r.2.mem ((c.tc : Thread nD τ).loc main_v75) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v75 (by decide))).trans (W4_main_v75 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Hand

end
-- ==== Proof.KI.Value1.lean ====
/-
  What the second kernel leaves in its output array, as one function of the arrays it finds, at the ideal values.

  At the ideal values a narrowing to bf16 changes nothing and a product of matrices accumulated into zeros is the
  plain sum over the contraction index. So the block the body writes at a grid point is, element by element,
      ((x · Wq) · BD) · Wo + bias
  over that point's 1024 rows of x and its batch's 512 x 512 matrix BD, and the output array, whose blocks the grid
  points tile, is `apply1` of the whole arrays.
-/
import proofs.«109764_j50680614093003_2_alg».proof.Proof.KI.Region1
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- The second kernel's output at batch `b`, row `n`, column `c`, from the whole arrays: the row of x projected by
    `Wq`, multiplied by the batch's matrix `BD`, projected by `Wo`, plus the bias. -/
def apply1 (X : S8x8192x256.Idx → EReal) (Wq : S256x512.Idx → EReal) (BD : S8x512x512.Idx → EReal) (Wo : S512x256.Idx → EReal)
    (B : S256.Idx → EReal) (b : Fin 8) (n : Fin 8192) (c : Fin 256) : EReal :=
  (∑ e : Fin 512, (∑ j : Fin 512, (∑ d : Fin 256, X (ix3 b n d) * Wq (ix2 d j)) * BD (ix3 b j e)) * Wo (ix2 e c)) + B (ix1 c)

/-! ## The three products at an index -/

theorem mm1_apply_l0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm1_apply_l1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
theorem mm1_apply_r0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
theorem mm1_apply_r1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl
/-- The query projection: a [1024, 256] by [256, 512] product into zeros is the sum over the 256 shared coordinates. -/
theorem mm1_apply {φ₁ φ₂ : FTy} (A : FVec Ideal S1024x256 φ₁) (B : FVec Ideal S256x512 φ₂) (r : Fin 1024) (c : Fin 512) :
    matmul dot_S1024x256_S256x512_S1024x512_1_0_0_1_n_n none A B (constant S1024x512 .f32 0x00000000#32) (ix2 r c) = ∑ k : Fin 256, A (ix2 r k) * B (ix2 k c) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 r c) ((contrEquiv1 dot_S1024x256_S256x512_S1024x512_1_0_0_1_n_n 256 rfl rfl).symm k) = ix2 r k := funext fun a => Fin.ext (by
    match a with
    | ⟨0, _⟩ => exact mm1_apply_l0 _ _
    | ⟨1, _⟩ => exact (mm1_apply_l1 _ _).trans hk)
  have er : dot_S1024x256_S256x512_S1024x512_1_0_0_1_n_n.rhsIdx (ix2 r c) ((contrEquiv1 dot_S1024x256_S256x512_S1024x512_1_0_0_1_n_n 256 rfl rfl).symm k) = ix2 k c := funext fun a => Fin.ext (by
    match a with
    | ⟨0, _⟩ => exact (mm1_apply_r0 _ _).trans hk
    | ⟨1, _⟩ => exact mm1_apply_r1 _ _)
  rw [el, er]

theorem mm2_apply_l0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm2_apply_l1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem mm2_apply_r0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem mm2_apply_r1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- The product with the batch's key-value matrix: a [1024, 512] by [512, 512] product into zeros. -/
theorem mm2_apply {φ₁ φ₂ : FTy} (A : FVec Ideal S1024x512 φ₁) (B : FVec Ideal S512x512 φ₂) (r : Fin 1024) (c : Fin 512) :
    matmul dot_S1024x512_S512x512_S1024x512_1_0_0_1_n_n none A B (constant S1024x512 .f32 0x00000000#32) (ix2 r c) = ∑ k : Fin 512, A (ix2 r k) * B (ix2 k c) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r c) ((contrEquiv1 dot_S1024x512_S512x512_S1024x512_1_0_0_1_n_n 512 rfl rfl).symm k) = ix2 r k := funext fun a => Fin.ext (by
    match a with
    | ⟨0, _⟩ => exact mm2_apply_l0 _ _
    | ⟨1, _⟩ => exact (mm2_apply_l1 _ _).trans hk)
  have er : dot_S1024x512_S512x512_S1024x512_1_0_0_1_n_n.rhsIdx (ix2 r c) ((contrEquiv1 dot_S1024x512_S512x512_S1024x512_1_0_0_1_n_n 512 rfl rfl).symm k) = ix2 k c := funext fun a => Fin.ext (by
    match a with
    | ⟨0, _⟩ => exact (mm2_apply_r0 _ _).trans hk
    | ⟨1, _⟩ => exact mm2_apply_r1 _ _)
  rw [el, er]

theorem mm3_apply_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm3_apply_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem mm3_apply_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem mm3_apply_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
/-- The output projection: a [1024, 512] by [512, 256] product into zeros. -/
theorem mm3_apply {φ₁ φ₂ : FTy} (A : FVec Ideal S1024x512 φ₁) (B : FVec Ideal S512x256 φ₂) (r : Fin 1024) (c : Fin 256) :
    matmul dot_S1024x512_S512x256_S1024x256_1_0_0_1_n_n none A B (constant S1024x256 .f32 0x00000000#32) (ix2 r c) = ∑ k : Fin 512, A (ix2 r k) * B (ix2 k c) := by
  simp only [matmul]
  rw [Ideal.matmul_constant_zero_apply, ← Equiv.sum_comp (contrEquiv1 dot_S1024x512_S512x256_S1024x256_1_0_0_1_n_n 512 rfl rfl).symm]
  refine Finset.sum_congr rfl fun k _ => ?_
  have hk := contrEquiv1_symm_val dot_S1024x512_S512x256_S1024x256_1_0_0_1_n_n 512 rfl rfl k
  have el : dot_S1024x512_S512x256_S1024x256_1_0_0_1_n_n.lhsIdx (ix2 r c) ((contrEquiv1 dot_S1024x512_S512x256_S1024x256_1_0_0_1_n_n 512 rfl rfl).symm k) = ix2 r k := funext fun a => Fin.ext (by
    match a with
    | ⟨0, _⟩ => exact mm3_apply_l0 _ _
    | ⟨1, _⟩ => exact (mm3_apply_l1 _ _).trans hk)
  have er : dot_S1024x512_S512x256_S1024x256_1_0_0_1_n_n.rhsIdx (ix2 r c) ((contrEquiv1 dot_S1024x512_S512x256_S1024x256_1_0_0_1_n_n 512 rfl rfl).symm k) = ix2 k c := funext fun a => Fin.ext (by
    match a with
    | ⟨0, _⟩ => exact (mm3_apply_r0 _ _).trans hk
    | ⟨1, _⟩ => exact mm3_apply_r1 _ _)
  rw [el, er]

/-! ## The body's value at an index -/

/-- The block the body stores, at row `r` and column `c`: the three products chained, plus the bias. -/
theorem pay1_apply (x0 : Vec Ideal S1x1024x256 .f32) (x1 : Vec Ideal S256x512 .f32) (x2 : Vec Ideal S1x512x512 .bf16)
    (x3 : Vec Ideal S512x256 .f32) (x4 : Vec Ideal S256 .f32) (u : Fin 1) (r : Fin 1024) (c : Fin 256) :
    k1_pay1 x0 x1 x2 x3 x4 (ix3 u r c)
      = (∑ e : Fin 512, (∑ j : Fin 512, (∑ d : Fin 256, x0 (ix3 (0 : Fin 1) r d) * x1 (ix2 d j)) * x2 (ix3 (0 : Fin 1) j e)) * x3 (ix2 e c))
        + x4 (ix1 c) := by
  unfold k1_pay1
  refine (shapeCast_ab_1ab_apply _ _ u r c).trans ?_
  refine congrArg₂ (· + ·) ?_ ?_
  · refine (mm3_apply _ _ r c).trans (Finset.sum_congr rfl fun e _ => congrArg₂ (· * ·) ?_ ?_)
    · refine (mm2_apply _ _ r e).trans (Finset.sum_congr rfl fun j _ => congrArg₂ (· * ·) ?_ ?_)
      · refine (mm1_apply _ _ r j).trans (Finset.sum_congr rfl fun d _ => congrArg₂ (· * ·) ?_ ?_)
        · exact shapeCast_1ab_ab_apply x0 _ r d
        · exact congrFun (shapeCast_self x1 _) (ix2 d j)
      · exact shapeCast_1ab_ab_apply x2 _ j e
    · exact congrFun (shapeCast_self x3 _) (ix2 e c)
  · exact (broadcastTo_1b_ab_apply _ _ r c).trans (shapeCast_a_1a_apply x4 _ 0 c)

/-! ## From the body's block to the array -/

private theorem hz1 : (![0] : Fin 1 → Nat) = fun _ => 0 := funext fun a => by fin_cases a <;> rfl
private theorem hz2 : (![0, 0] : Fin 2 → Nat) = fun _ => 0 := funext fun a => by fin_cases a <;> rfl
private theorem hz3 : (![0, 0, 0] : Fin 3 → Nat) = fun _ => 0 := funext fun a => by fin_cases a <;> rfl

/-- The output buffer after the body is the body's one value: the store is of the whole block and the loads are of
    whole blocks. -/
theorem out1_5_eq {F : FTy → Type} [FloatOps F] (x0 : Vec F S1x1024x256 .f32) (x1 : Vec F S256x512 .f32) (x2 : Vec F S1x512x512 .bf16)
    (x3 : Vec F S512x256 .f32) (x4 : Vec F S256 .f32) : out1_5 x0 x1 x2 x3 x4 = k1_pay1 x0 x1 x2 x3 x4 := by
  unfold out1_5
  rw [View.canon_unit_zero hz3]
  simp only [View.ld_unit_zero (S := S1x1024x256) hz3, View.ld_unit_zero (S := S256x512) hz2, View.ld_unit_zero (S := S1x512x512) hz3,
    View.ld_unit_zero (S := S512x256) hz2, View.ld_unit_zero (S := S256) hz1]

/-- One block of the output from the whole arrays: when the x block is rows `row r` of batch `b`, the key-value
    block is batch `b`'s matrix, and the weights and the bias are the whole arrays, the body's value at row `r` is
    `apply1` at batch `b`, row `row r`. -/
theorem block1_eq (X : S8x8192x256.Idx → EReal) (Wq : S256x512.Idx → EReal) (BD : S8x512x512.Idx → EReal) (Wo : S512x256.Idx → EReal)
    (B : S256.Idx → EReal)
    (x0 : Vec Ideal S1x1024x256 .f32) (x1 : Vec Ideal S256x512 .f32) (x2 : Vec Ideal S1x512x512 .bf16)
    (x3 : Vec Ideal S512x256 .f32) (x4 : Vec Ideal S256 .f32) (b : Fin 8) (row : Fin 1024 → Fin 8192)
    (h0 : ∀ r d, x0 (ix3 (0 : Fin 1) r d) = X (ix3 b (row r) d))
    (h1 : ∀ d j, x1 (ix2 d j) = Wq (ix2 d j))
    (h2 : ∀ j e, x2 (ix3 (0 : Fin 1) j e) = BD (ix3 b j e))
    (h3 : ∀ e c, x3 (ix2 e c) = Wo (ix2 e c))
    (h4 : ∀ c, x4 (ix1 c) = B (ix1 c)) (u : Fin 1) (r : Fin 1024) (c : Fin 256) :
    k1_pay1 x0 x1 x2 x3 x4 (ix3 u r c) = apply1 X Wq BD Wo B b (row r) c := by
  rw [pay1_apply]
  unfold apply1
  simp only [h0, h1, h2, h3, h4]

/-- The index maps, decided over the grid: x and the output move together, one block of 1024 rows per point, batch
    by batch; the key-value block is the batch's; the weights and the bias stay. -/
theorem idx_facts1 : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_1.index t (0 : Fin 2) = 0 ∧ win1_1.index t (1 : Fin 2) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0
    ∧ win1_4.index t (0 : Fin 1) = 0
    ∧ win1_5.index t (0 : Fin 3) ≤ 7 ∧ win1_5.index t (1 : Fin 3) ≤ 7 :=
  (by decide +kernel : ∀ t : Fin grid1.N, _)

/-- Every block of the output array is some point's. -/
theorem idx_onto1 : ∀ (q0 : Fin 8) (q1 : Fin 8), ∃ t : Fin cfg1.N, win1_5.index t = ![q0.val, q1.val, 0] :=
  (by decide +kernel : ∀ (q0 : Fin 8) (q1 : Fin 8), ∃ t : Fin grid1.N, win1_5.index t = ![q0.val, q1.val, 0])

section Final
variable (V : (c : Dev nD) → (b : Ref sig .tc) → Buf (Elt Ideal) ((c : Thread nD τ).loc b))

/-- The output array after the kernel, from the arrays it finds. -/
abbrev G1 (c : Dev nD) : S8x8192x256.Idx → EReal :=
  fun i => apply1 (V c main_arg0) (V c main_v1) (V c main_v74) (V c main_v7) (V c main_arg3) (i 0) (i 1) (i 2)

/-- What point `t` writes back is block `t` of `G1`. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 V c).after 5 t) = _
  rw [after1_5, out1_5_eq]
  obtain ⟨e00, e01, e02, e52, e10, e11, e20, e21, e22, e30, e31, e40, l0, l1⟩ := idx_facts1 t
  refine funext fun (j : S1x1024x256.Idx) => ?_
  obtain ⟨u, r, cc, rfl⟩ : ∃ (u : Fin 1) (r : Fin 1024) (cc : Fin 256), j = ix3 u r cc := ⟨j 0, j 1, j 2, eq_ix3 j⟩
  have hu : u.val = 0 := by omega
  show k1_pay1 (iblk1 V c 0 t) (iblk1 V c 1 t) (iblk1 V c 2 t) (iblk1 V c 3 t) (iblk1 V c 4 t) (ix3 u r cc)
    = apply1 (V c main_arg0) (V c main_v1) (V c main_v74) (V c main_v7) (V c main_arg3)
        (((cfg1.win 5).blk t).view.emb (ix3 u r cc) 0) (((cfg1.win 5).blk t).view.emb (ix3 u r cc) 1) (((cfg1.win 5).blk t).view.emb (ix3 u r cc) 2)
  have hc2 : ((cfg1.win 5).blk t).view.emb (ix3 u r cc) 2 = cc := Fin.ext (by
    show win1_5.index t (2 : Fin 3) * 256 + 1 * cc.val = cc.val
    omega)
  rw [hc2]
  refine block1_eq (V c main_arg0) (V c main_v1) (V c main_v74) (V c main_v7) (V c main_arg3) _ _ _ _ _
    (((cfg1.win 5).blk t).view.emb (ix3 u r cc) 0) (fun r' => ((cfg1.win 5).blk t).view.emb (ix3 u r' cc) 1) ?_ ?_ ?_ ?_ ?_ u r cc
  · intro r' d
    show V c main_arg0 (((cfg1.win 0).blk t).view.emb (ix3 (0 : Fin 1) r' d)) = _
    refine congrArg (V c main_arg0) (funext fun a => Fin.ext ?_)
    match a with
    | ⟨0, _⟩ => show win1_0.index t (0 : Fin 3) * 1 + 1 * 0 = win1_5.index t (0 : Fin 3) * 1 + 1 * u.val; omega
    | ⟨1, _⟩ => show win1_0.index t (1 : Fin 3) * 1024 + 1 * r'.val = win1_5.index t (1 : Fin 3) * 1024 + 1 * r'.val; omega
    | ⟨2, _⟩ => show win1_0.index t (2 : Fin 3) * 256 + 1 * d.val = d.val; omega
  · intro d j
    show V c main_v1 (((cfg1.win 1).blk t).view.emb (ix2 d j)) = _
    refine congrArg (V c main_v1) (funext fun a => Fin.ext ?_)
    match a with
    | ⟨0, _⟩ => show win1_1.index t (0 : Fin 2) * 256 + 1 * d.val = d.val; omega
    | ⟨1, _⟩ => show win1_1.index t (1 : Fin 2) * 512 + 1 * j.val = j.val; omega
  · intro j e
    show V c main_v74 (((cfg1.win 2).blk t).view.emb (ix3 (0 : Fin 1) j e)) = _
    refine congrArg (V c main_v74) (funext fun a => Fin.ext ?_)
    match a with
    | ⟨0, _⟩ => show win1_2.index t (0 : Fin 3) * 1 + 1 * 0 = win1_5.index t (0 : Fin 3) * 1 + 1 * u.val; omega
    | ⟨1, _⟩ => show win1_2.index t (1 : Fin 3) * 512 + 1 * j.val = j.val; omega
    | ⟨2, _⟩ => show win1_2.index t (2 : Fin 3) * 512 + 1 * e.val = e.val; omega
  · intro e c'
    show V c main_v7 (((cfg1.win 3).blk t).view.emb (ix2 e c')) = _
    refine congrArg (V c main_v7) (funext fun a => Fin.ext ?_)
    match a with
    | ⟨0, _⟩ => show win1_3.index t (0 : Fin 2) * 512 + 1 * e.val = e.val; omega
    | ⟨1, _⟩ => show win1_3.index t (1 : Fin 2) * 256 + 1 * c'.val = c'.val; omega
  · intro c'
    show V c main_arg3 (((cfg1.win 4).blk t).view.emb (ix1 c')) = _
    refine congrArg (V c main_arg3) (funext fun a => Fin.ext ?_)
    match a with
    | ⟨0, _⟩ => show win1_4.index t (0 : Fin 1) * 256 + 1 * c'.val = c'.val; omega

/-- An index of the output array is in point `t`'s block iff each coordinate is in the block's range on its axis. -/
theorem mem_blk1_5 (t : Fin cfg1.N) (i : S8x8192x256.Idx) :
    i ∈ ((cfg1.win 5).blk t).view.set ↔ ∀ a : Fin 3, win1_5.index t a * S1x1024x256.size a ≤ (i a).val ∧ (i a).val < win1_5.index t a * S1x1024x256.size a + S1x1024x256.size a := by
  show i ∈ ((View.whole main_v75).slice (win1_5.rect t)).set ↔ _
  rw [View.set_slice_whole, Rect.mem_set_unit]
  exact Iff.rfl

/-- Every index of the output array is in some point's block: the point of its batch and its tile of 1024 rows. -/
theorem cover1_5_arr (i : S8x8192x256.Idx) :
    ∃ t : Fin cfg1.N, (cfg1.win 5).flush t = true ∧ i ∈ ((cfg1.win 5).blk t).view.set := by
  have hi0 : (i 0).val < 8 := (i 0).isLt
  have hi1 : (i 1).val < 8192 := (i 1).isLt
  have hi2 : (i 2).val < 256 := (i 2).isLt
  obtain ⟨t, ht⟩ := idx_onto1 ⟨(i 0).val, hi0⟩ ⟨(i 1).val / 1024, by omega⟩
  have q0 : win1_5.index t (0 : Fin 3) = (i 0).val := congrFun ht 0
  have q1 : win1_5.index t (1 : Fin 3) = (i 1).val / 1024 := congrFun ht 1
  have q2 : win1_5.index t (2 : Fin 3) = 0 := congrFun ht 2
  refine ⟨t, flush1_5 t, ?_⟩
  rw [mem_blk1_5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 1024 ≤ (i 1).val ∧ (i 1).val < win1_5.index t (1 : Fin 3) * 1024 + 1024; omega
  | ⟨2, _⟩ => show win1_5.index t (2 : Fin 3) * 256 ≤ (i 2).val ∧ (i 2).val < win1_5.index t (2 : Fin 3) * 256 + 256; omega

/-- The output array after the kernel is `apply1` of the arrays the kernel finds. -/
theorem final1 (c : Dev nD) :
    (dat1 (F := Ideal) V c).arrAt 5 cfg1.N
      = fun i => apply1 (V c main_arg0) (V c main_v1) (V c main_v74) (V c main_v7) (V c main_arg3) (i 0) (i 1) (i 2) :=
  (dat1 (F := Ideal) V c).arrAt_eq_of_cover 5 (G1 V c) (fun t _ => flushed1_5_eq V c t) cover1_5_arr

end Final

end Cert.KernelIdeal.Hand

end
-- ==== Proof.KI.Host0.lean ====
/-
  The first host stretch read at an index. It cuts the three 512-row blocks out of the [1536, 256] weight array,
  transposes each, joins the transposed key and value blocks side by side into a [256, 1024] array, and transposes the
  [256, 512] output weights. Entry (d, col) of the joined array is the weight array's entry (512 + col, d) — the key
  block sits at rows 512…1023 and the value block at rows 1024…1535, so one formula serves both halves —, entry (d, j)
  of the transposed query block is the weight array's (j, d), and entry (e, c) of the transposed output weights is
  the output weights' (c, e).
-/
import proofs.«109764_j50680614093003_2_alg».proof.Proof.Gen.KernelIdeal.Launch
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The transposed query block as a term of the weight array. -/
theorem host0_v1_eq :
    (StableHlo.after (hostOps0 (F := Ideal)) W (Proc.devRef .tc main_v1) : S256x512.Idx → EReal)
      = transpose S256x512 [1, 0] (extractStridedSlice S512x256 ![0, 0] (W (Proc.devRef .tc main_arg1)) slices_S1536x256_S512x256_0_0) transposes_S512x256_S256x512_1_0 := by
  dsimp only [hostOps0]; after_results

/-- The joined transposed key and value blocks as a term of the weight array. -/
theorem host0_v6_eq :
    (StableHlo.after (hostOps0 (F := Ideal)) W (Proc.devRef .tc main_v6) : S256x1024.Idx → EReal)
      = concatenate S256x1024 1
          [⟨S256x512, transpose S256x512 [1, 0] (extractStridedSlice S512x256 ![512, 0] (W (Proc.devRef .tc main_arg1)) slices_S1536x256_S512x256_512_0) transposes_S512x256_S256x512_1_0⟩,
           ⟨S256x512, transpose S256x512 [1, 0] (extractStridedSlice S512x256 ![1024, 0] (W (Proc.devRef .tc main_arg1)) slices_S1536x256_S512x256_1024_0) transposes_S512x256_S256x512_1_0⟩]
          concatenates_S256x512_S256x512_S256x1024_d1 := by
  dsimp only [hostOps0]; after_results

/-- The transposed output weights as a term of the output weights. -/
theorem host0_v7_eq :
    (StableHlo.after (hostOps0 (F := Ideal)) W (Proc.devRef .tc main_v7) : S512x256.Idx → EReal)
      = transpose S512x256 [1, 0] (W (Proc.devRef .tc main_arg2)) transposes_S256x512_S512x256_1_0 := by
  dsimp only [hostOps0]; after_results

/-- A 512-row block of the weight array, transposed, at (d, j): the weight array at (off + j, d). -/
theorem slice_transpose_apply (off : ℕ) (hoff : off + 512 ≤ 1536) (x : S1536x256.Idx → EReal)
    (hs : S1536x256.Slices ![off, 0] S512x256) (d : Fin 256) (j : Fin 512) :
    transpose S256x512 [1, 0] (extractStridedSlice S512x256 ![off, 0] x hs) transposes_S512x256_S256x512_1_0 (ix2 d j)
      = x (ix2 ⟨off + j.val, by omega⟩ d) := by
  rw [transpose_ix2_apply]
  exact extractStridedSlice_apply _ x hs _ _ fun a => match a with | ⟨0, _⟩ => rfl | ⟨1, _⟩ => by simp [ix2]

theorem host0_v1_apply (d : Fin 256) (j : Fin 512) :
    (StableHlo.after (hostOps0 (F := Ideal)) W (Proc.devRef .tc main_v1) : S256x512.Idx → EReal) (ix2 d j)
      = (W (Proc.devRef .tc main_arg1) : S1536x256.Idx → EReal) (ix2 ⟨j.val, by omega⟩ d) := by
  rw [host0_v1_eq, slice_transpose_apply 0 (by omega)]
  exact congrArg _ (congrArg (fun k => ix2 k d) (Fin.ext (by simp)))

theorem host0_v7_apply (e : Fin 512) (c : Fin 256) :
    (StableHlo.after (hostOps0 (F := Ideal)) W (Proc.devRef .tc main_v7) : S512x256.Idx → EReal) (ix2 e c)
      = (W (Proc.devRef .tc main_arg2) : S256x512.Idx → EReal) (ix2 c e) := by
  rw [host0_v7_eq, transpose_ix2_apply]

theorem host0_v6_apply (d : Fin 256) (col : Fin 1024) :
    (StableHlo.after (hostOps0 (F := Ideal)) W (Proc.devRef .tc main_v6) : S256x1024.Idx → EReal) (ix2 d col)
      = (W (Proc.devRef .tc main_arg1) : S1536x256.Idx → EReal) (ix2 ⟨512 + col.val, by omega⟩ d) := by
  rw [host0_v6_eq]
  by_cases hc : col.val < 512
  · rw [concatenate_pair_apply_left (t := S256x1024) (s₁ := S256x512) (s₂ := S256x512) (1 : Fin 2) _ _ concatenates_S256x512_S256x512_S256x1024_d1 (ix2 d col) rfl (ix2 d (⟨col.val, hc⟩ : Fin 512))
      (fun b => match b with | ⟨0, _⟩ => rfl | ⟨1, _⟩ => rfl)]
    rw [slice_transpose_apply 512 (by omega)]
  · have hc' : col.val - 512 < 512 := by omega
    rw [concatenate_pair_apply_right (t := S256x1024) (s₁ := S256x512) (s₂ := S256x512) (1 : Fin 2) _ _ concatenates_S256x512_S256x512_S256x1024_d1 (ix2 d col) rfl rfl (ix2 d (⟨col.val - 512, hc'⟩ : Fin 512))
      (fun b hb => match b, hb with | ⟨0, _⟩, _ => rfl | ⟨1, _⟩, hb => absurd rfl hb)
      (by show (col.val - 512) + 512 = col.val; omega)]
    rw [slice_transpose_apply 1024 (by omega)]
    exact congrArg _ (congrArg (fun k => ix2 k d) (Fin.ext (by show 1024 + (col.val - 512) = 512 + col.val; omega)))

end Cert.KernelIdeal.Hand

end
-- ==== Proof.Consts.lean ====
/-
  The two float words that carry the 1/N scaling, as the extended reals they denote: the idealized kernel multiplies
  by the word of 2^-13 on the host, the reference divides by the word of 8192; both are exact dyadics, and dividing
  by 8192 is multiplying by 1/8192 on every extended real.
-/
import Idealize.ShloMosaic.PureOps.Ideal

noncomputable section

namespace Cert.Consts

open Idealize.ShloMosaic

/-- The word of 8192.0 denotes the real 8192. -/
theorem ofBits_8192 : Ideal.ofBits .f32 0x46000000#32 = ((8192 : ℝ) : EReal) := by
  simp [Ideal.ofBits, Ideal.ieee, -EReal.coe_mul]; norm_num

/-- The word of 2^-13 denotes the real 1/8192. -/
theorem ofBits_inv8192 : Ideal.ofBits .f32 0x39000000#32 = (((1 / 8192 : ℝ)) : EReal) := by
  simp [Ideal.ofBits, Ideal.ieee, -EReal.coe_mul]; norm_num

/-- Dividing by the word of 8192 is multiplying by the word of 2^-13. -/
theorem div_8192 (x : EReal) : Ideal.div x (Ideal.ofBits .f32 0x46000000#32) = x * Ideal.ofBits .f32 0x39000000#32 := by
  rw [ofBits_8192, ofBits_inv8192, Ideal.div_coe (by norm_num : (8192 : ℝ) ≠ 0)]

/-- The word of 2^-13 is nonnegative and finite: multiplying by it distributes over every sum of extended reals. -/
theorem inv8192_nonneg : (0 : EReal) ≤ Ideal.ofBits .f32 0x39000000#32 := by
  rw [ofBits_inv8192]; exact_mod_cast (by norm_num : (0 : ℝ) ≤ 1 / 8192)
theorem inv8192_ne_top : Ideal.ofBits .f32 0x39000000#32 ≠ ⊤ := by
  rw [ofBits_inv8192]; exact EReal.coe_ne_top _

/-- A finite sum of extended reals times a nonnegative finite factor is the sum of the products. -/
theorem sum_mul_of_nonneg {ι : Type} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

end Cert.Consts

end
-- ==== Proof.Bridge.lean ====
/-
  The algebra that joins the two programs, over the extended reals, with no program in sight.

  The kernel's second launch multiplies each row of query projections (512 wide) with a 512 x 512 array that holds,
  on its eight 64 x 64 diagonal blocks, the heads' key-value products already scaled by 2^-13, and zeros elsewhere.
  A zero factor annihilates its term (0 is absorbing for the extended reals' product), so the 512-term sum collapses
  to the 64 terms of the head the column lies in; the scale is a nonnegative finite factor and so comes out of the
  sum; and multiplying by 2^-13 is dividing by 8192. That is the reference's per-head attention. Nothing here needs
  any entry to be finite.
-/
import proofs.«109764_j50680614093003_2_alg».proof.Proof.Spec
import proofs.«109764_j50680614093003_2_alg».proof.Proof.Consts
import proofs.«109764_j50680614093003_2_alg».proof.Proof.LibBlockedSum
import Idealize.ShloMosaic.Lib.ValueIdx

noncomputable section

namespace Cert.Bridge

open Idealize.ShloMosaic Idealize.ShloMosaic.ValueIdx Cert.Spec

/-- The word of 2^-13. -/
abbrev c13 : EReal := Ideal.ofBits .f32 0x39000000#32

/-- A 512-term sum taken as eight runs of 64. -/
theorem sum_512 (f : Fin 512 → EReal) :
    ∑ j : Fin 512, f j = ∑ h : Fin 8, ∑ d : Fin 64, f ⟨64 * h.val + d.val, by omega⟩ := by
  have key := BlockedSum.sum_fin_mul (M := EReal) (fun k => if hk : k < 512 then f ⟨k, hk⟩ else 0) 8 64
  have lhs : (∑ k : Fin (8 * 64), (fun k => if hk : k < 512 then f ⟨k, hk⟩ else 0) k.val) = ∑ j : Fin 512, f j :=
    Finset.sum_congr rfl fun k _ => dif_pos k.isLt
  rw [← lhs, key]
  refine Finset.sum_congr rfl fun h _ => Finset.sum_congr rfl fun d _ => ?_
  have hlt : h.val * 64 + d.val < 512 := by omega
  rw [dif_pos hlt]
  exact congrArg f (Fin.ext (by show h.val * 64 + d.val = 64 * h.val + d.val; omega))

/-- One row of query projections against one column of the scaled block-diagonal array: only the column's own head
    contributes, and the scale comes out of the sum. -/
theorem row_times_blockdiag (q : Fin 512 → EReal) (D : Fin 8 → Fin 64 → EReal) (col : Fin 512 → EReal) (e : Fin 512)
    (hcol : ∀ j : Fin 512, col j = if j.val / 64 = e.val / 64 then D ⟨j.val / 64, by omega⟩ ⟨j.val % 64, by omega⟩ * c13 else 0) :
    ∑ j : Fin 512, q j * col j
      = Ideal.div (∑ d : Fin 64, q ⟨64 * (e.val / 64) + d.val, by omega⟩ * D ⟨e.val / 64, by omega⟩ d) c8192 := by
  rw [sum_512]
  have he : e.val / 64 < 8 := by omega
  rw [Finset.sum_eq_single (⟨e.val / 64, he⟩ : Fin 8)]
  · unfold c8192
    rw [Cert.Consts.div_8192, Cert.Consts.sum_mul_of_nonneg _ _ Cert.Consts.inv8192_nonneg Cert.Consts.inv8192_ne_top]
    refine Finset.sum_congr rfl fun d _ => ?_
    rw [hcol]
    have h1 : (64 * (e.val / 64) + d.val) / 64 = e.val / 64 := by omega
    have h2 : (64 * (e.val / 64) + d.val) % 64 = d.val := by omega
    rw [if_pos (by simpa using h1), mul_assoc]
    congr 2
    · exact congrArg (fun k => D k _) (Fin.ext (by simpa using h1)) |>.trans (congrArg (D _) (Fin.ext (by simpa using h2)))
  · intro h _ hne
    refine Finset.sum_eq_zero fun d _ => ?_
    rw [hcol]
    have h1 : (64 * h.val + d.val) / 64 = h.val := by omega
    have hn : ¬ (64 * h.val + d.val) / 64 = e.val / 64 := by
      rw [h1]; intro hh; exact hne (Fin.ext hh)
    rw [if_neg (by simpa using hn), mul_zero]
  · intro hnot; exact absurd (Finset.mem_univ _) hnot

variable (x : SX.Idx → EReal) (w : SW.Idx → EReal) (wo : SO.Idx → EReal) (bo : SB.Idx → EReal)

/-- The first launch's running total after a whole batch, read through the joined transposed key and value blocks,
    is the reference's per-head key-value product. -/
theorem dots_eq (Wkv : (⟨2, ![256, 1024]⟩ : Shape).Idx → EReal)
    (hW : ∀ (k : Fin 256) (col : Fin 1024), Wkv (ix2 k col) = w (ix2 (⟨512 + col.val, by omega⟩ : Fin 1536) k))
    (b h : Fin 8) (d e : Fin 64) :
    (∑ n : Fin 8192,
        inorm (fun j' : Fin 64 => ∑ k : Fin 256, x (ix3 b n k) * Wkv (ix2 k ⟨64 * h.val + j'.val, by omega⟩)) d
          * inorm (fun j' : Fin 64 => ∑ k : Fin 256, x (ix3 b n k) * Wkv (ix2 k ⟨512 + 64 * h.val + j'.val, by omega⟩)) e)
      = dots x w b h d e := by
  unfold dots kn vn
  refine Finset.sum_congr rfl fun n _ => ?_
  have hk : (fun j' : Fin 64 => ∑ k : Fin 256, x (ix3 b n k) * Wkv (ix2 k ⟨64 * h.val + j'.val, by omega⟩)) = kh x w b h n := by
    funext j'; unfold kh proj
    refine Finset.sum_congr rfl fun k _ => ?_
    rw [hW]
    exact congrArg (fun i => x (ix3 b n k) * w (ix2 i k)) (Fin.ext (by show 512 + (64 * h.val + j'.val) = 512 + 64 * h.val + j'.val; omega))
  have hv : (fun j' : Fin 64 => ∑ k : Fin 256, x (ix3 b n k) * Wkv (ix2 k ⟨512 + 64 * h.val + j'.val, by omega⟩)) = vh x w b h n := by
    funext j'; unfold vh proj
    refine Finset.sum_congr rfl fun k _ => ?_
    rw [hW]
    exact congrArg (fun i => x (ix3 b n k) * w (ix2 i k)) (Fin.ext (by show 512 + (512 + 64 * h.val + j'.val) = 1024 + 64 * h.val + j'.val; omega))
  rw [hk, hv]

/-- The second launch's result entry, from the transposed query block, the scaled block-diagonal array and the
    transposed output weights, is the reference's. -/
theorem out_eq (Wq : (⟨2, ![256, 512]⟩ : Shape).Idx → EReal) (BD : (⟨3, ![8, 512, 512]⟩ : Shape).Idx → EReal)
    (Wo : (⟨2, ![512, 256]⟩ : Shape).Idx → EReal)
    (hWq : ∀ (d : Fin 256) (j : Fin 512), Wq (ix2 d j) = w (ix2 (⟨j.val, by omega⟩ : Fin 1536) d))
    (hBD : ∀ (b : Fin 8) (j e : Fin 512), BD (ix3 b j e)
      = if j.val / 64 = e.val / 64 then dots x w b ⟨j.val / 64, by omega⟩ ⟨j.val % 64, by omega⟩ ⟨e.val % 64, by omega⟩ * c13 else 0)
    (hWo : ∀ (e : Fin 512) (c : Fin 256), Wo (ix2 e c) = wo (ix2 c e))
    (b : Fin 8) (n : Fin 8192) (c : Fin 256) :
    (∑ e : Fin 512, (∑ j : Fin 512, (∑ d : Fin 256, x (ix3 b n d) * Wq (ix2 d j)) * BD (ix3 b j e)) * Wo (ix2 e c)) + bo (ix1 c)
      = out x w wo bo b n c := by
  unfold out
  congr 1
  refine Finset.sum_congr rfl fun e _ => ?_
  rw [hWo]
  congr 1
  rw [row_times_blockdiag (fun j => ∑ d : Fin 256, x (ix3 b n d) * Wq (ix2 d j))
    (fun h' d' => dots x w b h' d' ⟨e.val % 64, by omega⟩) (fun j => BD (ix3 b j e)) e (fun j => hBD b j e)]
  unfold att
  congr 1
  refine Finset.sum_congr rfl fun d _ => ?_
  congr 1
  unfold qh proj
  refine Finset.sum_congr rfl fun k _ => ?_
  rw [hWq]

end Cert.Bridge

end
-- ==== Proof.KI.Final.lean ====
/-
  The idealized kernel's result array is the specification's function of the four argument arrays.

  The second launch's write-backs leave, at (b, n, c), the sum over the 512 columns e of (the row of query projections
  against column e of the scaled block-diagonal array) times the transposed output weights, plus the bias. The
  transposed query block and output weights are the first host stretch's readings of the weight arrays; the
  block-diagonal array is the second host stretch's reading of the first launch's result, and that result is the
  keys' and values' normalised product summed over the whole sequence, read through the joined transposed key and
  value blocks. The arguments themselves reach both launches unchanged.
-/
import proofs.«109764_j50680614093003_2_alg».proof.Proof.KI.Final0
import proofs.«109764_j50680614093003_2_alg».proof.Proof.KI.Host1
import proofs.«109764_j50680614093003_2_alg».proof.Proof.KI.Host1Keep
import proofs.«109764_j50680614093003_2_alg».proof.Proof.KI.Run
import proofs.«109764_j50680614093003_2_alg».proof.Proof.KI.Value1
import proofs.«109764_j50680614093003_2_alg».proof.Proof.KI.Host0
import proofs.«109764_j50680614093003_2_alg».proof.Proof.Bridge

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The input array reaches the first launch as launched. -/
theorem V1_arg0 (c : Dev nD) : V1 m ρ c main_arg0 = m ((c : Thread nD τ).loc main_arg0) :=
  (W1_main_arg0 m ρ c).trans rfl
/-- The input array and the bias reach the second launch as launched. -/
theorem V3_arg0 (c : Dev nD) : V3 m ρ c main_arg0 = m ((c : Thread nD τ).loc main_arg0) :=
  calc W3 m ρ c (Proc.devRef .tc main_arg0)
    _ = W2 m ρ c (Proc.devRef .tc main_arg0) := W3_main_arg0 m ρ c
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_main_arg0 m ρ c
    _ = m ((c : Thread nD τ).loc main_arg0) := rfl
theorem V3_arg3 (c : Dev nD) : V3 m ρ c main_arg3 = m ((c : Thread nD τ).loc main_arg3) :=
  calc W3 m ρ c (Proc.devRef .tc main_arg3)
    _ = W2 m ρ c (Proc.devRef .tc main_arg3) := W3_main_arg3 m ρ c
    _ = W1 m ρ c (Proc.devRef .tc main_arg3) := W2_of_ne m ρ c main_arg3 (by decide)
    _ = W0 m ρ c (Proc.devRef .tc main_arg3) := W1_main_arg3 m ρ c
    _ = m ((c : Thread nD τ).loc main_arg3) := rfl

/-- The transposed query block the second launch finds. -/
theorem V3_v1 (c : Dev nD) (d : Fin 256) (j : Fin 512) :
    (V3 m ρ c main_v1 : S256x512.Idx → EReal) (ix2 d j)
      = (m ((c : Thread nD τ).loc main_arg1) : S1536x256.Idx → EReal) (ix2 (⟨j.val, by omega⟩ : Fin 1536) d) := by
  have e : V3 m ρ c main_v1 = W1 m ρ c (Proc.devRef .tc main_v1) :=
    (host1_keep_v1 (W2 m ρ c)).trans (W2_of_ne m ρ c main_v1 (by decide))
  rw [e]
  exact host0_v1_apply (W0 m ρ c) d j

/-- The transposed output weights the second launch finds. -/
theorem V3_v7 (c : Dev nD) (e : Fin 512) (k : Fin 256) :
    (V3 m ρ c main_v7 : S512x256.Idx → EReal) (ix2 e k)
      = (m ((c : Thread nD τ).loc main_arg2) : S256x512.Idx → EReal) (ix2 k e) := by
  have h : V3 m ρ c main_v7 = W1 m ρ c (Proc.devRef .tc main_v7) :=
    (host1_keep_v7 (W2 m ρ c)).trans (W2_of_ne m ρ c main_v7 (by decide))
  rw [h]
  exact host0_v7_apply (W0 m ρ c) e k

/-- The first launch's result array: the reference's per-head key-value products. -/
theorem V2_v8 (c : Dev nD) (b h : Fin 8) (d e : Fin 64) :
    (W2 m ρ c (Proc.devRef .tc main_v8) : S8x8x64x64.Idx → EReal) (ix4 b h d e)
      = Cert.Spec.dots (m ((c : Thread nD τ).loc main_arg0)) (m ((c : Thread nD τ).loc main_arg1)) b h d e := by
  have h2 : W2 m ρ c (Proc.devRef .tc main_v8) = (dat0 (V1 m ρ) c).arrAt 2 cfg0.N := W2_arr m ρ c 2
  rw [h2, final0 (V1 m ρ) c, V1_arg0]
  exact Cert.Bridge.dots_eq _ _ (V1 m ρ c main_v6) (fun k col => host0_v6_apply (W0 m ρ c) k col) b h d e

/-- The scaled block-diagonal array the second launch finds. -/
theorem V3_v74 (c : Dev nD) (b : Fin 8) (j e : Fin 512) :
    (V3 m ρ c main_v74 : S8x512x512.Idx → EReal) (ix3 b j e)
      = if j.val / 64 = e.val / 64 then
          Cert.Spec.dots (m ((c : Thread nD τ).loc main_arg0)) (m ((c : Thread nD τ).loc main_arg1)) b ⟨j.val / 64, by omega⟩ ⟨j.val % 64, by omega⟩ ⟨e.val % 64, by omega⟩ * Cert.Bridge.c13
        else 0 := by
  refine (bd_apply (W2 m ρ c) (W2 m ρ c (Proc.devRef .tc main_v8)) rfl b j e).trans ?_
  by_cases hje : j.val / 64 = e.val / 64
  · rw [if_pos hje, if_pos hje, V2_v8]
  · rw [if_neg hje, if_neg hje]

/-- THE KERNEL'S VALUE: what the second launch's write-backs leave is the specification's function of the arguments. -/
theorem kernel_value (c : Dev nD) :
    (dat1 (V3 m ρ) c).arrAt 5 cfg1.N
      = Cert.Spec.G (m ((c : Thread nD τ).loc main_arg0)) (m ((c : Thread nD τ).loc main_arg1))
          (m ((c : Thread nD τ).loc main_arg2)) (m ((c : Thread nD τ).loc main_arg3)) := by
  rw [final1 (V3 m ρ) c, V3_arg0, V3_arg3]
  funext i
  exact Cert.Bridge.out_eq _ _ _ _ (V3 m ρ c main_v1) (V3 m ρ c main_v74) (V3 m ρ c main_v7)
    (V3_v1 m ρ c) (V3_v74 m ρ c) (V3_v7 m ρ c) (i 0) (i 1) (i 2)

end Cert.KernelIdeal.Hand

end
-- ==== Proof.Ref.Proj.lean ====
/-
  The reference's projection and head views, read by coordinates.

  The fused projection `einsum('bnd,ed->bne')` at `[b, n, e]` is `Σ_d x[b, n, d] · w[e, d]`; each of the three
  512-column slices, reshaped to `[b, n, h, j]` (column `64·h + j`, row-major) and transposed to `[b, h, n, j]`, reads
  the projection at column `offset + 64·h + j`.
-/
import proofs.«109764_j50680614093003_2_alg».proof.Proof.Gen.ReferenceIdeal.Read
import proofs.«109764_j50680614093003_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x : FVec Ideal S8x8192x256 .f32) (w : FVec Ideal S1536x256 .f32)

/-- The projection at `[b, n, e]`. -/
theorem proj_eq (b : Fin 8) (n : Fin 8192) (e : Fin 1536) :
    val_main_v0 (F := Ideal) x w (ix3 b n e) = Spec.proj x w b n e := by
  have el : ∀ k : Fin 256, lidx_main_v0 (ix3 b n e) k = ix3 b n k := fun k => funext fun a => Fin.ext (by
    match a with | ⟨0, _⟩ => rfl | ⟨1, _⟩ => rfl | ⟨2, _⟩ => rfl)
  have er : ∀ k : Fin 256, ridx_main_v0 (ix3 b n e) k = ix2 e k := fun k => funext fun a => Fin.ext (by
    match a with | ⟨0, _⟩ => rfl | ⟨1, _⟩ => rfl)
  rw [val_main_v0_apply]
  simp only [el, er, Spec.proj]

/-- The queries of head `h`: the transposed, reshaped slice read at `[b, h, n, j]` is the projection's column `64·h + j`. -/
theorem q_eq (b h : Fin 8) (n : Fin 8192) (j : Fin 64) :
    val_main_v5 (F := Ideal) x w (ix4 b h n j) = Spec.qh x w b h n j := by
  have hb := b.isLt; have hh := h.isLt; have hn := n.isLt; have hj := j.isLt
  have eT : idx_main_v5 (ix4 b h n j) = ix4 b n h j := funext fun a => Fin.ext (by
    match a with | ⟨0, _⟩ => rfl | ⟨1, _⟩ => rfl | ⟨2, _⟩ => rfl | ⟨3, _⟩ => rfl)
  have eR : idx_main_v4 (ix4 b n h j) = ix3 b n (⟨64 * h.val + j.val, by omega⟩ : Fin 512) := funext fun a => Fin.ext (by
    match a with
    | ⟨0, _⟩ => show (((b.val * 8192 + n.val) * 8 + h.val) * 64 + j.val) / 4194304 = b.val; omega
    | ⟨1, _⟩ => show (((b.val * 8192 + n.val) * 8 + h.val) * 64 + j.val) / 512 % 8192 = n.val; omega
    | ⟨2, _⟩ => show (((b.val * 8192 + n.val) * 8 + h.val) * 64 + j.val) % 512 = 64 * h.val + j.val; omega)
  have eS : idx_main_v1 (ix3 b n (⟨64 * h.val + j.val, by omega⟩ : Fin 512)) = ix3 b n (⟨64 * h.val + j.val, by omega⟩ : Fin 1536) := funext fun a => Fin.ext (by
    match a with | ⟨0, _⟩ => rfl | ⟨1, _⟩ => rfl | ⟨2, _⟩ => rfl)
  rw [val_main_v5_apply, eT, val_main_v4_apply, eR, val_main_v1_apply, eS, proj_eq]
  rfl

/-- The keys of head `h`: the transposed, reshaped slice read at `[b, h, n, j]` is the projection's column `512 + 64·h + j`. -/
theorem k_eq (b h : Fin 8) (n : Fin 8192) (j : Fin 64) :
    val_main_v7 (F := Ideal) x w (ix4 b h n j) = Spec.kh x w b h n j := by
  have hb := b.isLt; have hh := h.isLt; have hn := n.isLt; have hj := j.isLt
  have eT : idx_main_v7 (ix4 b h n j) = ix4 b n h j := funext fun a => Fin.ext (by
    match a with | ⟨0, _⟩ => rfl | ⟨1, _⟩ => rfl | ⟨2, _⟩ => rfl | ⟨3, _⟩ => rfl)
  have eR : idx_main_v6 (ix4 b n h j) = ix3 b n (⟨64 * h.val + j.val, by omega⟩ : Fin 512) := funext fun a => Fin.ext (by
    match a with
    | ⟨0, _⟩ => show (((b.val * 8192 + n.val) * 8 + h.val) * 64 + j.val) / 4194304 = b.val; omega
    | ⟨1, _⟩ => show (((b.val * 8192 + n.val) * 8 + h.val) * 64 + j.val) / 512 % 8192 = n.val; omega
    | ⟨2, _⟩ => show (((b.val * 8192 + n.val) * 8 + h.val) * 64 + j.val) % 512 = 64 * h.val + j.val; omega)
  have eS : idx_main_v2 (ix3 b n (⟨64 * h.val + j.val, by omega⟩ : Fin 512)) = ix3 b n (⟨512 + 64 * h.val + j.val, by omega⟩ : Fin 1536) := funext fun a => Fin.ext (by
    match a with
    | ⟨0, _⟩ => rfl
    | ⟨1, _⟩ => rfl
    | ⟨2, _⟩ => show 512 + (64 * h.val + j.val) = 512 + 64 * h.val + j.val; omega)
  rw [val_main_v7_apply, eT, val_main_v6_apply, eR, val_main_v2_apply, eS, proj_eq]
  rfl

/-- The values of head `h`: the transposed, reshaped slice read at `[b, h, n, j]` is the projection's column `1024 + 64·h + j`. -/
theorem v_eq (b h : Fin 8) (n : Fin 8192) (j : Fin 64) :
    val_main_v9 (F := Ideal) x w (ix4 b h n j) = Spec.vh x w b h n j := by
  have hb := b.isLt; have hh := h.isLt; have hn := n.isLt; have hj := j.isLt
  have eT : idx_main_v9 (ix4 b h n j) = ix4 b n h j := funext fun a => Fin.ext (by
    match a with | ⟨0, _⟩ => rfl | ⟨1, _⟩ => rfl | ⟨2, _⟩ => rfl | ⟨3, _⟩ => rfl)
  have eR : idx_main_v8 (ix4 b n h j) = ix3 b n (⟨64 * h.val + j.val, by omega⟩ : Fin 512) := funext fun a => Fin.ext (by
    match a with
    | ⟨0, _⟩ => show (((b.val * 8192 + n.val) * 8 + h.val) * 64 + j.val) / 4194304 = b.val; omega
    | ⟨1, _⟩ => show (((b.val * 8192 + n.val) * 8 + h.val) * 64 + j.val) / 512 % 8192 = n.val; omega
    | ⟨2, _⟩ => show (((b.val * 8192 + n.val) * 8 + h.val) * 64 + j.val) % 512 = 64 * h.val + j.val; omega)
  have eS : idx_main_v3 (ix3 b n (⟨64 * h.val + j.val, by omega⟩ : Fin 512)) = ix3 b n (⟨1024 + 64 * h.val + j.val, by omega⟩ : Fin 1536) := funext fun a => Fin.ext (by
    match a with
    | ⟨0, _⟩ => rfl
    | ⟨1, _⟩ => rfl
    | ⟨2, _⟩ => show 1024 + (64 * h.val + j.val) = 1024 + 64 * h.val + j.val; omega)
  rw [val_main_v9_apply, eT, val_main_v8_apply, eR, val_main_v3_apply, eS, proj_eq]
  rfl

end Cert.ReferenceIdeal.RefValue

end
-- ==== Proof.Ref.Norm.lean ====
/-
  The reference's instance normalisation of the keys and of the values, read by coordinates.

  For the 64 columns `f` of one position of one head: the mean is `(0 + Σ_j f j) / 64`, the variance
  `(0 + Σ_j (f j − mean)²) / 64`, the result `(f j − mean) · rsqrt (variance + ε)`; the zero the sums start from is the
  extended real `0`, so it drops.
-/
import proofs.«109764_j50680614093003_2_alg».proof.Proof.Ref.Proj

noncomputable section

open scoped BigOperators

namespace Cert.ReferenceIdeal.RefValue

open Cert.ReferenceIdeal Cert.ReferenceIdeal.Gen Cert.ReferenceIdeal.Read Idealize.ShloMosaic Idealize.ShloMosaic.ValueIdx

variable (x : FVec Ideal S8x8192x256 .f32) (w : FVec Ideal S1536x256 .f32)

/-! ### The keys -/

/-- The mean over one head's 64 columns, as the reference computes it (sum from zero, divided by 64). -/
theorem mean_k (b h : Fin 8) (n : Fin 8192) :
    val_main_v13 (F := Ideal) x w (ix4 b h n (0 : Fin 1)) = Spec.mean (Spec.kh x w b h n) := by
  have eB : idx_main_v11 (ix4 b h n (0 : Fin 1)) = ix3 b h n := funext fun a => Fin.ext (by
    match a with | ⟨0, _⟩ => rfl | ⟨1, _⟩ => rfl | ⟨2, _⟩ => rfl)
  have eS : ∀ k : Fin 64, idx_main_v10 (ix3 b h n) k = ix4 b h n k := fun k => funext fun a => Fin.ext (by
    match a with | ⟨0, _⟩ => rfl | ⟨1, _⟩ => rfl | ⟨2, _⟩ => rfl | ⟨3, _⟩ => rfl)
  rw [val_main_v13_apply, val_main_v11_apply, eB, val_main_v10_apply, val_main_v12_apply, val_main_cst_0_apply, val_main_cst_apply]
  simp only [eS, k_eq x w, Ideal.hostDivf_def, Ideal.ofBits_def, Ideal.ofBits_zero_f32, zero_add, Spec.mean, Spec.c64]

/-- The centred value the variance squares. -/
theorem cenA_k (b h : Fin 8) (n : Fin 8192) (j : Fin 64) :
    val_main_v15 (F := Ideal) x w (ix4 b h n j) = Spec.kh x w b h n j - Spec.mean (Spec.kh x w b h n) := by
  have eB : idx_main_v14 (ix4 b h n j) = ix4 b h n (0 : Fin 1) := funext fun a => Fin.ext (by
    match a with | ⟨0, _⟩ => rfl | ⟨1, _⟩ => rfl | ⟨2, _⟩ => rfl | ⟨3, _⟩ => rfl)
  rw [val_main_v15_apply, val_main_v14_apply, eB, mean_k, k_eq]
  rfl

/-- The centred value the result scales (the same difference, computed a second time). -/
theorem cenB_k (b h : Fin 8) (n : Fin 8192) (j : Fin 64) :
    val_main_v22 (F := Ideal) x w (ix4 b h n j) = Spec.kh x w b h n j - Spec.mean (Spec.kh x w b h n) := by
  have eB : idx_main_v21 (ix4 b h n j) = ix4 b h n (0 : Fin 1) := funext fun a => Fin.ext (by
    match a with | ⟨0, _⟩ => rfl | ⟨1, _⟩ => rfl | ⟨2, _⟩ => rfl | ⟨3, _⟩ => rfl)
  rw [val_main_v22_apply, val_main_v21_apply, eB, mean_k, k_eq]
  rfl

/-- The biased variance: the mean of the squared centred values. -/
theorem var_k (b h : Fin 8) (n : Fin 8192) :
    val_main_v20 (F := Ideal) x w (ix4 b h n (0 : Fin 1))
      = Ideal.div (∑ k : Fin 64, (Spec.kh x w b h n k - Spec.mean (Spec.kh x w b h n)) * (Spec.kh x w b h n k - Spec.mean (Spec.kh x w b h n))) Spec.c64 := by
  have eB : idx_main_v18 (ix4 b h n (0 : Fin 1)) = ix3 b h n := funext fun a => Fin.ext (by
    match a with | ⟨0, _⟩ => rfl | ⟨1, _⟩ => rfl | ⟨2, _⟩ => rfl)
  have eS : ∀ k : Fin 64, idx_main_v17 (ix3 b h n) k = ix4 b h n k := fun k => funext fun a => Fin.ext (by
    match a with | ⟨0, _⟩ => rfl | ⟨1, _⟩ => rfl | ⟨2, _⟩ => rfl | ⟨3, _⟩ => rfl)
  rw [val_main_v20_apply, val_main_v18_apply, eB, val_main_v17_apply, val_main_v19_apply, val_main_cst_2_apply, val_main_cst_1_apply]
  simp only [eS, val_main_v16_apply, cenA_k x w, Ideal.mulf_def, Ideal.hostDivf_def, Ideal.ofBits_def, Ideal.ofBits_zero_f32, zero_add, Spec.c64]

/-- The normalised keys at `[b, h, n, j]`. -/
theorem kn_eq (b h : Fin 8) (n : Fin 8192) (j : Fin 64) :
    val_main_v27 (F := Ideal) x w (ix4 b h n j) = Spec.kn x w b h n j := by
  have eB : idx_main_v26 (ix4 b h n j) = ix4 b h n (0 : Fin 1) := funext fun a => Fin.ext (by
    match a with | ⟨0, _⟩ => rfl | ⟨1, _⟩ => rfl | ⟨2, _⟩ => rfl | ⟨3, _⟩ => rfl)
  rw [val_main_v27_apply, cenB_k, val_main_v26_apply, eB, val_main_v25_apply, val_main_v24_apply, var_k,
    val_main_v23_apply, val_main_cst_3_apply]
  simp only [Ideal.mulf_def, Ideal.addf_def, Ideal.hostUnary_rsqrt_def, Ideal.ofBits_def, Spec.kn, Spec.inorm, Spec.eps]

/-! ### The values -/

/-- The mean over one head's 64 columns, as the reference computes it (sum from zero, divided by 64). -/
theorem mean_v (b h : Fin 8) (n : Fin 8192) :
    val_main_v31 (F := Ideal) x w (ix4 b h n (0 : Fin 1)) = Spec.mean (Spec.vh x w b h n) := by
  have eB : idx_main_v29 (ix4 b h n (0 : Fin 1)) = ix3 b h n := funext fun a => Fin.ext (by
    match a with | ⟨0, _⟩ => rfl | ⟨1, _⟩ => rfl | ⟨2, _⟩ => rfl)
  have eS : ∀ k : Fin 64, idx_main_v28 (ix3 b h n) k = ix4 b h n k := fun k => funext fun a => Fin.ext (by
    match a with | ⟨0, _⟩ => rfl | ⟨1, _⟩ => rfl | ⟨2, _⟩ => rfl | ⟨3, _⟩ => rfl)
  rw [val_main_v31_apply, val_main_v29_apply, eB, val_main_v28_apply, val_main_v30_apply, val_main_cst_5_apply, val_main_cst_4_apply]
  simp only [eS, v_eq x w, Ideal.hostDivf_def, Ideal.ofBits_def, Ideal.ofBits_zero_f32, zero_add, Spec.mean, Spec.c64]

/-- The centred value the variance squares. -/
theorem cenA_v (b h : Fin 8) (n : Fin 8192) (j : Fin 64) :
    val_main_v33 (F := Ideal) x w (ix4 b h n j) = Spec.vh x w b h n j - Spec.mean (Spec.vh x w b h n) := by
  have eB : idx_main_v32 (ix4 b h n j) = ix4 b h n (0 : Fin 1) := funext fun a => Fin.ext (by
    match a with | ⟨0, _⟩ => rfl | ⟨1, _⟩ => rfl | ⟨2, _⟩ => rfl | ⟨3, _⟩ => rfl)
  rw [val_main_v33_apply, val_main_v32_apply, eB, mean_v, v_eq]
  rfl

/-- The centred value the result scales (the same difference, computed a second time). -/
theorem cenB_v (b h : Fin 8) (n : Fin 8192) (j : Fin 64) :
    val_main_v40 (F := Ideal) x w (ix4 b h n j) = Spec.vh x w b h n j - Spec.mean (Spec.vh x w b h n) := by
  have eB : idx_main_v39 (ix4 b h n j) = ix4 b h n (0 : Fin 1) := funext fun a => Fin.ext (by
    match a with | ⟨0, _⟩ => rfl | ⟨1, _⟩ => rfl | ⟨2, _⟩ => rfl | ⟨3, _⟩ => rfl)
  rw [val_main_v40_apply, val_main_v39_apply, eB, mean_v, v_eq]
  rfl

/-- The biased variance: the mean of the squared centred values. -/
theorem var_v (b h : Fin 8) (n : Fin 8192) :
    val_main_v38 (F := Ideal) x w (ix4 b h n (0 : Fin 1))
      = Ideal.div (∑ k : Fin 64, (Spec.vh x w b h n k - Spec.mean (Spec.vh x w b h n)) * (Spec.vh x w b h n k - Spec.mean (Spec.vh x w b h n))) Spec.c64 := by
  have eB : idx_main_v36 (ix4 b h n (0 : Fin 1)) = ix3 b h n := funext fun a => Fin.ext (by
    match a with | ⟨0, _⟩ => rfl | ⟨1, _⟩ => rfl | ⟨2, _⟩ => rfl)
  have eS : ∀ k : Fin 64, idx_main_v35 (ix3 b h n) k = ix4 b h n k := fun k => funext fun a => Fin.ext (by
    match a with | ⟨0, _⟩ => rfl | ⟨1, _⟩ => rfl | ⟨2, _⟩ => rfl | ⟨3, _⟩ => rfl)
  rw [val_main_v38_apply, val_main_v36_apply, eB, val_main_v35_apply, val_main_v37_apply, val_main_cst_7_apply, val_main_cst_6_apply]
  simp only [eS, val_main_v34_apply, cenA_v x w, Ideal.mulf_def, Ideal.hostDivf_def, Ideal.ofBits_def, Ideal.ofBits_zero_f32, zero_add, Spec.c64]

/-- The normalised values at `[b, h, n, j]`. -/
theorem vn_eq (b h : Fin 8) (n : Fin 8192) (j : Fin 64) :
    val_main_v45 (F := Ideal) x w (ix4 b h n j) = Spec.vn x w b h n j := by
  have eB : idx_main_v44 (ix4 b h n j) = ix4 b h n (0 : Fin 1) := funext fun a => Fin.ext (by
    match a with | ⟨0, _⟩ => rfl | ⟨1, _⟩ => rfl | ⟨2, _⟩ => rfl | ⟨3, _⟩ => rfl)
  rw [val_main_v45_apply, cenB_v, val_main_v44_apply, eB, val_main_v43_apply, val_main_v42_apply, var_v,
    val_main_v41_apply, val_main_cst_8_apply]
  simp only [Ideal.mulf_def, Ideal.addf_def, Ideal.hostUnary_rsqrt_def, Ideal.ofBits_def, Spec.vn, Spec.inorm, Spec.eps]

end Cert.ReferenceIdeal.RefValue

end
-- ==== Proof.Ref.Attn.lean ====
/-
  The reference's two attention contractions, read by coordinates.

  `dots[b, h, d, e] = Σ_n kn[b, h, n, d] · vn[b, h, n, e]` (the sequence axis contracted, the heads batched), and
  `att[b, h, n, e] = (Σ_d q[b, h, n, d] · dots[b, h, d, e]) / 8192`.
-/
import proofs.«109764_j50680614093003_2_alg».proof.Proof.Ref.Norm

noncomputable section

open scoped BigOperators

namespace Cert.ReferenceIdeal.RefValue

open Cert.ReferenceIdeal Cert.ReferenceIdeal.Gen Cert.ReferenceIdeal.Read Idealize.ShloMosaic Idealize.ShloMosaic.ValueIdx

variable (x : FVec Ideal S8x8192x256 .f32) (w : FVec Ideal S1536x256 .f32)

/-- Keyᵀ · value at `[b, h, d, e]`. -/
theorem dots_eq (b h : Fin 8) (d e : Fin 64) :
    val_main_v46 (F := Ideal) x w (ix4 b h d e) = Spec.dots x w b h d e := by
  have el : ∀ k : Fin 8192, lidx_main_v46 (ix4 b h d e) k = ix4 b h k d := fun k => funext fun a => Fin.ext (by
    match a with | ⟨0, _⟩ => rfl | ⟨1, _⟩ => rfl | ⟨2, _⟩ => rfl | ⟨3, _⟩ => rfl)
  have er : ∀ k : Fin 8192, ridx_main_v46 (ix4 b h d e) k = ix4 b h k e := fun k => funext fun a => Fin.ext (by
    match a with | ⟨0, _⟩ => rfl | ⟨1, _⟩ => rfl | ⟨2, _⟩ => rfl | ⟨3, _⟩ => rfl)
  rw [val_main_v46_apply]
  simp only [el, er, kn_eq x w, vn_eq x w, Spec.dots]

/-- Query · dots, scaled by the sequence length, at `[b, h, n, e]`. -/
theorem att_eq (b h : Fin 8) (n : Fin 8192) (e : Fin 64) :
    val_main_v49 (F := Ideal) x w (ix4 b h n e) = Spec.att x w b h n e := by
  have el : ∀ k : Fin 64, lidx_main_v47 (ix4 b h n e) k = ix4 b h n k := fun k => funext fun a => Fin.ext (by
    match a with | ⟨0, _⟩ => rfl | ⟨1, _⟩ => rfl | ⟨2, _⟩ => rfl | ⟨3, _⟩ => rfl)
  have er : ∀ k : Fin 64, ridx_main_v47 (ix4 b h n e) k = ix4 b h k e := fun k => funext fun a => Fin.ext (by
    match a with | ⟨0, _⟩ => rfl | ⟨1, _⟩ => rfl | ⟨2, _⟩ => rfl | ⟨3, _⟩ => rfl)
  rw [val_main_v49_apply, val_main_v47_apply, val_main_v48_apply, val_main_cst_9_apply]
  simp only [el, er, q_eq x w, dots_eq x w, Ideal.hostDivf_def, Ideal.ofBits_def, Spec.att, Spec.c8192]

end Cert.ReferenceIdeal.RefValue

end
-- ==== Proof.RefValue.lean ====
/-
  The reference's value: what its run leaves in its result array, read index by index, is the specification `Spec.G` of
  its four argument arrays.

  The stages (Ref/Proj, Ref/Norm, Ref/Attn) read the projection, the head views, the two instance normalisations and the
  two attention contractions by coordinates; here the output projection over the 512 head-major columns — column `e` is
  head `e / 64`, column-in-head `e % 64`, by the row-major reshape of `[b, n, h, j]` — and the bias, then the whole
  array, then the run with its result stated as `Spec.G`.
-/
import proofs.«109764_j50680614093003_2_alg».proof.Proof.Gen.ReferenceIdeal.Read
import proofs.«109764_j50680614093003_2_alg».proof.Proof.Gen.Pre_finite_inputs
import proofs.«109764_j50680614093003_2_alg».proof.Proof.Ref.Attn
import proofs.«109764_j50680614093003_2_alg».proof.Defs

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.ValueIdx

variable (x : FVec Ideal S8x8192x256 .f32) (w : FVec Ideal S1536x256 .f32) (wo : FVec Ideal S256x512 .f32) (bo : FVec Ideal S256 .f32)

/-- The result at `[b, n, c]`. -/
theorem out_eq (b : Fin 8) (n : Fin 8192) (c : Fin 256) :
    val_main_v55 (F := Ideal) x w wo bo (ix3 b n c) = Spec.out x w wo bo b n c := by
  have hb := b.isLt; have hn := n.isLt
  have el : ∀ k : Fin 512, lidx_main_v52 (ix3 b n c) k = ix3 b n k := fun k => funext fun a => Fin.ext (by
    match a with | ⟨0, _⟩ => rfl | ⟨1, _⟩ => rfl | ⟨2, _⟩ => rfl)
  have er : ∀ k : Fin 512, ridx_main_v52 (ix3 b n c) k = ix2 c k := fun k => funext fun a => Fin.ext (by
    match a with | ⟨0, _⟩ => rfl | ⟨1, _⟩ => rfl)
  have e51 : ∀ k : Fin 512, idx_main_v51 (ix3 b n k)
      = ix4 b n (⟨k.val / 64, by omega⟩ : Fin 8) (⟨k.val % 64, by omega⟩ : Fin 64) := fun k => funext fun a => Fin.ext (by
    have hk := k.isLt
    match a with
    | ⟨0, _⟩ => show ((b.val * 8192 + n.val) * 512 + k.val) / 4194304 = b.val; omega
    | ⟨1, _⟩ => show ((b.val * 8192 + n.val) * 512 + k.val) / 512 % 8192 = n.val; omega
    | ⟨2, _⟩ => show ((b.val * 8192 + n.val) * 512 + k.val) / 64 % 8 = k.val / 64; omega
    | ⟨3, _⟩ => show ((b.val * 8192 + n.val) * 512 + k.val) % 64 = k.val % 64; omega)
  have e50 : ∀ (h : Fin 8) (j : Fin 64), idx_main_v50 (ix4 b n h j) = ix4 b h n j := fun h j => funext fun a => Fin.ext (by
    match a with | ⟨0, _⟩ => rfl | ⟨1, _⟩ => rfl | ⟨2, _⟩ => rfl | ⟨3, _⟩ => rfl)
  have e54 : idx_main_v53 (idx_main_v54 (ix3 b n c)) = ix1 c := funext fun a => Fin.ext (by
    match a with | ⟨0, _⟩ => rfl)
  rw [val_main_v55_apply, val_main_v52_apply, val_main_v54_apply, val_main_v53_apply, e54]
  simp only [el, er, val_main_v51_apply, e51, val_main_v50_apply, e50, att_eq x w, Ideal.addf_def, Spec.out]

/-- The reference's result array is the specification of its arguments. -/
theorem ref_eq : val_main_v55 (F := Ideal) x w wo bo = Spec.G x w wo bo := by
  funext i
  obtain ⟨b, n, c, rfl⟩ : ∃ b n c, i = ix3 b n c := ⟨i 0, i 1, i 2, eq_ix3 i⟩
  exact out_eq x w wo bo b n c

/-- The reference's run, its result stated as the specification of the launch contents of its arguments. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
        = Spec.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans ((val_main_v55_eq m c).trans (ref_eq _ _ _ _)), (h c).2⟩)
    (Cert.ReferenceIdeal.Value.run (F := Ideal) m ρ)

/-- The reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The kernel computes linear attention with instance-normalised keys and values in two launches. The first walks each
  batch's sequence in eight tiles of 1024 rows; per tile it projects the rows onto the keys' and values' 512 columns,
  normalises every 64-column head slice row by row, multiplies the normalised keys (transposed) with the normalised
  values as one 512 x 512 product, keeps the eight 64 x 64 diagonal blocks and adds them to a running total, which it
  writes out after the last tile. Between the launches the host scales the total by 2^-13 and spreads its eight blocks
  over the diagonal of a 512 x 512 array of zeros. The second launch projects the queries, multiplies them with that
  array, and applies the output projection and the bias.

  On the extended reals this is the reference's function: a sum taken tile by tile is the whole sum; the off-diagonal
  zeros annihilate their terms, leaving each head's own 64 terms; the scale 2^-13 is a nonnegative finite factor, so
  it comes out of the sum, and multiplying by it is dividing by 8192. None of these steps needs an entry to be
  finite, so the precondition is never opened.

  Each kernel program runs to the end with its argument arrays unchanged: two launches among two stretches of host
  operations, the first launch keeping its running total in a scratch buffer whose contents the launch's invariant
  names after every grid point. The reference's run is its host operations composed.
-/
import proofs.«109764_j50680614093003_2_alg».proof.Defs
import proofs.«109764_j50680614093003_2_alg».proof.Proof.Gen.Kernel
import proofs.«109764_j50680614093003_2_alg».proof.Proof.Gen.KernelIdeal
import proofs.«109764_j50680614093003_2_alg».proof.Proof.Gen.ReferenceIdeal
import proofs.«109764_j50680614093003_2_alg».proof.Proof.Gen.Pre_finite_inputs
import proofs.«109764_j50680614093003_2_alg».proof.Proof.K.Run
import proofs.«109764_j50680614093003_2_alg».proof.Proof.KI.Final
import proofs.«109764_j50680614093003_2_alg».proof.Proof.RefValue

noncomputable section

namespace Cert.Proof

open Idealize.ShloMosaic Idealize.SL.Sem

/-- The word-level kernel runs and leaves its arguments unchanged. -/
theorem frame_k : Cert.frame_Kernel := fun m ρ _ =>
  (θ_run Cert.Kernel.defs _ _).mono (fun _ h c => (h c).2) (Cert.Kernel.Hand.run_main (F := Bits) m ρ)

/-- The idealized kernel runs and leaves its arguments unchanged. -/
theorem frame_ki : Cert.frame_KernelIdeal := fun m ρ _ =>
  (θ_run Cert.KernelIdeal.defs _ _).mono (fun _ h c => (h c).2) (Cert.KernelIdeal.Hand.run_main (F := Ideal) m ρ)

/-- The idealized reference runs and leaves its arguments unchanged. -/
theorem frame_ri : Cert.frame_ReferenceIdeal := Cert.ReferenceIdeal.RefValue.frame_ri

/-- The ideal pass rewrote nothing: the idealization is the program's own text read over the extended reals. -/
theorem preserves : Cert.preserves_Kernel_KernelIdeal := trivial

/-- From memories that agree on the arguments both idealized programs end with the specification's function of
    those arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m ρ c), (h c).2⟩)
      (Cert.KernelIdeal.Hand.run_main (F := Ideal) m ρ)
  · refine (θ_run Cert.ReferenceIdeal.defs _ _).mono (fun _ h c => ⟨?_, (h c).2⟩)
      (Cert.ReferenceIdeal.RefValue.run_G m' ρ')
    rw [(h c).1, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
